-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3000 : Shape := ⟨2, ![32768, 3000]⟩
abbrev S_ : Shape := ⟨0, ![]⟩

class Facts : Prop where
  bcast_S_S32768x3000 : S_.BroadcastsInDim S32768x3000 (![] : Fin 0 → Fin S32768x3000.rank)
  reducesTo_S32768x3000_S_d0_1 : S32768x3000.ReducesTo [0, 1] S_
  h_S_ : 0 < S_.numel

variable [Facts]

def fn {F : FTy → Type} [FloatOps F] (main_arg0 : FVec F S32768x3000 .f32) : IVec S_ 1 :=
  let main_v0 : FVec F S32768x3000 .f32 := Host.absf main_arg0
  let main_cst : FVec F S_ .f32 := constant S_ .f32 0x7F800000#32
  let main_v1 : FVec F S32768x3000 .f32 := broadcastInDim S32768x3000 ![] bcast_S_S32768x3000 main_cst
  let main_v2 : IVec S32768x3000 1 := cmpf .olt main_v0 main_v1
  let main_c : IVec S_ 1 := constantI S_ 1 1#1
  let main_v3 : IVec S_ 1 := (fun x v => Host.reduce IntOp.andi x v reducesTo_S32768x3000_S_d0_1 h_S_) main_v2 main_c
  main_v3
-- ==== Kernel.lean ====
abbrev S32768x3000 : Shape := ⟨2, ![32768, 3000]⟩
abbrev S16x3000 : Shape := ⟨2, ![16, 3000]⟩
abbrev S512x3000 : Shape := ⟨2, ![512, 3000]⟩
abbrev S8x3000 : Shape := ⟨2, ![8, 3000]⟩
abbrev S1x3000 : Shape := ⟨2, ![1, 3000]⟩
abbrev S3000 : Shape := ⟨1, ![3000]⟩
abbrev S_ : Shape := ⟨0, ![]⟩
abbrev S512 : Shape := ⟨1, ![512]⟩
abbrev S512x1 : Shape := ⟨2, ![512, 1]⟩
abbrev S256x3000 : Shape := ⟨2, ![256, 3000]⟩
abbrev S256 : Shape := ⟨1, ![256]⟩
abbrev S256x1 : Shape := ⟨2, ![256, 1]⟩

abbrev nBuf : Space → Nat
  | .hbm => 33
  | .vmem => 24
  | .smem => 0
  | _ => 0

abbrev bufTy : (tb : Table) → Fin (tcTables nBuf tb) → BufTy
  | .hbm, ⟨0, _⟩ => ⟨S32768x3000, .f32⟩
  | .hbm, ⟨1, _⟩ => ⟨S32768x3000, .bf16⟩
  | .hbm, ⟨2, _⟩ => ⟨S16x3000, .f32⟩
  | .hbm, ⟨3, _⟩ => ⟨S1x3000, .f32⟩
  | .hbm, ⟨4, _⟩ => ⟨S1x3000, .f32⟩
  | .hbm, ⟨5, _⟩ => ⟨S1x3000, .f32⟩
  | .hbm, ⟨6, _⟩ => ⟨S_, .f32⟩
  | .hbm, ⟨7, _⟩ => ⟨S1x3000, .f32⟩
  | .hbm, ⟨8, _⟩ => ⟨S1x3000, .f32⟩
  | .hbm, ⟨9, _⟩ => ⟨S_, .f32⟩
  | .hbm, ⟨10, _⟩ => ⟨S1x3000, .f32⟩
  | .hbm, ⟨11, _⟩ => ⟨S1x3000, .f32⟩
  | .hbm, ⟨12, _⟩ => ⟨S16x3000, .f32⟩
  | .hbm, ⟨13, _⟩ => ⟨S1x3000, .f32⟩
  | .hbm, ⟨14, _⟩ => ⟨S1x3000, .f32⟩
  | .hbm, ⟨15, _⟩ => ⟨S1x3000, .f32⟩
  | .hbm, ⟨16, _⟩ => ⟨S_, .f32⟩
  | .hbm, ⟨17, _⟩ => ⟨S1x3000, .f32⟩
  | .hbm, ⟨18, _⟩ => ⟨S1x3000, .f32⟩
  | .hbm, ⟨19, _⟩ => ⟨S_, .f32⟩
  | .hbm, ⟨20, _⟩ => ⟨S1x3000, .f32⟩
  | .hbm, ⟨21, _⟩ => ⟨S1x3000, .f32⟩
  | .hbm, ⟨22, _⟩ => ⟨S16x3000, .f32⟩
  | .hbm, ⟨23, _⟩ => ⟨S1x3000, .f32⟩
  | .hbm, ⟨24, _⟩ => ⟨S1x3000, .f32⟩
  | .hbm, ⟨25, _⟩ => ⟨S1x3000, .f32⟩
  | .hbm, ⟨26, _⟩ => ⟨S_, .f32⟩
  | .hbm, ⟨27, _⟩ => ⟨S1x3000, .f32⟩
  | .hbm, ⟨28, _⟩ => ⟨S1x3000, .f32⟩
  | .hbm, ⟨29, _⟩ => ⟨S_, .f32⟩
  | .hbm, ⟨30, _⟩ => ⟨S1x3000, .f32⟩
  | .hbm, ⟨31, _⟩ => ⟨S1x3000, .f32⟩
  | .hbm, ⟨32, _⟩ => ⟨S32768x3000, .f32⟩
  | .local _ .vmem, ⟨0, _⟩ => ⟨S512x3000, .f32⟩
  | .local _ .vmem, ⟨1, _⟩ => ⟨S512x3000, .f32⟩
  | .local _ .vmem, ⟨2, _⟩ => ⟨S512x3000, .bf16⟩
  | .local _ .vmem, ⟨3, _⟩ => ⟨S512x3000, .bf16⟩
  | .local _ .vmem, ⟨4, _⟩ => ⟨S8x3000, .f32⟩
  | .local _ .vmem, ⟨5, _⟩ => ⟨S8x3000, .f32⟩
  | .local _ .vmem, ⟨6, _⟩ => ⟨S1x3000, .f32⟩
  | .local _ .vmem, ⟨7, _⟩ => ⟨S512x3000, .bf16⟩
  | .local _ .vmem, ⟨8, _⟩ => ⟨S512x3000, .bf16⟩
  | .local _ .vmem, ⟨9, _⟩ => ⟨S1x3000, .f32⟩
  | .local _ .vmem, ⟨10, _⟩ => ⟨S8x3000, .f32⟩
  | .local _ .vmem, ⟨11, _⟩ => ⟨S8x3000, .f32⟩
  | .local _ .vmem, ⟨12, _⟩ => ⟨S1x3000, .f32⟩
  | .local _ .vmem, ⟨13, _⟩ => ⟨S512x3000, .bf16⟩
  | .local _ .vmem, ⟨14, _⟩ => ⟨S512x3000, .bf16⟩
  | .local _ .vmem, ⟨15, _⟩ => ⟨S1x3000, .f32⟩
  | .local _ .vmem, ⟨16, _⟩ => ⟨S8x3000, .f32⟩
  | .local _ .vmem, ⟨17, _⟩ => ⟨S8x3000, .f32⟩
  | .local _ .vmem, ⟨18, _⟩ => ⟨S1x3000, .f32⟩
  | .local _ .vmem, ⟨19, _⟩ => ⟨S256x3000, .f32⟩
  | .local _ .vmem, ⟨20, _⟩ => ⟨S256x3000, .f32⟩
  | .local _ .vmem, ⟨21, _⟩ => ⟨S1x3000, .f32⟩
  | .local _ .vmem, ⟨22, _⟩ => ⟨S256x3000, .f32⟩
  | .local _ .vmem, ⟨23, _⟩ => ⟨S256x3000, .f32⟩
  | _, _ => ⟨S32768x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v14 : BitVec 1 := Scalar.cmpi .eq arg1 c31_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x3000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x3000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x3000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 32], ![false, false]⟩

def k2_cond2 (i : grid2.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_11 : BitVec 32 := 0#32
  let v27 : BitVec 1 := Scalar.cmpi .ne v26 c0_i32_11
  v27

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x3000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x3000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8x3000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x3000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x3000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S1x3000_S1x3000_0_0 : ∀ a, (![0, 0] : Fin 2 → Nat) a + S1x3000.size a ≤ S1x3000.size a
  h_S1x3000 : 0 < S1x3000.numel
  shapeCasts_S1x3000_S1x3000 : S1x3000.ShapeCasts S1x3000
  inb_S512x3000_S512x3000_0_0 : ∀ a, (![0, 0] : Fin 2 → Nat) a + S512x3000.size a ≤ S512x3000.size a
  h_S512x3000 : 0 < S512x3000.numel
  bitsLt_bf16_f32 : FTy.bits .bf16 < FTy.bits .f32
  packedbf16_S512x3000_S512x3000_0_0 : (Rect.unit (s := S512x3000) ![0, 0] S512x3000.size inb_S512x3000_S512x3000_0_0).PackedRows (EltTy.packing .bf16)
  reduces_S512x3000_S3000 : S512x3000.Reduces [0] S3000
  shapeCasts_S3000_S1x3000 : S3000.ShapeCasts S1x3000
  broadcasts_S1x3000_S8x3000 : S1x3000.Broadcasts S8x3000
  inb_S8x3000_S8x3000_0_0 : ∀ a, (![0, 0] : Fin 2 → Nat) a + S8x3000.size a ≤ S8x3000.size a
  h_S8x3000 : 0 < S8x3000.numel
  slices_S16x3000_S1x3000_0_0 : S16x3000.Slices ![0, 0] S1x3000
  slices_S16x3000_S1x3000_8_0 : S16x3000.Slices ![8, 0] S1x3000
  bcast_S_S1x3000 : S_.BroadcastsInDim S1x3000 (![] : Fin 0 → Fin S1x3000.rank)
  shapeCasts_S512x3000_S512x3000 : S512x3000.ShapeCasts S512x3000
  broadcasts_S1x3000_S512x3000 : S1x3000.Broadcasts S512x3000
  reduces_S512x3000_S512 : S512x3000.Reduces [1] S512
  shapeCasts_S512_S512x1 : S512.ShapeCasts S512x1
  broadcasts_S512x1_S512x3000 : S512x1.Broadcasts S512x3000
  inb_S256x3000_S256x3000_0_0 : ∀ a, (![0, 0] : Fin 2 → Nat) a + S256x3000.size a ≤ S256x3000.size a
  h_S256x3000 : 0 < S256x3000.numel
  broadcasts_S1x3000_S256x3000 : S1x3000.Broadcasts S256x3000
  reduces_S256x3000_S256 : S256x3000.Reduces [1] S256
  shapeCasts_S256_S256x1 : S256.ShapeCasts S256x1
  broadcasts_S256x1_S256x3000 : S256x1.Broadcasts S256x3000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3000.size a ≤ S32768x3000.size a
  hwx0_0 : ∀ i : grid0.Coords, EltTy.bits .f32 = 32 ∨ (Rect.block (s := S32768x3000) S512x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3000.size a ≤ S32768x3000.size a
  hwx0_1 : ∀ i : grid0.Coords, EltTy.bits .bf16 = 32 ∨ (Rect.block (s := S32768x3000) S512x3000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3000.size a ≤ S16x3000.size a
  hwx0_2 : ∀ i : grid0.Coords, EltTy.bits .f32 = 32 ∨ (Rect.block (s := S16x3000) S8x3000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3000.size a ≤ S32768x3000.size a
  hwx1_0 : ∀ i : grid1.Coords, EltTy.bits .bf16 = 32 ∨ (Rect.block (s := S32768x3000) S512x3000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3000.size a ≤ S1x3000.size a
  hwx1_1 : ∀ i : grid1.Coords, EltTy.bits .f32 = 32 ∨ (Rect.block (s := S1x3000) S1x3000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x3000.size a ≤ S16x3000.size a
  hwx1_2 : ∀ i : grid1.Coords, EltTy.bits .f32 = 32 ∨ (Rect.block (s := S16x3000) S8x3000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x3000.size a ≤ S32768x3000.size a
  hwx2_0 : ∀ i : grid2.Coords, EltTy.bits .bf16 = 32 ∨ (Rect.block (s := S32768x3000) S512x3000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x3000.size a ≤ S1x3000.size a
  hwx2_1 : ∀ i : grid2.Coords, EltTy.bits .f32 = 32 ∨ (Rect.block (s := S1x3000) S1x3000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x3000.size a ≤ S16x3000.size a
  hwx2_2 : ∀ i : grid2.Coords, EltTy.bits .f32 = 32 ∨ (Rect.block (s := S16x3000) S8x3000.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x3000.size a ≤ S32768x3000.size a
  hwx3_0 : ∀ i : grid3.Coords, EltTy.bits .f32 = 32 ∨ (Rect.block (s := S32768x3000) S256x3000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3000.size a ≤ S1x3000.size a
  hwx3_1 : ∀ i : grid3.Coords, EltTy.bits .f32 = 32 ∨ (Rect.block (s := S1x3000) S1x3000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x3000.size a ≤ S32768x3000.size a
  hwx3_2 : ∀ i : grid3.Coords, EltTy.bits .f32 = 32 ∨ (Rect.block (s := S32768x3000) S256x3000.size (cc3_transform_2 i) (hinb3_2 i)).WholeWords (EltTy.packing .f32)

variable [Facts₀]

abbrev win0_0 : Pipeline.Window sig grid0 :=
  Pipeline.Window.ofSpec (Memref.whole main_arg0) S512x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x3000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x3000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0_0) S512x3000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x3000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8x3000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0_0) S512x3000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x3000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S8x3000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg0) S256x3000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x3000.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S256x3000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S32768x3000 : Shape := ⟨2, ![32768, 3000]⟩
abbrev S3000x32768 : Shape := ⟨2, ![3000, 32768]⟩
abbrev S_ : Shape := ⟨0, ![]⟩
abbrev S3000 : Shape := ⟨1, ![3000]⟩
abbrev S3000x1 : Shape := ⟨2, ![3000, 1]⟩
abbrev S32768 : Shape := ⟨1, ![32768]⟩
abbrev S1x32768 : Shape := ⟨2, ![1, 32768]⟩

abbrev nBuf : Space → Nat
  | .hbm => 59
  | .vmem => 0
  | .smem => 0
  | _ => 0

abbrev bufTy : (tb : Table) → Fin (tcTables nBuf tb) → BufTy
  | .hbm, ⟨0, _⟩ => ⟨S32768x3000, .f32⟩
  | .hbm, ⟨1, _⟩ => ⟨S32768x3000, .f32⟩
  | .hbm, ⟨2, _⟩ => ⟨S3000x32768, .f32⟩
  | .hbm, ⟨3, _⟩ => ⟨S_, .f32⟩
  | .hbm, ⟨4, _⟩ => ⟨S_, .f32⟩
  | .hbm, ⟨5, _⟩ => ⟨S3000x32768, .f32⟩
  | .hbm, ⟨6, _⟩ => ⟨S3000x32768, .f32⟩
  | .hbm, ⟨7, _⟩ => ⟨S_, .f32⟩
  | .hbm, ⟨8, _⟩ => ⟨S3000, .f32⟩
  | .hbm, ⟨9, _⟩ => ⟨S3000x1, .f32⟩
  | .hbm, ⟨10, _⟩ => ⟨S_, .f32⟩
  | .hbm, ⟨11, _⟩ => ⟨S3000x1, .f32⟩
  | .hbm, ⟨12, _⟩ => ⟨S3000x1, .f32⟩
  | .hbm, ⟨13, _⟩ => ⟨S3000x32768, .f32⟩
  | .hbm, ⟨14, _⟩ => ⟨S3000x32768, .f32⟩
  | .hbm, ⟨15, _⟩ => ⟨S_, .f32⟩
  | .hbm, ⟨16, _⟩ => ⟨S32768, .f32⟩
  | .hbm, ⟨17, _⟩ => ⟨S1x32768, .f32⟩
  | .hbm, ⟨18, _⟩ => ⟨S_, .f32⟩
  | .hbm, ⟨19, _⟩ => ⟨S1x32768, .f32⟩
  | .hbm, ⟨20, _⟩ => ⟨S1x32768, .f32⟩
  | .hbm, ⟨21, _⟩ => ⟨S3000x32768, .f32⟩
  | .hbm, ⟨22, _⟩ => ⟨S3000x32768, .f32⟩
  | .hbm, ⟨23, _⟩ => ⟨S_, .f32⟩
  | .hbm, ⟨24, _⟩ => ⟨S3000, .f32⟩
  | .hbm, ⟨25, _⟩ => ⟨S3000x1, .f32⟩
  | .hbm, ⟨26, _⟩ => ⟨S_, .f32⟩
  | .hbm, ⟨27, _⟩ => ⟨S3000x1, .f32⟩
  | .hbm, ⟨28, _⟩ => ⟨S3000x1, .f32⟩
  | .hbm, ⟨29, _⟩ => ⟨S3000x32768, .f32⟩
  | .hbm, ⟨30, _⟩ => ⟨S3000x32768, .f32⟩
  | .hbm, ⟨31, _⟩ => ⟨S_, .f32⟩
  | .hbm, ⟨32, _⟩ => ⟨S32768, .f32⟩
  | .hbm, ⟨33, _⟩ => ⟨S1x32768, .f32⟩
  | .hbm, ⟨34, _⟩ => ⟨S_, .f32⟩
  | .hbm, ⟨35, _⟩ => ⟨S1x32768, .f32⟩
  | .hbm, ⟨36, _⟩ => ⟨S1x32768, .f32⟩
  | .hbm, ⟨37, _⟩ => ⟨S3000x32768, .f32⟩
  | .hbm, ⟨38, _⟩ => ⟨S3000x32768, .f32⟩
  | .hbm, ⟨39, _⟩ => ⟨S_, .f32⟩
  | .hbm, ⟨40, _⟩ => ⟨S3000, .f32⟩
  | .hbm, ⟨41, _⟩ => ⟨S3000x1, .f32⟩
  | .hbm, ⟨42, _⟩ => ⟨S_, .f32⟩
  | .hbm, ⟨43, _⟩ => ⟨S3000x1, .f32⟩
  | .hbm, ⟨44, _⟩ => ⟨S3000x1, .f32⟩
  | .hbm, ⟨45, _⟩ => ⟨S3000x32768, .f32⟩
  | .hbm, ⟨46, _⟩ => ⟨S3000x32768, .f32⟩
  | .hbm, ⟨47, _⟩ => ⟨S_, .f32⟩
  | .hbm, ⟨48, _⟩ => ⟨S32768, .f32⟩
  | .hbm, ⟨49, _⟩ => ⟨S1x32768, .f32⟩
  | .hbm, ⟨50, _⟩ => ⟨S_, .f32⟩
  | .hbm, ⟨51, _⟩ => ⟨S1x32768, .f32⟩
  | .hbm, ⟨52, _⟩ => ⟨S1x32768, .f32⟩
  | .hbm, ⟨53, _⟩ => ⟨S3000x32768, .f32⟩
  | .hbm, ⟨54, _⟩ => ⟨S3000x32768, .f32⟩
  | .hbm, ⟨55, _⟩ => ⟨S_, .f32⟩
  | .hbm, ⟨56, _⟩ => ⟨S3000x32768, .f32⟩
  | .hbm, ⟨57, _⟩ => ⟨S3000x32768, .f32⟩
  | .hbm, ⟨58, _⟩ => ⟨S32768x3000, .f32⟩
  | _, _ => ⟨S32768x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_10 : Ref sig .tc := ⟨.hbm, 47, rfl⟩
abbrev main_v35 : Ref sig .tc := ⟨.hbm, 48, rfl⟩
abbrev main_v36 : Ref sig .tc := ⟨.hbm, 49, rfl⟩
abbrev main_cst_11 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_12 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  transposes_S32768x3000_S3000x32768_1_0 : S32768x3000.Transposes [1, 0] S3000x32768
  reducesTo_S3000x32768_S_d0_1 : S3000x32768.ReducesTo [0, 1] S_
  h_S_ : 0 < S_.numel
  bcast_S_S3000x32768 : S_.BroadcastsInDim S3000x32768 (![] : Fin 0 → Fin S3000x32768.rank)
  reducesTo_S3000x32768_S3000_d1 : S3000x32768.ReducesTo [1] S3000
  bcast_S3000_S3000x1_0 : S3000.BroadcastsInDim S3000x1 (![0] : Fin 1 → Fin S3000x1.rank)
  bcast_S_S3000x1 : S_.BroadcastsInDim S3000x1 (![] : Fin 0 → Fin S3000x1.rank)
  bcast_S3000x1_S3000x32768_0_1 : S3000x1.BroadcastsInDim S3000x32768 (![0, 1] : Fin 2 → Fin S3000x32768.rank)
  reducesTo_S3000x32768_S32768_d0 : S3000x32768.ReducesTo [0] S32768
  bcast_S32768_S1x32768_1 : S32768.BroadcastsInDim S1x32768 (![1] : Fin 1 → Fin S1x32768.rank)
  bcast_S_S1x32768 : S_.BroadcastsInDim S1x32768 (![] : Fin 0 → Fin S1x32768.rank)
  bcast_S1x32768_S3000x32768_0_1 : S1x32768.BroadcastsInDim S3000x32768 (![0, 1] : Fin 2 → Fin S3000x32768.rank)
  transposes_S3000x32768_S32768x3000_1_0 : S3000x32768.Transposes [1, 0] S32768x3000

variable [Facts₀]

class Facts : Prop extends Facts₀ where

variable [Facts]
-- ==== Proof.KBR0Base.lean ====
/-
  First pallas_call (E = exp(logits) written out in bf16, and the column sums of E accumulated over the 32 row tiles
  of each half of the rows): what its runs are stated over.

  The grid is 2 × 32; point t = 32·h + j is tile j of half h. The body clears its accumulator when j = 0, adds the
  tile's column sums at every point, and copies the accumulator into the half's output block when j = 31. So there
  are three kinds of point — first of a half, middle, last of a half — told apart by t mod 32, and the block of column
  sums is idle (neither stored nor written back) except at the last point of a half.
-/
import proofs.«131687_j32452772888869_2_alg».proof.Proof.Gen.Kernel.Launch
import proofs.«131687_j32452772888869_2_alg».proof.Proof.Gen.Kernel.Skeleton
import proofs.«131687_j32452772888869_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' staging buffer holds the point's tile at every point, for any proof data over these arrays whose body
    leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, in closed form over the grid -/

/-- "This is the first tile of its half" (j = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last tile of its half" (j = 31). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev VO0_1 : View sig .tc .vmem S512x3000 .bf16 := (Memref.whole cc0_stg1_0 : Memref sig .tc .vmem S512x3000 .bf16).view
abbrev VO0_2 : View sig .tc .vmem S8x3000 .f32 := (Memref.whole cc0_stg2_0 : Memref sig .tc .vmem S8x3000 .f32).view
abbrev ms0_0 (t : Fin cfg0.N) : Memref sig .tc .vmem S512x3000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3000 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x3000 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1x3000 .f32 := Memref.whole cc0_scratch0
abbrev VS0_0 : View sig .tc .vmem S1x3000 .f32 := scM0_0.view

/-- The scoped buffers of the other three calls (their staging buffers and accumulators), each whole at some contents:
    this call never touches them, and they ride through its invariant. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class invariant with the accumulator exposed as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.KBFrame

end
-- ==== Proof.KBR0RunA.lean ====
/-
  First pallas_call, at the first tile of a half: the accumulator is cleared, E's tile is written, the tile's column sums are added; the block of column sums is left untouched.
-/
import proofs.«131687_j32452772888869_2_alg».proof.Proof.KBR0Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — the logits' tile at `x0`, the other buffers as stated — the body runs to a continuation that holds the tile as it
    was and each written buffer with those pieces written. The pieces are found by running the body symbolically. -/
noncomputable def kernelRun0_A (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i)
    (x0 : Vec F S512x3000 .f32) :
    Σ' (L1 : List (View.Piece (Elt F) S512x3000 .bf16)), { LS0 : List (View.Piece (Elt F) S1x3000 .f32) //
      ∀ (xi2 : Vec F S8x3000 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__exp_r1_kernel i arg2 harg2 arg3 harg3 arg4 harg4 arg5 harg5) K } := by
  refine ⟨?_, ?_, fun xi2 E K => ?run⟩
  case run =>
    simp only [cc0__exp_r1_kernel_eq_skeleton]; unfold cc0__exp_r1_kernel_skel
    unfold owns
    iintro ⟨⟨%f0, %hf0, H0⟩, ⟨%d1, %f1, -, H1⟩, ⟨%f2, %hf2, H2⟩, ⟨%ds0, %fs0, -, HS0⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS0

end Cert.KBFrame

end
-- ==== Proof.KBR0RunB.lean ====
/-
  First pallas_call, at a middle tile of a half: E's tile is written and the tile's column sums are added to the accumulator, which holds `xs0`; the block of column sums is left untouched.
-/
import proofs.«131687_j32452772888869_2_alg».proof.Proof.KBR0Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — the logits' tile at `x0`, the other buffers as stated — the body runs to a continuation that holds the tile as it
    was and each written buffer with those pieces written. The pieces are found by running the body symbolically. -/
noncomputable def kernelRun0_B (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i)
    (x0 : Vec F S512x3000 .f32) (xs0 : Vec F S1x3000 .f32) :
    Σ' (L1 : List (View.Piece (Elt F) S512x3000 .bf16)), { LS0 : List (View.Piece (Elt F) S1x3000 .f32) //
      ∀ (xi2 : Vec F S8x3000 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__exp_r1_kernel i arg2 harg2 arg3 harg3 arg4 harg4 arg5 harg5) K } := by
  refine ⟨?_, ?_, fun xi2 E K => ?run⟩
  case run =>
    simp only [cc0__exp_r1_kernel_eq_skeleton]; unfold cc0__exp_r1_kernel_skel
    unfold owns
    iintro ⟨⟨%f0, %hf0, H0⟩, ⟨%d1, %f1, -, H1⟩, ⟨%f2, %hf2, H2⟩, ⟨%fs0, %hfs0, HS0⟩, Hk⟩
    obtain rfl := harg2.eq_unread hf0; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS0

end Cert.KBFrame

end
-- ==== Proof.KBR0RunC.lean ====
/-
  First pallas_call, at the last tile of a half: E's tile is written, the tile's column sums are added to the accumulator, which holds `xs0`, and the accumulator is copied into every row of the block of column sums.
-/
import proofs.«131687_j32452772888869_2_alg».proof.Proof.KBR0Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — the logits' tile at `x0`, the other buffers as stated — the body runs to a continuation that holds the tile as it
    was and each written buffer with those pieces written. The pieces are found by running the body symbolically. -/
noncomputable def kernelRun0_C (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i)
    (x0 : Vec F S512x3000 .f32) (xs0 : Vec F S1x3000 .f32) :
    Σ' (L1 : List (View.Piece (Elt F) S512x3000 .bf16)) (L2 : List (View.Piece (Elt F) S8x3000 .f32)), { LS0 : List (View.Piece (Elt F) S1x3000 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__exp_r1_kernel i arg2 harg2 arg3 harg3 arg4 harg4 arg5 harg5) K } := by
  refine ⟨?_, ?_, ?_, fun E K => ?run⟩
  case run =>
    simp only [cc0__exp_r1_kernel_eq_skeleton]; unfold cc0__exp_r1_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.KBFrame

end
-- ==== Proof.KBR0.lean ====
/-
  First pallas_call: what its three kinds of point leave, the accumulation point by point, the invariant that names
  the accumulator's contents between points, the proof data and the body obligation.

  After point t = 32·h + j the accumulator holds the column sums of E over tiles 0..j of half h (cleared at j = 0);
  E's tile is written at every point; the half's block of column sums is written at j = 31 only. Between points the
  invariant holds the accumulator at exactly these contents, the other calls' scoped buffers at anything, and the
  generator register at some state; before the first point and after the last it is the plain class invariant.
-/
import proofs.«131687_j32452772888869_2_alg».proof.Proof.KBR0RunA
import proofs.«131687_j32452772888869_2_alg».proof.Proof.KBR0RunB
import proofs.«131687_j32452772888869_2_alg».proof.Proof.KBR0RunC

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The block of column sums where no case stores into it: a placeholder nothing consults (the window is idle there:
    neither written back nor read at the next point). -/
def out0_I_2 : Vec F S8x3000 .f32 := VO0_2.read (Elt F) (VO0_2.writes (Elt F) VO0_2.junk [])

/-- Case A: the one store into E's tile covers it. -/
theorem cover0_A_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) (y : S512x3000.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S512x3000.size (by sl_kernel_rfl) y
/-- What case A leaves in E's staging buffer. -/
def out0_A_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) : Vec F S512x3000 .bf16 :=
  VO0_1.read (Elt F) (VO0_1.writes (Elt F) VO0_1.junk (kernelRun0_A c i arg2 harg2 arg3 harg3 arg4 harg4 arg5 harg5 hc0 hc1 x0).1)
/-- Case A: the stores into the accumulator cover it. -/
theorem scover0_A_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) (y : S1x3000.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1x3000.size (by sl_kernel_rfl) y
/-- What case A leaves in the accumulator. -/
def sout0_A_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) : Vec F S1x3000 .f32 :=
  VS0_0.read (Elt F) (VS0_0.writes (Elt F) VS0_0.junk (kernelRun0_A c i arg2 harg2 arg3 harg3 arg4 harg4 arg5 harg5 hc0 hc1 x0).2.1)

/-- Case B: the one store into E's tile covers it. -/
theorem cover0_B_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) (y : S512x3000.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S512x3000.size (by sl_kernel_rfl) y
/-- What case B leaves in E's staging buffer. -/
def out0_B_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) : Vec F S512x3000 .bf16 :=
  VO0_1.read (Elt F) (VO0_1.writes (Elt F) VO0_1.junk (kernelRun0_B c i arg2 harg2 arg3 harg3 arg4 harg4 arg5 harg5 hc0 hc1 x0 xs0).1)
/-- Case B: the stores into the accumulator cover it. -/
theorem scover0_B_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) (y : S1x3000.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1x3000.size (by sl_kernel_rfl) y
/-- What case B leaves in the accumulator. -/
def sout0_B_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) : Vec F S1x3000 .f32 :=
  VS0_0.read (Elt F) (VS0_0.writes (Elt F) VS0_0.junk (kernelRun0_B c i arg2 harg2 arg3 harg3 arg4 harg4 arg5 harg5 hc0 hc1 x0 xs0).2.1)

/-- Case C: the one store into E's tile covers it. -/
theorem cover0_C_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) (y : S512x3000.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S512x3000.size (by sl_kernel_rfl) y
/-- What case C leaves in E's staging buffer. -/
def out0_C_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) : Vec F S512x3000 .bf16 :=
  VO0_1.read (Elt F) (VO0_1.writes (Elt F) VO0_1.junk (kernelRun0_C c i arg2 harg2 arg3 harg3 arg4 harg4 arg5 harg5 hc0 hc1 x0 xs0).1)
/-- Case C: the stores into the accumulator cover it. -/
theorem scover0_C_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) (y : S1x3000.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S1x3000.size (by sl_kernel_rfl) y
/-- What case C leaves in the accumulator. -/
def sout0_C_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) : Vec F S1x3000 .f32 :=
  VS0_0.read (Elt F) (VS0_0.writes (Elt F) VS0_0.junk (kernelRun0_C c i arg2 harg2 arg3 harg3 arg4 harg4 arg5 harg5 hc0 hc1 x0 xs0).2.2.1)

/-- Case C: the one store into the block of column sums covers it. -/
theorem cover0_C_2 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) (y : S8x3000.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S8x3000.size (by sl_kernel_rfl) y
/-- What case C leaves in the staging buffer of the block of column sums. -/
def out0_C_2 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) : Vec F S8x3000 .f32 :=
  VO0_2.read (Elt F) (VO0_2.writes (Elt F) VO0_2.junk (kernelRun0_C c i arg2 harg2 arg3 harg3 arg4 harg4 arg5 harg5 hc0 hc1 x0 xs0).2.1)

section
variable (V : (c : Dev nD) → (b : Ref sig .tc) → Buf (Elt F) ((c : Thread nD τ).loc b))

/-! ## What the buffers hold after each point -/

/-- THE ACCUMULATION: E's tile, the block of column sums and the accumulator after the body at position `n`: the case
    the closed forms select at `n`, run on the point's tile of logits, the accumulator at what position `n - 1` left. -/
def outsAt0 (c : Dev nD) : (n : ℕ) → n < cfg0.N → Vec F S512x3000 .bf16 × Vec F S8x3000 .f32 × Vec F S1x3000 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_I_2 (F := F), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 32 = 0 then
      if h1 : (n + 1) % 32 = 31 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_I_2 (F := F), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_I_2 (F := F), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

theorem outsAt0_A (c : Dev nD) (t : Fin cfg0.N) (h0 : t.val % 32 = 0) (h1 : ¬t.val % 32 = 31) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_I_2 (F := F), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_I_2 (F := F), sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class invariant (the accumulator at anything); afterwards the accumulator at what the
    point before left in it, the other calls' scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 (F := F) c) ∗ (∃ r, prngReg c r)) := by
  cases n with
  | zero => exact absurd rfl hz
  | succ n => rfl

/-! ## The proof data -/

/-- The arrays as the call finds them; after the body at point `t` the logits' buffer at its tile and the two outputs'
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which kind of point it is; the invariant hands the body the accumulator
    at what the point before left (at anything at a half's first tile) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 32 = 0
  · have h1 : ¬t.val % 32 = 31 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold out0_A_1 sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t)).2.2 _ Set.univ _)
      isplitl [H0]; · iexact H0
      isplitl [H1]; · iexists _; iexact H1
      isplitl [H2]; · iexact H2
      isplitl [HS0]; · iexact HS0
      iintro ⟨H0, ⟨%e1, H1⟩, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_A_1 c _ _ _ _ _ _ _ _ _ _ _ _)
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t)).2.2 _ Set.univ _)
      isplitl [H0]; · iexact H0
      isplitl [H1]; · iexists _; iexact H1
      isplitl [H2]; · iexact H2
      isplitl [HS0]; · iexists _; iexact HS0
      iintro ⟨H0, ⟨%e1, H1⟩, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_A_1 c _ _ _ _ _ _ _ _ _ _ _ _)
      iexists _; iexact H2
  · have hz : t.val ≠ 0 := by omega
    by_cases h1 : t.val % 32 = 31
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_1 out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold out0_B_1 sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) _).2.2 _ Set.univ _)
      isplitl [H0]; · iexact H0
      isplitl [H1]; · iexists _; iexact H1
      isplitl [H2]; · iexact H2
      isplitl [HS0]; · iexact HS0
      iintro ⟨H0, ⟨%e1, H1⟩, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_B_1 c _ _ _ _ _ _ _ _ _ _ _ _ _)
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem Phi_last0 (c : Dev nD) : (dat0 V c).Φ (Fin.last cfg0.N) ⊢ Pipeline.ΦA spec0 c :=
  Phi_out0 V c _ (by rw [Fin.val_last]; have : cfg0.N = 64 := N_0; omega)

end

end Cert.KBFrame

end
-- ==== Proof.KBR1Base.lean ====
/-
  A fused pass (call 1): from the column weights r it forms each row's weight c = 1/(3000·Σ_b E·r) and accumulates the
  column sums of E·c over the 32 row tiles of each half of the rows: what its runs are stated over.

  The grid is 2 × 32; point t = 32·h + j is tile j of half h. The body clears its accumulator when j = 0, adds the
  tile's weighted column sums at every point, and copies the accumulator into the half's output block when j = 31. The
  column weights are one block, fetched once; the output block is idle except at the last point of a half.
-/
import proofs.«131687_j32452772888869_2_alg».proof.Proof.Gen.Kernel.Launch
import proofs.«131687_j32452772888869_2_alg».proof.Proof.Gen.Kernel.Skeleton
import proofs.«131687_j32452772888869_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- E's staging buffer holds the point's tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column weights' staging buffer holds them at every point, fetched there or not (the block never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions of the body, in closed form over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S8x3000 .f32 := (Memref.whole cc1_stg2_0 : Memref sig .tc .vmem S8x3000 .f32).view
abbrev ms1_0 (t : Fin cfg1.N) : Memref sig .tc .vmem S512x3000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x3000 .f32 := win1_2.stage (cfg1.slots t 2)
abbrev hs1_2 (t : Fin cfg1.N) : (ms1_2 t).IsWhole := hstage1_2 ((cfg1.slots t 2).cast nbuf1_2)
abbrev scM1_0 : Memref sig .tc .vmem S1x3000 .f32 := Memref.whole cc1_scratch0
abbrev VS1_0 : View sig .tc .vmem S1x3000 .f32 := scM1_0.view

/-- The scoped buffers no window of this call stages, in the order the class invariant lists them, with the
    accumulator's place held by `X`: the other calls' staging buffers and accumulators, each whole at some contents,
    ride through this call's invariant around its own accumulator. -/
abbrev around1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class invariant with the accumulator exposed as a memref owned at some contents. -/
theorem PhiA1_eq (c : Dev nD) :
    (Pipeline.ΦA spec1 c : sProp 𝕄)
      = iprop(around1 (F := F) c (iprop(∃ d, owns (c : Thread nD τ) scM1_0 fullShare d)) ∗ (∃ r, prngReg c r)) := by
  unfold Pipeline.ΦA; rw [scopedRest1_eq]; simp only [scM1_0, owns_whole]; try rfl

end Cert.KBFrame

end
-- ==== Proof.KBR1RunA.lean ====
/-
  Fused pass 1, at the first tile of a half: the accumulator is cleared and the tile's weighted column sums are added; the output block is left untouched.
-/
import proofs.«131687_j32452772888869_2_alg».proof.Proof.KBR1Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun1_A (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i)
    (x0 : Vec F S512x3000 .bf16) (x1 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fused_cr_kernel i arg2 harg2 arg3 harg3 arg4 harg4 arg5 harg5) K } := by
  refine ⟨?_, fun xi2 E K => ?run⟩
  case run =>
    simp only [cc1__fused_cr_kernel_eq_skeleton]; unfold cc1__fused_cr_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KBFrame

end
-- ==== Proof.KBR1RunB.lean ====
/-
  Fused pass 1, at a middle tile of a half: the tile's weighted column sums are added to the accumulator, which holds `xs0`; the output block is left untouched.
-/
import proofs.«131687_j32452772888869_2_alg».proof.Proof.KBR1Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun1_B (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i)
    (x0 : Vec F S512x3000 .bf16) (x1 : Vec F S1x3000 .f32) (xs0 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fused_cr_kernel i arg2 harg2 arg3 harg3 arg4 harg4 arg5 harg5) K } := by
  refine ⟨?_, fun xi2 E K => ?run⟩
  case run =>
    simp only [cc1__fused_cr_kernel_eq_skeleton]; unfold cc1__fused_cr_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KBFrame

end
-- ==== Proof.KBR1RunC.lean ====
/-
  Fused pass 1, at the last tile of a half: the tile's weighted column sums are added to the accumulator, which holds `xs0`, and the accumulator is copied into every row of the output block.
-/
import proofs.«131687_j32452772888869_2_alg».proof.Proof.KBR1Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun1_C (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i)
    (x0 : Vec F S512x3000 .bf16) (x1 : Vec F S1x3000 .f32) (xs0 : Vec F S1x3000 .f32) :
    Σ' (L2 : List (View.Piece (Elt F) S8x3000 .f32)), { LS0 : List (View.Piece (Elt F) S1x3000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__fused_cr_kernel i arg2 harg2 arg3 harg3 arg4 harg4 arg5 harg5) K } := by
  refine ⟨?_, ?_, fun E K => ?run⟩
  case run =>
    simp only [cc1__fused_cr_kernel_eq_skeleton]; unfold cc1__fused_cr_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KBFrame

end
-- ==== Proof.KBR1.lean ====
/-
  Fused pass 1: what its three kinds of point leave, the accumulation point by point, the invariant that names the
  accumulator's contents between points, the proof data and the body obligation.

  After point t = 32·h + j the accumulator holds the column sums of E·c over tiles 0..j of half h (cleared at j = 0), c
  the rows' weights from the column weights the call was given; the half's output block is written at j = 31 only.
-/
import proofs.«131687_j32452772888869_2_alg».proof.Proof.KBR1RunA
import proofs.«131687_j32452772888869_2_alg».proof.Proof.KBR1RunB
import proofs.«131687_j32452772888869_2_alg».proof.Proof.KBR1RunC

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output block where no case stores into it: a placeholder nothing consults (the window is idle there). -/
def out1_I_2 : Vec F S8x3000 .f32 := VO1_2.read (Elt F) (VO1_2.writes (Elt F) VO1_2.junk [])

theorem scover1_A_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i) (x0 : Vec F S512x3000 .bf16) (x1 : Vec F S1x3000 .f32) (y : S1x3000.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x3000.size (by sl_kernel_rfl) y
/-- What case A leaves in the accumulator. -/
def sout1_A_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i) (x0 : Vec F S512x3000 .bf16) (x1 : Vec F S1x3000 .f32) : Vec F S1x3000 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i) (x0 : Vec F S512x3000 .bf16) (x1 : Vec F S1x3000 .f32) (xs0 : Vec F S1x3000 .f32) (y : S1x3000.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1x3000.size (by sl_kernel_rfl) y
/-- What case B leaves in the accumulator. -/
def sout1_B_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i) (x0 : Vec F S512x3000 .bf16) (x1 : Vec F S1x3000 .f32) (xs0 : Vec F S1x3000 .f32) : Vec F S1x3000 .f32 :=
  VS1_0.read (Elt F) (VS1_0.writes (Elt F) VS1_0.junk (kernelRun1_B c i arg2 harg2 arg3 harg3 arg4 harg4 arg5 harg5 hc0 hc1 x0 x1 xs0).1)

theorem scover1_C_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) (y : S1x3000.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x3000.size (by sl_kernel_rfl) y
/-- What case C leaves in the accumulator. -/
def sout1_C_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) : Vec F S1x3000 .f32 :=
  VS1_0.read (Elt F) (VS1_0.writes (Elt F) VS1_0.junk (kernelRun1_C c i arg2 harg2 arg3 harg3 arg4 harg4 arg5 harg5 hc0 hc1 x0 x1 xs0).2.1)

theorem cover1_C_2 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) (y : S8x3000.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x3000.size (by sl_kernel_rfl) y
/-- What case C leaves in the output block's staging buffer. -/
def out1_C_2 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) : Vec F S8x3000 .f32 :=
  VO1_2.read (Elt F) (VO1_2.writes (Elt F) VO1_2.junk (kernelRun1_C c i arg2 harg2 arg3 harg3 arg4 harg4 arg5 harg5 hc0 hc1 x0 x1 xs0).1)

section
variable (V : (c : Dev nD) → (b : Ref sig .tc) → Buf (Elt F) ((c : Thread nD τ).loc b))

/-- THE ACCUMULATION: the output block and the accumulator after the body at position `n`. -/
def outsAt1 (c : Dev nD) : (n : ℕ) → n < cfg1.N → Vec F S8x3000 .f32 × Vec F S1x3000 .f32
  | 0, hn => (out1_I_2 (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by omega)
      else
        (out1_I_2 (F := F), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_I_2 (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_I_2 (F := F), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)
theorem outsAt1_B (c : Dev nD) (t : Fin cfg1.N) (h0 : ¬t.val % 32 = 0) (h1 : ¬t.val % 32 = 31) :
    outsAt1 V c t.val t.isLt = (out1_I_2 (F := F), sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- Before the first point the class invariant; afterwards the accumulator at what the point before left in it, the
    other calls' scoped buffers at anything, the generator register at some state. -/
def PhiS1 (c : Dev nD) : (n : ℕ) → n ≤ cfg1.N → sProp 𝕄
  | 0, _ => Pipeline.ΦA spec1 c
  | n + 1, hn => iprop(around1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(around1 (F := F) c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(around1 (F := F) c (owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 32 = 0
  · have h1 : ¬t.val % 32 = 31 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by omega
    by_cases h1 : t.val % 32 = 31
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hb0, Hb1, Hb2, Hb3, Hb4, Hb5, Hb6, HS0, Hoth⟩, Hg⟩
  isplitl [Hb0 Hb1 Hb2 Hb3 Hb4 Hb5 Hb6 HS0 Hoth]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [HS0]
    · iexists _; iexact HS0
    iexact Hoth
  iexact Hg

theorem Phi_last1 (c : Dev nD) : (dat1 V c).Φ (Fin.last cfg1.N) ⊢ Pipeline.ΦA spec1 c :=
  Phi_out1 V c _ (by rw [Fin.val_last]; have : cfg1.N = 64 := N_1; omega)

end

end Cert.KBFrame

end
-- ==== Proof.KBR2Base.lean ====
/-
  A fused pass (call 2): from the column weights r it forms each row's weight c = 1/(3000·Σ_b E·r) and accumulates the
  column sums of E·c over the 32 row tiles of each half of the rows: what its runs are stated over.

  The grid is 2 × 32; point t = 32·h + j is tile j of half h. The body clears its accumulator when j = 0, adds the
  tile's weighted column sums at every point, and copies the accumulator into the half's output block when j = 31. The
  column weights are one block, fetched once; the output block is idle except at the last point of a half.
-/
import proofs.«131687_j32452772888869_2_alg».proof.Proof.Gen.Kernel.Launch
import proofs.«131687_j32452772888869_2_alg».proof.Proof.Gen.Kernel.Skeleton
import proofs.«131687_j32452772888869_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- E's staging buffer holds the point's tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The column weights' staging buffer holds them at every point, fetched there or not (the block never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The two conditions of the body, in closed form over the grid -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 32 = 0 :=
  (by decide +kernel : ∀ t : Fin grid2.N, cond2_0 (grid2.coords t) ↔ t.val % 32 = 0)
abbrev cond2_1 (i : grid2.Coords) : Prop := k2_cond2 i = 1#1
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S8x3000 .f32 := (Memref.whole cc2_stg2_0 : Memref sig .tc .vmem S8x3000 .f32).view
abbrev ms2_0 (t : Fin cfg2.N) : Memref sig .tc .vmem S512x3000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x3000 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x3000 .f32 := win2_2.stage (cfg2.slots t 2)
abbrev hs2_2 (t : Fin cfg2.N) : (ms2_2 t).IsWhole := hstage2_2 ((cfg2.slots t 2).cast nbuf2_2)
abbrev scM2_0 : Memref sig .tc .vmem S1x3000 .f32 := Memref.whole cc2_scratch0
abbrev VS2_0 : View sig .tc .vmem S1x3000 .f32 := scM2_0.view

/-- The scoped buffers no window of this call stages, in the order the class invariant lists them, with the
    accumulator's place held by `X`: the other calls' staging buffers and accumulators, each whole at some contents,
    ride through this call's invariant around its own accumulator. -/
abbrev around2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ X ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class invariant with the accumulator exposed as a memref owned at some contents. -/
theorem PhiA2_eq (c : Dev nD) :
    (Pipeline.ΦA spec2 c : sProp 𝕄)
      = iprop(around2 (F := F) c (iprop(∃ d, owns (c : Thread nD τ) scM2_0 fullShare d)) ∗ (∃ r, prngReg c r)) := by
  unfold Pipeline.ΦA; rw [scopedRest2_eq]; simp only [scM2_0, owns_whole]; try rfl

end Cert.KBFrame

end
-- ==== Proof.KBR2RunA.lean ====
/-
  Fused pass 2, at the first tile of a half: the accumulator is cleared and the tile's weighted column sums are added; the output block is left untouched.
-/
import proofs.«131687_j32452772888869_2_alg».proof.Proof.KBR2Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun2_A (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i)
    (x0 : Vec F S512x3000 .bf16) (x1 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__fused_cr_kernel i arg2 harg2 arg3 harg3 arg4 harg4 arg5 harg5) K } := by
  refine ⟨?_, fun xi2 E K => ?run⟩
  case run =>
    simp only [cc2__fused_cr_kernel_eq_skeleton]; unfold cc2__fused_cr_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KBFrame

end
-- ==== Proof.KBR2RunB.lean ====
/-
  Fused pass 2, at a middle tile of a half: the tile's weighted column sums are added to the accumulator, which holds `xs0`; the output block is left untouched.
-/
import proofs.«131687_j32452772888869_2_alg».proof.Proof.KBR2Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun2_B (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i)
    (x0 : Vec F S512x3000 .bf16) (x1 : Vec F S1x3000 .f32) (xs0 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__fused_cr_kernel i arg2 harg2 arg3 harg3 arg4 harg4 arg5 harg5) K } := by
  refine ⟨?_, fun xi2 E K => ?run⟩
  case run =>
    simp only [cc2__fused_cr_kernel_eq_skeleton]; unfold cc2__fused_cr_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KBFrame

end
-- ==== Proof.KBR2RunC.lean ====
/-
  Fused pass 2, at the last tile of a half: the tile's weighted column sums are added to the accumulator, which holds `xs0`, and the accumulator is copied into every row of the output block.
-/
import proofs.«131687_j32452772888869_2_alg».proof.Proof.KBR2Base

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun2_C (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i)
    (x0 : Vec F S512x3000 .bf16) (x1 : Vec F S1x3000 .f32) (xs0 : Vec F S1x3000 .f32) :
    Σ' (L2 : List (View.Piece (Elt F) S8x3000 .f32)), { LS0 : List (View.Piece (Elt F) S1x3000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__fused_cr_kernel i arg2 harg2 arg3 harg3 arg4 harg4 arg5 harg5) K } := by
  refine ⟨?_, ?_, fun E K => ?run⟩
  case run =>
    simp only [cc2__fused_cr_kernel_eq_skeleton]; unfold cc2__fused_cr_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KBFrame

end
-- ==== Proof.KBR2.lean ====
/-
  Fused pass 2: what its three kinds of point leave, the accumulation point by point, the invariant that names the
  accumulator's contents between points, the proof data and the body obligation.

  After point t = 32·h + j the accumulator holds the column sums of E·c over tiles 0..j of half h (cleared at j = 0), c
  the rows' weights from the column weights the call was given; the half's output block is written at j = 31 only.
-/
import proofs.«131687_j32452772888869_2_alg».proof.Proof.KBR2RunA
import proofs.«131687_j32452772888869_2_alg».proof.Proof.KBR2RunB
import proofs.«131687_j32452772888869_2_alg».proof.Proof.KBR2RunC

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output block where no case stores into it: a placeholder nothing consults (the window is idle there). -/
def out2_I_2 : Vec F S8x3000 .f32 := VO2_2.read (Elt F) (VO2_2.writes (Elt F) VO2_2.junk [])

theorem scover2_A_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i) (x0 : Vec F S512x3000 .bf16) (x1 : Vec F S1x3000 .f32) (y : S1x3000.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1x3000.size (by sl_kernel_rfl) y
/-- What case A leaves in the accumulator. -/
def sout2_A_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i) (x0 : Vec F S512x3000 .bf16) (x1 : Vec F S1x3000 .f32) : Vec F S1x3000 .f32 :=
  VS2_0.read (Elt F) (VS2_0.writes (Elt F) VS2_0.junk (kernelRun2_A c i arg2 harg2 arg3 harg3 arg4 harg4 arg5 harg5 hc0 hc1 x0 x1).1)

theorem scover2_B_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i) (x0 : Vec F S512x3000 .bf16) (x1 : Vec F S1x3000 .f32) (xs0 : Vec F S1x3000 .f32) (y : S1x3000.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1x3000.size (by sl_kernel_rfl) y
/-- What case B leaves in the accumulator. -/
def sout2_B_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i) (x0 : Vec F S512x3000 .bf16) (x1 : Vec F S1x3000 .f32) (xs0 : Vec F S1x3000 .f32) : Vec F S1x3000 .f32 :=
  VS2_0.read (Elt F) (VS2_0.writes (Elt F) VS2_0.junk (kernelRun2_B c i arg2 harg2 arg3 harg3 arg4 harg4 arg5 harg5 hc0 hc1 x0 x1 xs0).1)

theorem scover2_C_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) (y : S1x3000.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x3000.size (by sl_kernel_rfl) y
/-- What case C leaves in the accumulator. -/
def sout2_C_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) : Vec F S1x3000 .f32 :=
  VS2_0.read (Elt F) (VS2_0.writes (Elt F) VS2_0.junk (kernelRun2_C c i arg2 harg2 arg3 harg3 arg4 harg4 arg5 harg5 hc0 hc1 x0 x1 xs0).2.1)

theorem cover2_C_2 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) (y : S8x3000.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S8x3000.size (by sl_kernel_rfl) y
/-- What case C leaves in the output block's staging buffer. -/
def out2_C_2 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) : Vec F S8x3000 .f32 :=
  VO2_2.read (Elt F) (VO2_2.writes (Elt F) VO2_2.junk (kernelRun2_C c i arg2 harg2 arg3 harg3 arg4 harg4 arg5 harg5 hc0 hc1 x0 x1 xs0).1)

section
variable (V : (c : Dev nD) → (b : Ref sig .tc) → Buf (Elt F) ((c : Thread nD τ).loc b))

/-- THE ACCUMULATION: the output block and the accumulator after the body at position `n`. -/
def outsAt2 (c : Dev nD) : (n : ℕ) → n < cfg2.N → Vec F S8x3000 .f32 × Vec F S1x3000 .f32
  | 0, hn => (out2_I_2 (F := F), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by omega)
      else
        (out2_I_2 (F := F), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_I_2 (F := F), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 32 = 0) (h1 : ¬t.val % 32 = 31) :
    outsAt2 V c t.val t.isLt = (out2_I_2 (F := F), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)
theorem outsAt2_B (c : Dev nD) (t : Fin cfg2.N) (h0 : ¬t.val % 32 = 0) (h1 : ¬t.val % 32 = 31) :
    outsAt2 V c t.val t.isLt = (out2_I_2 (F := F), sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- Before the first point the class invariant; afterwards the accumulator at what the point before left in it, the
    other calls' scoped buffers at anything, the generator register at some state. -/
def PhiS2 (c : Dev nD) : (n : ℕ) → n ≤ cfg2.N → sProp 𝕄
  | 0, _ => Pipeline.ΦA spec2 c
  | n + 1, hn => iprop(around2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(around2 (F := F) c (owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(around2 (F := F) c (owns (c : Thread nD τ) scM2_0 fullShare ((outsAt2 V c (n - 1) (by omega)).2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 32 = 0
  · have h1 : ¬t.val % 32 = 31 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_A_0 c _ _ _ _ _ _ _ _ _ _ _ _ _)
          iexact Hoth
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by omega
    by_cases h1 : t.val % 32 = 31
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_B_0 c _ _ _ _ _ _ _ _ _ _ _ _ _ _)
          iexact Hoth
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hb0, Hb1, Hb2, Hb3, Hb4, Hb5, Hb6, Hb7, Hb8, Hb9, Hb10, Hb11, Hb12, HS0, Hoth⟩, Hg⟩
  isplitl [Hb0 Hb1 Hb2 Hb3 Hb4 Hb5 Hb6 Hb7 Hb8 Hb9 Hb10 Hb11 Hb12 HS0 Hoth]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [HS0]
    · iexists _; iexact HS0
    iexact Hoth
  iexact Hg

theorem Phi_last2 (c : Dev nD) : (dat2 V c).Φ (Fin.last cfg2.N) ⊢ Pipeline.ΦA spec2 c :=
  Phi_out2 V c _ (by rw [Fin.val_last]; have : cfg2.N = 64 := N_2; omega)

end

end Cert.KBFrame

end
-- ==== Proof.KBR3Run.lean ====
/-
  The final pass (call 3): each tile of 256 rows of the output is ((3000·exp(logits))·r)·c with c the rows' weights
  1/(3000·Σ_b exp(logits)·r), computed from the tile of logits and the column weights r alone. Every point is of one
  kind: load the two inputs, store the output tile whole.
-/
import proofs.«131687_j32452772888869_2_alg».proof.Proof.Gen.Kernel.Launch
import proofs.«131687_j32452772888869_2_alg».proof.Proof.Gen.Kernel.Skeleton
import proofs.«131687_j32452772888869_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

abbrev VO3_2 : View sig .tc .vmem S256x3000 .f32 := (Memref.whole cc3_stg2_0 : Memref sig .tc .vmem S256x3000 .f32).view
abbrev ms3_0 (t : Fin cfg3.N) : Memref sig .tc .vmem S256x3000 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x3000 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x3000 .f32 := win3_2.stage (cfg3.slots t 2)
abbrev hs3_2 (t : Fin cfg3.N) : (ms3_2 t).IsWhole := hstage3_2 ((cfg3.slots t 2).cast nbuf3_2)

set_option maxHeartbeats 1000000 in
/-- The pieces the body's one store leaves in the output tile's buffer, with the proof that on whole memrefs — the
    logits' tile at `x0`, the column weights at `x1`, the output's at anything — the body runs to a continuation that
    holds the inputs as they were and the output's buffer with those pieces written. -/
noncomputable def kernelRun3 (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole)
    (x0 : Vec F S256x3000 .f32) (x1 : Vec F S1x3000 .f32) :
    { L2 : List (View.Piece (Elt F) S256x3000 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc3__final_kernel i arg1 harg1 arg2 harg2 arg3 harg3) K } := by
  refine ⟨?_, fun E K => ?run⟩
  case run =>
    simp only [cc3__final_kernel_eq_skeleton]; unfold cc3__final_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KBFrame

end
-- ==== Proof.KBR3.lean ====
/-
  The final pass: what a point leaves in the output tile, the proof data and the body obligation. Nothing is carried
  between points: the invariant is the plain class invariant throughout.
-/
import proofs.«131687_j32452772888869_2_alg».proof.Proof.KBR3Run

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem cover3_2 (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole) (x0 : Vec F S256x3000 .f32) (x1 : Vec F S1x3000 .f32) (y : S256x3000.Idx) :
    ∃ pc ∈ (kernelRun3 c i arg1 harg1 arg2 harg2 arg3 harg3 x0 x1).1, y ∈ pc.1.set :=
  View.cover_of_tiledL (kernelRun3 c i arg1 harg1 arg2 harg2 arg3 harg3 x0 x1).1 S256x3000.size (by sl_kernel_rfl) y
/-- What a point leaves in the output tile's staging buffer. -/
def out3_2 (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole) (x0 : Vec F S256x3000 .f32) (x1 : Vec F S1x3000 .f32) : Vec F S256x3000 .f32 :=
  VO3_2.read (Elt F) (VO3_2.writes (Elt F) VO3_2.junk (kernelRun3 c i arg1 harg1 arg2 harg2 arg3 harg3 x0 x1).1)

section
variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 c (grid3.coords t) (ms3_0 t) (hs3_0 t) (ms3_1 t) (hs3_1 t) (ms3_2 t) (hs3_2 t) (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 c (grid3.coords t) (ms3_0 t) (hs3_0 t) (ms3_1 t) (hs3_1 t) (ms3_2 t) (hs3_2 t) (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 2000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  unfold out3_2
  iintro ⟨HΦ, Ho, ⟨%d0, H0⟩, ⟨%d1, H1⟩, ⟨%d2, H2⟩⟩
  iapply ((kernelRun3 c (grid3.coords t) _ _ _ _ _ _ (iblk3 V c 0 t) (iblk3 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover3_2 c _ _ _ _ _ _ _ _ _)

theorem body_obligation3 (c : Dev nD) : BodyObligation (dat3 (F := F) V c) (defs₀ (F := F)) Variants.none () Set.univ := fun t => by
  rw [bigSep_W3, bigSep_W3]
  exact sound_body3 V c t

end

end Cert.KBFrame

end
-- ==== Proof.KBRun.lean ====
/-
  THE RUN of the kernel's program: four pallas_calls with three short host stretches between them (each adds the two
  half sums the call before left, scales by 32768 and inverts: the next column weights).

  The contents of every unscoped buffer are followed from the launch through the seven segments: a call changes its
  own arrays only (to what its write-backs leave), a host stretch the buffers its operations write. Each call is a
  region of the pipeline library entered from and left at these contents; the first three carry their accumulator's
  named contents from point to point inside their invariant. The run ends with every unscoped buffer at the last
  contents `W7`: in particular the logits as launched and the result array at what the final pass leaves.
-/
import proofs.«131687_j32452772888869_2_alg».proof.Proof.KBR0
import proofs.«131687_j32452772888869_2_alg».proof.Proof.KBR1
import proofs.«131687_j32452772888869_2_alg».proof.Proof.KBR2
import proofs.«131687_j32452772888869_2_alg».proof.Proof.KBR3
import proofs.«131687_j32452772888869_2_alg».proof.Proof.Gen.Kernel.Regions

set_option maxRecDepth 16384

noncomputable section

namespace Cert.KBFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- After call 0: its arrays at what the call leaves (the inputs as entered, each output's write-backs folded), every
    other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the first host stretch (the two half sums added, scaled by 32768 and inverted: the next column weights). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- After call 1: its arrays at what the call leaves (the inputs as entered, each output's write-backs folded), every
    other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the second host stretch (the two half sums added, scaled by 32768 and inverted: the next column weights). -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b

/-- After call 2: its arrays at what the call leaves (the inputs as entered, each output's write-backs folded), every
    other buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)

/-- After the third host stretch (the two half sums added, scaled by 32768 and inverted: the next column weights). -/
abbrev W6 : Dev nD → Valuation τ sig (Elt F) := fun c => StableHlo.after hostOps3 (W5 m ρ c)
abbrev U6 : (c : Dev nD) → (b : Ref sig .tc) → Buf (Elt F) ((c : Thread nD τ).loc b) := fun c b => W6 m ρ c b

/-- After call 3: its arrays at what the call leaves (the inputs as entered, each output's write-backs folded), every
    other buffer as entered. -/
def W7 (c : Dev nD) : Valuation τ sig (Elt F) :=
  Pipeline.withArrays spec3 c (W6 m ρ c) fun w => (dat3 (U6 m ρ) c).arrAt w cfg3.N
theorem W7_arr (c : Dev nD) (w : Fin cfg3.W) :
    W7 m ρ c (Proc.devRef .tc (Pipeline.arrRef spec3 w)) = (dat3 (U6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev U7 : (c : Dev nD) → (b : Ref sig .tc) → Buf (Elt F) ((c : Thread nD τ).loc b) := fun c b => W7 m ρ c b
theorem hF3 (c : Dev nD) (w : Fin cfg3.W) : (dat3 (U6 m ρ) c).arrAt w cfg3.N = U7 m ρ c (Pipeline.arrRef spec3 w) :=
  (W7_arr m ρ c w).symm
theorem hrest3 (c : Dev nD) : ∀ b, b ∉ Finset.univ.image (Pipeline.arrRef spec3) → U7 m ρ c b = U6 m ρ c b :=
  fun b hb => W7_of_ne m ρ c b fun w e => hb (Finset.mem_image.mpr ⟨w, Finset.mem_univ _, e⟩)

/-! ### The logits end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := (W7_arr m ρ c 0).trans (((dat3 (U6 m ρ) c).arrAt_in 0 rfl _).trans (A_eq3 (U6 m ρ) c 0))
    _ = W5 m ρ c (Proc.devRef .tc main_arg0) := StableHlo.after_of_writes_sub hostOps3 _ hostOps3_writes (by decide : main_arg0 ∉ hostOps3_W)
    _ = W4 m ρ c (Proc.devRef .tc main_arg0) := W5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

/-- The result array ends at what the final pass's write-backs leave. -/
theorem W7_main_v24 (c : Dev nD) : W7 m ρ c (Proc.devRef .tc main_v24) = (dat3 (U6 m ρ) c).arrAt 2 cfg3.N :=
  W7_arr m ρ c 2

/-! ## The proof data family and the thread state -/

abbrev admK : (p : Fin 4) → (pcfgs (F := F) p).Adm := fun p => (cfgs p).toPCfg_adm
/-- Every call's proof data, each at its call's entry contents — a literal match on the call's number. -/
def pdats : (p : Fin 4) → (c : Dev nD) → Dat τ (Elt F) Unit ℕ (UR sig nD τ) ℕ (Pipeline.pin (pcfgs (F := F)) admK p) c
  | ⟨0, _⟩ => fun c => dat0 (U0 m ρ) c
  | ⟨1, _⟩ => fun c => dat1 (U2 m ρ) c
  | ⟨2, _⟩ => fun c => dat2 (U4 m ρ) c
  | ⟨3, _⟩ => fun c => dat3 (U6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- Call 0 over the thread state: entered from every unscoped buffer at `W0`, left at `W1`. Its arrays are split out
    of the unscoped buffers and put back at what the call leaves; the generator register and the scoped buffers go into
    the call's invariant and come back (the accumulator's named contents forgotten at the end); nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (U0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are split out
    of the unscoped buffers and put back at what the call leaves; the generator register and the scoped buffers go into
    the call's invariant and come back (the accumulator's named contents forgotten at the end); nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W4`, left at `W5`. Its arrays are split out
    of the unscoped buffers and put back at what the call leaves; the generator register and the scoped buffers go into
    the call's invariant and come back (the accumulator's named contents forgotten at the end); nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi_last2 (U4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W6`, left at `W7`. Its arrays are split out
    of the unscoped buffers and put back at what the call leaves; the generator register and the scoped buffers go into
    the call's invariant and come back; nothing is owed; the kernel has no semaphore of its own. -/
def reg3 : Pipeline.RegionSeg (pcfgs (F := F)) admK (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (U6 m ρ c) (U7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsK : List (Pipeline.Seg (pcfgs (F := F)) admK (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
theorem main_run (c : Dev nD) : main (F := F) c = Pipeline.Seg.run (segsK m ρ) := (main_chain c).trans (by chain_rfl)

set_option backward.isDefEq.respectTransparency.types false in
/-- THE RUN: from any memory with zero counters every weakly fair execution of @main on the TensorCores terminates,
    nothing faulting, and every final state has the logits as launched and the result array at the last contents. -/
theorem run_all : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)) :=
  Pipeline.θ_run_regions_kit (pcfgs (F := F)) admK (pdats m ρ) () cellOf_inj emb₁ defs₀ 𝒱₀ L lv m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)), (h c _ (mem_uc main_arg0 (by decide))).trans (W7_main_arg0 m ρ c)⟩)

end Cert.KBFrame

end
-- ==== Proof.KIR0Base.lean ====
/-
  First pallas_call (E = exp(logits) written out in bf16, and the column sums of E accumulated over the 32 row tiles
  of each half of the rows): what its runs are stated over.

  The grid is 2 × 32; point t = 32·h + j is tile j of half h. The body clears its accumulator when j = 0, adds the
  tile's column sums at every point, and copies the accumulator into the half's output block when j = 31. So there
  are three kinds of point — first of a half, middle, last of a half — told apart by t mod 32, and the block of column
  sums is idle (neither stored nor written back) except at the last point of a half.
-/
import proofs.«131687_j32452772888869_2_alg».proof.Proof.Gen.KernelIdeal.Launch
import proofs.«131687_j32452772888869_2_alg».proof.Proof.Gen.KernelIdeal.Skeleton
import proofs.«131687_j32452772888869_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' staging buffer holds the point's tile at every point, for any proof data over these arrays whose body
    leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, in closed form over the grid -/

/-- "This is the first tile of its half" (j = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last tile of its half" (j = 31). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev VO0_1 : View sig .tc .vmem S512x3000 .bf16 := (Memref.whole cc0_stg1_0 : Memref sig .tc .vmem S512x3000 .bf16).view
abbrev VO0_2 : View sig .tc .vmem S8x3000 .f32 := (Memref.whole cc0_stg2_0 : Memref sig .tc .vmem S8x3000 .f32).view
abbrev ms0_0 (t : Fin cfg0.N) : Memref sig .tc .vmem S512x3000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3000 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x3000 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1x3000 .f32 := Memref.whole cc0_scratch0
abbrev VS0_0 : View sig .tc .vmem S1x3000 .f32 := scM0_0.view

/-- The scoped buffers of the other three calls (their staging buffers and accumulators), each whole at some contents:
    this call never touches them, and they ride through its invariant. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class invariant with the accumulator exposed as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.KIFrame

end
-- ==== Proof.KIR0RunA.lean ====
/-
  First pallas_call, at the first tile of a half: the accumulator is cleared, E's tile is written, the tile's column sums are added; the block of column sums is left untouched.
-/
import proofs.«131687_j32452772888869_2_alg».proof.Proof.KIR0Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — the logits' tile at `x0`, the other buffers as stated — the body runs to a continuation that holds the tile as it
    was and each written buffer with those pieces written. The pieces are found by running the body symbolically. -/
noncomputable def kernelRun0_A (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i)
    (x0 : Vec F S512x3000 .f32) :
    Σ' (L1 : List (View.Piece (Elt F) S512x3000 .bf16)), { LS0 : List (View.Piece (Elt F) S1x3000 .f32) //
      ∀ (xi2 : Vec F S8x3000 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__exp_r1_kernel i arg2 harg2 arg3 harg3 arg4 harg4 arg5 harg5) K } := by
  refine ⟨?_, ?_, fun xi2 E K => ?run⟩
  case run =>
    simp only [cc0__exp_r1_kernel_eq_skeleton]; unfold cc0__exp_r1_kernel_skel
    unfold owns
    iintro ⟨⟨%f0, %hf0, H0⟩, ⟨%d1, %f1, -, H1⟩, ⟨%f2, %hf2, H2⟩, ⟨%ds0, %fs0, -, HS0⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS0

end Cert.KIFrame

end
-- ==== Proof.KIR0RunB.lean ====
/-
  First pallas_call, at a middle tile of a half: E's tile is written and the tile's column sums are added to the accumulator, which holds `xs0`; the block of column sums is left untouched.
-/
import proofs.«131687_j32452772888869_2_alg».proof.Proof.KIR0Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — the logits' tile at `x0`, the other buffers as stated — the body runs to a continuation that holds the tile as it
    was and each written buffer with those pieces written. The pieces are found by running the body symbolically. -/
noncomputable def kernelRun0_B (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i)
    (x0 : Vec F S512x3000 .f32) (xs0 : Vec F S1x3000 .f32) :
    Σ' (L1 : List (View.Piece (Elt F) S512x3000 .bf16)), { LS0 : List (View.Piece (Elt F) S1x3000 .f32) //
      ∀ (xi2 : Vec F S8x3000 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__exp_r1_kernel i arg2 harg2 arg3 harg3 arg4 harg4 arg5 harg5) K } := by
  refine ⟨?_, ?_, fun xi2 E K => ?run⟩
  case run =>
    simp only [cc0__exp_r1_kernel_eq_skeleton]; unfold cc0__exp_r1_kernel_skel
    unfold owns
    iintro ⟨⟨%f0, %hf0, H0⟩, ⟨%d1, %f1, -, H1⟩, ⟨%f2, %hf2, H2⟩, ⟨%fs0, %hfs0, HS0⟩, Hk⟩
    obtain rfl := harg2.eq_unread hf0; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS0

end Cert.KIFrame

end
-- ==== Proof.KIR0RunC.lean ====
/-
  First pallas_call, at the last tile of a half: E's tile is written, the tile's column sums are added to the accumulator, which holds `xs0`, and the accumulator is copied into every row of the block of column sums.
-/
import proofs.«131687_j32452772888869_2_alg».proof.Proof.KIR0Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — the logits' tile at `x0`, the other buffers as stated — the body runs to a continuation that holds the tile as it
    was and each written buffer with those pieces written. The pieces are found by running the body symbolically. -/
noncomputable def kernelRun0_C (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i)
    (x0 : Vec F S512x3000 .f32) (xs0 : Vec F S1x3000 .f32) :
    Σ' (L1 : List (View.Piece (Elt F) S512x3000 .bf16)) (L2 : List (View.Piece (Elt F) S8x3000 .f32)), { LS0 : List (View.Piece (Elt F) S1x3000 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__exp_r1_kernel i arg2 harg2 arg3 harg3 arg4 harg4 arg5 harg5) K } := by
  refine ⟨?_, ?_, ?_, fun E K => ?run⟩
  case run =>
    simp only [cc0__exp_r1_kernel_eq_skeleton]; unfold cc0__exp_r1_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.KIFrame

end
-- ==== Proof.KIR0.lean ====
/-
  First pallas_call: what its three kinds of point leave, the accumulation point by point, the invariant that names
  the accumulator's contents between points, the proof data and the body obligation.

  After point t = 32·h + j the accumulator holds the column sums of E over tiles 0..j of half h (cleared at j = 0);
  E's tile is written at every point; the half's block of column sums is written at j = 31 only. Between points the
  invariant holds the accumulator at exactly these contents, the other calls' scoped buffers at anything, and the
  generator register at some state; before the first point and after the last it is the plain class invariant.
-/
import proofs.«131687_j32452772888869_2_alg».proof.Proof.KIR0RunA
import proofs.«131687_j32452772888869_2_alg».proof.Proof.KIR0RunB
import proofs.«131687_j32452772888869_2_alg».proof.Proof.KIR0RunC

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The block of column sums where no case stores into it: a placeholder nothing consults (the window is idle there:
    neither written back nor read at the next point). -/
def out0_I_2 : Vec F S8x3000 .f32 := VO0_2.read (Elt F) (VO0_2.writes (Elt F) VO0_2.junk [])

/-- Case A: the one store into E's tile covers it. -/
theorem cover0_A_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) (y : S512x3000.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S512x3000.size (by sl_kernel_rfl) y
/-- What case A leaves in E's staging buffer. -/
def out0_A_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) : Vec F S512x3000 .bf16 :=
  VO0_1.read (Elt F) (VO0_1.writes (Elt F) VO0_1.junk (kernelRun0_A c i arg2 harg2 arg3 harg3 arg4 harg4 arg5 harg5 hc0 hc1 x0).1)
/-- Case A: the stores into the accumulator cover it. -/
theorem scover0_A_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) (y : S1x3000.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1x3000.size (by sl_kernel_rfl) y
/-- What case A leaves in the accumulator. -/
def sout0_A_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) : Vec F S1x3000 .f32 :=
  VS0_0.read (Elt F) (VS0_0.writes (Elt F) VS0_0.junk (kernelRun0_A c i arg2 harg2 arg3 harg3 arg4 harg4 arg5 harg5 hc0 hc1 x0).2.1)

/-- Case B: the one store into E's tile covers it. -/
theorem cover0_B_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) (y : S512x3000.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S512x3000.size (by sl_kernel_rfl) y
/-- What case B leaves in E's staging buffer. -/
def out0_B_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) : Vec F S512x3000 .bf16 :=
  VO0_1.read (Elt F) (VO0_1.writes (Elt F) VO0_1.junk (kernelRun0_B c i arg2 harg2 arg3 harg3 arg4 harg4 arg5 harg5 hc0 hc1 x0 xs0).1)
/-- Case B: the stores into the accumulator cover it. -/
theorem scover0_B_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) (y : S1x3000.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1x3000.size (by sl_kernel_rfl) y
/-- What case B leaves in the accumulator. -/
def sout0_B_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) : Vec F S1x3000 .f32 :=
  VS0_0.read (Elt F) (VS0_0.writes (Elt F) VS0_0.junk (kernelRun0_B c i arg2 harg2 arg3 harg3 arg4 harg4 arg5 harg5 hc0 hc1 x0 xs0).2.1)

/-- Case C: the one store into E's tile covers it. -/
theorem cover0_C_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) (y : S512x3000.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S512x3000.size (by sl_kernel_rfl) y
/-- What case C leaves in E's staging buffer. -/
def out0_C_1 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) : Vec F S512x3000 .bf16 :=
  VO0_1.read (Elt F) (VO0_1.writes (Elt F) VO0_1.junk (kernelRun0_C c i arg2 harg2 arg3 harg3 arg4 harg4 arg5 harg5 hc0 hc1 x0 xs0).1)
/-- Case C: the stores into the accumulator cover it. -/
theorem scover0_C_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) (y : S1x3000.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S1x3000.size (by sl_kernel_rfl) y
/-- What case C leaves in the accumulator. -/
def sout0_C_0 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) : Vec F S1x3000 .f32 :=
  VS0_0.read (Elt F) (VS0_0.writes (Elt F) VS0_0.junk (kernelRun0_C c i arg2 harg2 arg3 harg3 arg4 harg4 arg5 harg5 hc0 hc1 x0 xs0).2.2.1)

/-- Case C: the one store into the block of column sums covers it. -/
theorem cover0_C_2 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) (y : S8x3000.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S8x3000.size (by sl_kernel_rfl) y
/-- What case C leaves in the staging buffer of the block of column sums. -/
def out0_C_2 (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) : Vec F S8x3000 .f32 :=
  VO0_2.read (Elt F) (VO0_2.writes (Elt F) VO0_2.junk (kernelRun0_C c i arg2 harg2 arg3 harg3 arg4 harg4 arg5 harg5 hc0 hc1 x0 xs0).2.1)

section
variable (V : (c : Dev nD) → (b : Ref sig .tc) → Buf (Elt F) ((c : Thread nD τ).loc b))

/-! ## What the buffers hold after each point -/

/-- THE ACCUMULATION: E's tile, the block of column sums and the accumulator after the body at position `n`: the case
    the closed forms select at `n`, run on the point's tile of logits, the accumulator at what position `n - 1` left. -/
def outsAt0 (c : Dev nD) : (n : ℕ) → n < cfg0.N → Vec F S512x3000 .bf16 × Vec F S8x3000 .f32 × Vec F S1x3000 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_I_2 (F := F), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 32 = 0 then
      if h1 : (n + 1) % 32 = 31 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_I_2 (F := F), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_I_2 (F := F), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

theorem outsAt0_A (c : Dev nD) (t : Fin cfg0.N) (h0 : t.val % 32 = 0) (h1 : ¬t.val % 32 = 31) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_I_2 (F := F), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_I_2 (F := F), sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class invariant (the accumulator at anything); afterwards the accumulator at what the
    point before left in it, the other calls' scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 (F := F) c) ∗ (∃ r, prngReg c r)) := by
  cases n with
  | zero => exact absurd rfl hz
  | succ n => rfl

/-! ## The proof data -/

/-- The arrays as the call finds them; after the body at point `t` the logits' buffer at its tile and the two outputs'
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which kind of point it is; the invariant hands the body the accumulator
    at what the point before left (at anything at a half's first tile) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 32 = 0
  · have h1 : ¬t.val % 32 = 31 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold out0_A_1 sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t)).2.2 _ Set.univ _)
      isplitl [H0]; · iexact H0
      isplitl [H1]; · iexists _; iexact H1
      isplitl [H2]; · iexact H2
      isplitl [HS0]; · iexact HS0
      iintro ⟨H0, ⟨%e1, H1⟩, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_A_1 c _ _ _ _ _ _ _ _ _ _ _ _)
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t)).2.2 _ Set.univ _)
      isplitl [H0]; · iexact H0
      isplitl [H1]; · iexists _; iexact H1
      isplitl [H2]; · iexact H2
      isplitl [HS0]; · iexists _; iexact HS0
      iintro ⟨H0, ⟨%e1, H1⟩, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_A_1 c _ _ _ _ _ _ _ _ _ _ _ _)
      iexists _; iexact H2
  · have hz : t.val ≠ 0 := by omega
    by_cases h1 : t.val % 32 = 31
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_1 out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold out0_B_1 sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) _).2.2 _ Set.univ _)
      isplitl [H0]; · iexact H0
      isplitl [H1]; · iexists _; iexact H1
      isplitl [H2]; · iexact H2
      isplitl [HS0]; · iexact HS0
      iintro ⟨H0, ⟨%e1, H1⟩, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_B_1 c _ _ _ _ _ _ _ _ _ _ _ _ _)
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem Phi_last0 (c : Dev nD) : (dat0 V c).Φ (Fin.last cfg0.N) ⊢ Pipeline.ΦA spec0 c :=
  Phi_out0 V c _ (by rw [Fin.val_last]; have : cfg0.N = 64 := N_0; omega)

end

end Cert.KIFrame

end
-- ==== Proof.KIR1Base.lean ====
/-
  A fused pass (call 1): from the column weights r it forms each row's weight c = 1/(3000·Σ_b E·r) and accumulates the
  column sums of E·c over the 32 row tiles of each half of the rows: what its runs are stated over.

  The grid is 2 × 32; point t = 32·h + j is tile j of half h. The body clears its accumulator when j = 0, adds the
  tile's weighted column sums at every point, and copies the accumulator into the half's output block when j = 31. The
  column weights are one block, fetched once; the output block is idle except at the last point of a half.
-/
import proofs.«131687_j32452772888869_2_alg».proof.Proof.Gen.KernelIdeal.Launch
import proofs.«131687_j32452772888869_2_alg».proof.Proof.Gen.KernelIdeal.Skeleton
import proofs.«131687_j32452772888869_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- E's staging buffer holds the point's tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column weights' staging buffer holds them at every point, fetched there or not (the block never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions of the body, in closed form over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S8x3000 .f32 := (Memref.whole cc1_stg2_0 : Memref sig .tc .vmem S8x3000 .f32).view
abbrev ms1_0 (t : Fin cfg1.N) : Memref sig .tc .vmem S512x3000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x3000 .f32 := win1_2.stage (cfg1.slots t 2)
abbrev hs1_2 (t : Fin cfg1.N) : (ms1_2 t).IsWhole := hstage1_2 ((cfg1.slots t 2).cast nbuf1_2)
abbrev scM1_0 : Memref sig .tc .vmem S1x3000 .f32 := Memref.whole cc1_scratch0
abbrev VS1_0 : View sig .tc .vmem S1x3000 .f32 := scM1_0.view

/-- The scoped buffers no window of this call stages, in the order the class invariant lists them, with the
    accumulator's place held by `X`: the other calls' staging buffers and accumulators, each whole at some contents,
    ride through this call's invariant around its own accumulator. -/
abbrev around1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class invariant with the accumulator exposed as a memref owned at some contents. -/
theorem PhiA1_eq (c : Dev nD) :
    (Pipeline.ΦA spec1 c : sProp 𝕄)
      = iprop(around1 (F := F) c (iprop(∃ d, owns (c : Thread nD τ) scM1_0 fullShare d)) ∗ (∃ r, prngReg c r)) := by
  unfold Pipeline.ΦA; rw [scopedRest1_eq]; simp only [scM1_0, owns_whole]; try rfl

end Cert.KIFrame

end
-- ==== Proof.KIR1RunA.lean ====
/-
  Fused pass 1, at the first tile of a half: the accumulator is cleared and the tile's weighted column sums are added; the output block is left untouched.
-/
import proofs.«131687_j32452772888869_2_alg».proof.Proof.KIR1Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun1_A (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i)
    (x0 : Vec F S512x3000 .bf16) (x1 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fused_cr_kernel i arg2 harg2 arg3 harg3 arg4 harg4 arg5 harg5) K } := by
  refine ⟨?_, fun xi2 E K => ?run⟩
  case run =>
    simp only [cc1__fused_cr_kernel_eq_skeleton]; unfold cc1__fused_cr_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KIFrame

end
-- ==== Proof.KIR1RunB.lean ====
/-
  Fused pass 1, at a middle tile of a half: the tile's weighted column sums are added to the accumulator, which holds `xs0`; the output block is left untouched.
-/
import proofs.«131687_j32452772888869_2_alg».proof.Proof.KIR1Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun1_B (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i)
    (x0 : Vec F S512x3000 .bf16) (x1 : Vec F S1x3000 .f32) (xs0 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fused_cr_kernel i arg2 harg2 arg3 harg3 arg4 harg4 arg5 harg5) K } := by
  refine ⟨?_, fun xi2 E K => ?run⟩
  case run =>
    simp only [cc1__fused_cr_kernel_eq_skeleton]; unfold cc1__fused_cr_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KIFrame

end
-- ==== Proof.KIR1RunC.lean ====
/-
  Fused pass 1, at the last tile of a half: the tile's weighted column sums are added to the accumulator, which holds `xs0`, and the accumulator is copied into every row of the output block.
-/
import proofs.«131687_j32452772888869_2_alg».proof.Proof.KIR1Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun1_C (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i)
    (x0 : Vec F S512x3000 .bf16) (x1 : Vec F S1x3000 .f32) (xs0 : Vec F S1x3000 .f32) :
    Σ' (L2 : List (View.Piece (Elt F) S8x3000 .f32)), { LS0 : List (View.Piece (Elt F) S1x3000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__fused_cr_kernel i arg2 harg2 arg3 harg3 arg4 harg4 arg5 harg5) K } := by
  refine ⟨?_, ?_, fun E K => ?run⟩
  case run =>
    simp only [cc1__fused_cr_kernel_eq_skeleton]; unfold cc1__fused_cr_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KIFrame

end
-- ==== Proof.KIR1.lean ====
/-
  Fused pass 1: what its three kinds of point leave, the accumulation point by point, the invariant that names the
  accumulator's contents between points, the proof data and the body obligation.

  After point t = 32·h + j the accumulator holds the column sums of E·c over tiles 0..j of half h (cleared at j = 0), c
  the rows' weights from the column weights the call was given; the half's output block is written at j = 31 only.
-/
import proofs.«131687_j32452772888869_2_alg».proof.Proof.KIR1RunA
import proofs.«131687_j32452772888869_2_alg».proof.Proof.KIR1RunB
import proofs.«131687_j32452772888869_2_alg».proof.Proof.KIR1RunC

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output block where no case stores into it: a placeholder nothing consults (the window is idle there). -/
def out1_I_2 : Vec F S8x3000 .f32 := VO1_2.read (Elt F) (VO1_2.writes (Elt F) VO1_2.junk [])

theorem scover1_A_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i) (x0 : Vec F S512x3000 .bf16) (x1 : Vec F S1x3000 .f32) (y : S1x3000.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x3000.size (by sl_kernel_rfl) y
/-- What case A leaves in the accumulator. -/
def sout1_A_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i) (x0 : Vec F S512x3000 .bf16) (x1 : Vec F S1x3000 .f32) : Vec F S1x3000 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i) (x0 : Vec F S512x3000 .bf16) (x1 : Vec F S1x3000 .f32) (xs0 : Vec F S1x3000 .f32) (y : S1x3000.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1x3000.size (by sl_kernel_rfl) y
/-- What case B leaves in the accumulator. -/
def sout1_B_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i) (x0 : Vec F S512x3000 .bf16) (x1 : Vec F S1x3000 .f32) (xs0 : Vec F S1x3000 .f32) : Vec F S1x3000 .f32 :=
  VS1_0.read (Elt F) (VS1_0.writes (Elt F) VS1_0.junk (kernelRun1_B c i arg2 harg2 arg3 harg3 arg4 harg4 arg5 harg5 hc0 hc1 x0 x1 xs0).1)

theorem scover1_C_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) (y : S1x3000.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x3000.size (by sl_kernel_rfl) y
/-- What case C leaves in the accumulator. -/
def sout1_C_0 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) : Vec F S1x3000 .f32 :=
  VS1_0.read (Elt F) (VS1_0.writes (Elt F) VS1_0.junk (kernelRun1_C c i arg2 harg2 arg3 harg3 arg4 harg4 arg5 harg5 hc0 hc1 x0 x1 xs0).2.1)

theorem cover1_C_2 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) (y : S8x3000.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x3000.size (by sl_kernel_rfl) y
/-- What case C leaves in the output block's staging buffer. -/
def out1_C_2 (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) : Vec F S8x3000 .f32 :=
  VO1_2.read (Elt F) (VO1_2.writes (Elt F) VO1_2.junk (kernelRun1_C c i arg2 harg2 arg3 harg3 arg4 harg4 arg5 harg5 hc0 hc1 x0 x1 xs0).1)

section
variable (V : (c : Dev nD) → (b : Ref sig .tc) → Buf (Elt F) ((c : Thread nD τ).loc b))

/-- THE ACCUMULATION: the output block and the accumulator after the body at position `n`. -/
def outsAt1 (c : Dev nD) : (n : ℕ) → n < cfg1.N → Vec F S8x3000 .f32 × Vec F S1x3000 .f32
  | 0, hn => (out1_I_2 (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by omega)
      else
        (out1_I_2 (F := F), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_I_2 (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_I_2 (F := F), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)
theorem outsAt1_B (c : Dev nD) (t : Fin cfg1.N) (h0 : ¬t.val % 32 = 0) (h1 : ¬t.val % 32 = 31) :
    outsAt1 V c t.val t.isLt = (out1_I_2 (F := F), sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- Before the first point the class invariant; afterwards the accumulator at what the point before left in it, the
    other calls' scoped buffers at anything, the generator register at some state. -/
def PhiS1 (c : Dev nD) : (n : ℕ) → n ≤ cfg1.N → sProp 𝕄
  | 0, _ => Pipeline.ΦA spec1 c
  | n + 1, hn => iprop(around1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(around1 (F := F) c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(around1 (F := F) c (owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 32 = 0
  · have h1 : ¬t.val % 32 = 31 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by omega
    by_cases h1 : t.val % 32 = 31
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨Hb0, Hb1, Hb2, Hb3, Hb4, Hb5, Hb6, HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 HS0 Hoth Hg]
      · isplitl [Hb0 Hb1 Hb2 Hb3 Hb4 Hb5 Hb6 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hb0, Hb1, Hb2, Hb3, Hb4, Hb5, Hb6, HS0, Hoth⟩, Hg⟩
  isplitl [Hb0 Hb1 Hb2 Hb3 Hb4 Hb5 Hb6 HS0 Hoth]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [HS0]
    · iexists _; iexact HS0
    iexact Hoth
  iexact Hg

theorem Phi_last1 (c : Dev nD) : (dat1 V c).Φ (Fin.last cfg1.N) ⊢ Pipeline.ΦA spec1 c :=
  Phi_out1 V c _ (by rw [Fin.val_last]; have : cfg1.N = 64 := N_1; omega)

end

end Cert.KIFrame

end
-- ==== Proof.KIR2Base.lean ====
/-
  A fused pass (call 2): from the column weights r it forms each row's weight c = 1/(3000·Σ_b E·r) and accumulates the
  column sums of E·c over the 32 row tiles of each half of the rows: what its runs are stated over.

  The grid is 2 × 32; point t = 32·h + j is tile j of half h. The body clears its accumulator when j = 0, adds the
  tile's weighted column sums at every point, and copies the accumulator into the half's output block when j = 31. The
  column weights are one block, fetched once; the output block is idle except at the last point of a half.
-/
import proofs.«131687_j32452772888869_2_alg».proof.Proof.Gen.KernelIdeal.Launch
import proofs.«131687_j32452772888869_2_alg».proof.Proof.Gen.KernelIdeal.Skeleton
import proofs.«131687_j32452772888869_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- E's staging buffer holds the point's tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The column weights' staging buffer holds them at every point, fetched there or not (the block never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The two conditions of the body, in closed form over the grid -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 32 = 0 :=
  (by decide +kernel : ∀ t : Fin grid2.N, cond2_0 (grid2.coords t) ↔ t.val % 32 = 0)
abbrev cond2_1 (i : grid2.Coords) : Prop := k2_cond2 i = 1#1
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S8x3000 .f32 := (Memref.whole cc2_stg2_0 : Memref sig .tc .vmem S8x3000 .f32).view
abbrev ms2_0 (t : Fin cfg2.N) : Memref sig .tc .vmem S512x3000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x3000 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x3000 .f32 := win2_2.stage (cfg2.slots t 2)
abbrev hs2_2 (t : Fin cfg2.N) : (ms2_2 t).IsWhole := hstage2_2 ((cfg2.slots t 2).cast nbuf2_2)
abbrev scM2_0 : Memref sig .tc .vmem S1x3000 .f32 := Memref.whole cc2_scratch0
abbrev VS2_0 : View sig .tc .vmem S1x3000 .f32 := scM2_0.view

/-- The scoped buffers no window of this call stages, in the order the class invariant lists them, with the
    accumulator's place held by `X`: the other calls' staging buffers and accumulators, each whole at some contents,
    ride through this call's invariant around its own accumulator. -/
abbrev around2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ X ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class invariant with the accumulator exposed as a memref owned at some contents. -/
theorem PhiA2_eq (c : Dev nD) :
    (Pipeline.ΦA spec2 c : sProp 𝕄)
      = iprop(around2 (F := F) c (iprop(∃ d, owns (c : Thread nD τ) scM2_0 fullShare d)) ∗ (∃ r, prngReg c r)) := by
  unfold Pipeline.ΦA; rw [scopedRest2_eq]; simp only [scM2_0, owns_whole]; try rfl

end Cert.KIFrame

end
-- ==== Proof.KIR2RunA.lean ====
/-
  Fused pass 2, at the first tile of a half: the accumulator is cleared and the tile's weighted column sums are added; the output block is left untouched.
-/
import proofs.«131687_j32452772888869_2_alg».proof.Proof.KIR2Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun2_A (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i)
    (x0 : Vec F S512x3000 .bf16) (x1 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__fused_cr_kernel i arg2 harg2 arg3 harg3 arg4 harg4 arg5 harg5) K } := by
  refine ⟨?_, fun xi2 E K => ?run⟩
  case run =>
    simp only [cc2__fused_cr_kernel_eq_skeleton]; unfold cc2__fused_cr_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KIFrame

end
-- ==== Proof.KIR2RunB.lean ====
/-
  Fused pass 2, at a middle tile of a half: the tile's weighted column sums are added to the accumulator, which holds `xs0`; the output block is left untouched.
-/
import proofs.«131687_j32452772888869_2_alg».proof.Proof.KIR2Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun2_B (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i)
    (x0 : Vec F S512x3000 .bf16) (x1 : Vec F S1x3000 .f32) (xs0 : Vec F S1x3000 .f32) :
    { LS0 : List (View.Piece (Elt F) S1x3000 .f32) //
      ∀ (xi2 : Vec F S8x3000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__fused_cr_kernel i arg2 harg2 arg3 harg3 arg4 harg4 arg5 harg5) K } := by
  refine ⟨?_, fun xi2 E K => ?run⟩
  case run =>
    simp only [cc2__fused_cr_kernel_eq_skeleton]; unfold cc2__fused_cr_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KIFrame

end
-- ==== Proof.KIR2RunC.lean ====
/-
  Fused pass 2, at the last tile of a half: the tile's weighted column sums are added to the accumulator, which holds `xs0`, and the accumulator is copied into every row of the output block.
-/
import proofs.«131687_j32452772888869_2_alg».proof.Proof.KIR2Base

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in each buffer it writes (last store first), with the proof that on whole memrefs
    — E's tile at `x0`, the column weights at `x1`, the other buffers as stated — the body runs to a continuation that
    holds the two inputs as they were and each written buffer with those pieces written. The pieces are found by running
    the body symbolically. -/
noncomputable def kernelRun2_C (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i)
    (x0 : Vec F S512x3000 .bf16) (x1 : Vec F S1x3000 .f32) (xs0 : Vec F S1x3000 .f32) :
    Σ' (L2 : List (View.Piece (Elt F) S8x3000 .f32)), { LS0 : List (View.Piece (Elt F) S1x3000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__fused_cr_kernel i arg2 harg2 arg3 harg3 arg4 harg4 arg5 harg5) K } := by
  refine ⟨?_, ?_, fun E K => ?run⟩
  case run =>
    simp only [cc2__fused_cr_kernel_eq_skeleton]; unfold cc2__fused_cr_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KIFrame

end
-- ==== Proof.KIR2.lean ====
/-
  Fused pass 2: what its three kinds of point leave, the accumulation point by point, the invariant that names the
  accumulator's contents between points, the proof data and the body obligation.

  After point t = 32·h + j the accumulator holds the column sums of E·c over tiles 0..j of half h (cleared at j = 0), c
  the rows' weights from the column weights the call was given; the half's output block is written at j = 31 only.
-/
import proofs.«131687_j32452772888869_2_alg».proof.Proof.KIR2RunA
import proofs.«131687_j32452772888869_2_alg».proof.Proof.KIR2RunB
import proofs.«131687_j32452772888869_2_alg».proof.Proof.KIR2RunC

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output block where no case stores into it: a placeholder nothing consults (the window is idle there). -/
def out2_I_2 : Vec F S8x3000 .f32 := VO2_2.read (Elt F) (VO2_2.writes (Elt F) VO2_2.junk [])

theorem scover2_A_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i) (x0 : Vec F S512x3000 .bf16) (x1 : Vec F S1x3000 .f32) (y : S1x3000.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1x3000.size (by sl_kernel_rfl) y
/-- What case A leaves in the accumulator. -/
def sout2_A_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i) (x0 : Vec F S512x3000 .bf16) (x1 : Vec F S1x3000 .f32) : Vec F S1x3000 .f32 :=
  VS2_0.read (Elt F) (VS2_0.writes (Elt F) VS2_0.junk (kernelRun2_A c i arg2 harg2 arg3 harg3 arg4 harg4 arg5 harg5 hc0 hc1 x0 x1).1)

theorem scover2_B_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i) (x0 : Vec F S512x3000 .bf16) (x1 : Vec F S1x3000 .f32) (xs0 : Vec F S1x3000 .f32) (y : S1x3000.Idx) :
    ∃ pc ∈ (kernelRun2_B c i arg2 harg2 arg3 harg3 arg4 harg4 arg5 harg5 hc0 hc1 x0 x1 xs0).1, y ∈ pc.1.set :=
  View.cover_of_tiledL (kernelRun2_B c i arg2 harg2 arg3 harg3 arg4 harg4 arg5 harg5 hc0 hc1 x0 x1 xs0).1 S1x3000.size (by sl_kernel_rfl) y
/-- What case B leaves in the accumulator. -/
def sout2_B_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i) (x0 : Vec F S512x3000 .bf16) (x1 : Vec F S1x3000 .f32) (xs0 : Vec F S1x3000 .f32) : Vec F S1x3000 .f32 :=
  VS2_0.read (Elt F) (VS2_0.writes (Elt F) VS2_0.junk (kernelRun2_B c i arg2 harg2 arg3 harg3 arg4 harg4 arg5 harg5 hc0 hc1 x0 x1 xs0).1)

theorem scover2_C_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) (y : S1x3000.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x3000.size (by sl_kernel_rfl) y
/-- What case C leaves in the accumulator. -/
def sout2_C_0 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) : Vec F S1x3000 .f32 :=
  VS2_0.read (Elt F) (VS2_0.writes (Elt F) VS2_0.junk (kernelRun2_C c i arg2 harg2 arg3 harg3 arg4 harg4 arg5 harg5 hc0 hc1 x0 x1 xs0).2.1)

theorem cover2_C_2 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) (y : S8x3000.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S8x3000.size (by sl_kernel_rfl) y
/-- What case C leaves in the output block's staging buffer. -/
def out2_C_2 (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) : Vec F S8x3000 .f32 :=
  VO2_2.read (Elt F) (VO2_2.writes (Elt F) VO2_2.junk (kernelRun2_C c i arg2 harg2 arg3 harg3 arg4 harg4 arg5 harg5 hc0 hc1 x0 x1 xs0).1)

section
variable (V : (c : Dev nD) → (b : Ref sig .tc) → Buf (Elt F) ((c : Thread nD τ).loc b))

/-- THE ACCUMULATION: the output block and the accumulator after the body at position `n`. -/
def outsAt2 (c : Dev nD) : (n : ℕ) → n < cfg2.N → Vec F S8x3000 .f32 × Vec F S1x3000 .f32
  | 0, hn => (out2_I_2 (F := F), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by omega)
      else
        (out2_I_2 (F := F), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_I_2 (F := F), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 32 = 0) (h1 : ¬t.val % 32 = 31) :
    outsAt2 V c t.val t.isLt = (out2_I_2 (F := F), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)
theorem outsAt2_B (c : Dev nD) (t : Fin cfg2.N) (h0 : ¬t.val % 32 = 0) (h1 : ¬t.val % 32 = 31) :
    outsAt2 V c t.val t.isLt = (out2_I_2 (F := F), sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- Before the first point the class invariant; afterwards the accumulator at what the point before left in it, the
    other calls' scoped buffers at anything, the generator register at some state. -/
def PhiS2 (c : Dev nD) : (n : ℕ) → n ≤ cfg2.N → sProp 𝕄
  | 0, _ => Pipeline.ΦA spec2 c
  | n + 1, hn => iprop(around2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(around2 (F := F) c (owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(around2 (F := F) c (owns (c : Thread nD τ) scM2_0 fullShare ((outsAt2 V c (n - 1) (by omega)).2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 32 = 0
  · have h1 : ¬t.val % 32 = 31 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_A_0 c _ _ _ _ _ _ _ _ _ _ _ _ _)
          iexact Hoth
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by omega
    by_cases h1 : t.val % 32 = 31
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨Hb0, Hb1, Hb2, Hb3, Hb4, Hb5, Hb6, Hb7, Hb8, Hb9, Hb10, Hb11, Hb12, HS0, Hoth⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 Hb5 Hb6 Hb7 Hb8 Hb9 Hb10 Hb11 Hb12 HS0 Hoth Hg]
      · isplitl [Hb0 Hb1 Hb2 Hb3 Hb4 Hb5 Hb6 Hb7 Hb8 Hb9 Hb10 Hb11 Hb12 HS0 Hoth]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          isplitl [Hb12]; · iexact Hb12
          isplitl [HS0]
          · unfold owns; iexists _; isplitr
            swap; · iexact HS0
            ipureintro; exact View.read_writes_of_cover _ _ _ _ _ (scover2_B_0 c _ _ _ _ _ _ _ _ _ _ _ _ _ _)
          iexact Hoth
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hb0, Hb1, Hb2, Hb3, Hb4, Hb5, Hb6, Hb7, Hb8, Hb9, Hb10, Hb11, Hb12, HS0, Hoth⟩, Hg⟩
  isplitl [Hb0 Hb1 Hb2 Hb3 Hb4 Hb5 Hb6 Hb7 Hb8 Hb9 Hb10 Hb11 Hb12 HS0 Hoth]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [HS0]
    · iexists _; iexact HS0
    iexact Hoth
  iexact Hg

theorem Phi_last2 (c : Dev nD) : (dat2 V c).Φ (Fin.last cfg2.N) ⊢ Pipeline.ΦA spec2 c :=
  Phi_out2 V c _ (by rw [Fin.val_last]; have : cfg2.N = 64 := N_2; omega)

end

end Cert.KIFrame

end
-- ==== Proof.KIR3Run.lean ====
/-
  The final pass (call 3): each tile of 256 rows of the output is ((3000·exp(logits))·r)·c with c the rows' weights
  1/(3000·Σ_b exp(logits)·r), computed from the tile of logits and the column weights r alone. Every point is of one
  kind: load the two inputs, store the output tile whole.
-/
import proofs.«131687_j32452772888869_2_alg».proof.Proof.Gen.KernelIdeal.Launch
import proofs.«131687_j32452772888869_2_alg».proof.Proof.Gen.KernelIdeal.Skeleton
import proofs.«131687_j32452772888869_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

abbrev VO3_2 : View sig .tc .vmem S256x3000 .f32 := (Memref.whole cc3_stg2_0 : Memref sig .tc .vmem S256x3000 .f32).view
abbrev ms3_0 (t : Fin cfg3.N) : Memref sig .tc .vmem S256x3000 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x3000 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x3000 .f32 := win3_2.stage (cfg3.slots t 2)
abbrev hs3_2 (t : Fin cfg3.N) : (ms3_2 t).IsWhole := hstage3_2 ((cfg3.slots t 2).cast nbuf3_2)

set_option maxHeartbeats 1000000 in
/-- The pieces the body's one store leaves in the output tile's buffer, with the proof that on whole memrefs — the
    logits' tile at `x0`, the column weights at `x1`, the output's at anything — the body runs to a continuation that
    holds the inputs as they were and the output's buffer with those pieces written. -/
noncomputable def kernelRun3 (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole)
    (x0 : Vec F S256x3000 .f32) (x1 : Vec F S1x3000 .f32) :
    { L2 : List (View.Piece (Elt F) S256x3000 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc3__final_kernel i arg1 harg1 arg2 harg2 arg3 harg3) K } := by
  refine ⟨?_, fun E K => ?run⟩
  case run =>
    simp only [cc3__final_kernel_eq_skeleton]; unfold cc3__final_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KIFrame

end
-- ==== Proof.KIR3.lean ====
/-
  The final pass: what a point leaves in the output tile, the proof data and the body obligation. Nothing is carried
  between points: the invariant is the plain class invariant throughout.
-/
import proofs.«131687_j32452772888869_2_alg».proof.Proof.KIR3Run

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cover3_2 (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole) (x0 : Vec F S256x3000 .f32) (x1 : Vec F S1x3000 .f32) (y : S256x3000.Idx) :
    ∃ pc ∈ (kernelRun3 c i arg1 harg1 arg2 harg2 arg3 harg3 x0 x1).1, y ∈ pc.1.set :=
  View.cover_of_tiledL (kernelRun3 c i arg1 harg1 arg2 harg2 arg3 harg3 x0 x1).1 S256x3000.size (by sl_kernel_rfl) y
/-- What a point leaves in the output tile's staging buffer. -/
def out3_2 (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole) (x0 : Vec F S256x3000 .f32) (x1 : Vec F S1x3000 .f32) : Vec F S256x3000 .f32 :=
  VO3_2.read (Elt F) (VO3_2.writes (Elt F) VO3_2.junk (kernelRun3 c i arg1 harg1 arg2 harg2 arg3 harg3 x0 x1).1)

section
variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 c (grid3.coords t) (ms3_0 t) (hs3_0 t) (ms3_1 t) (hs3_1 t) (ms3_2 t) (hs3_2 t) (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 c (grid3.coords t) (ms3_0 t) (hs3_0 t) (ms3_1 t) (hs3_1 t) (ms3_2 t) (hs3_2 t) (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 2000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  unfold out3_2
  iintro ⟨HΦ, Ho, ⟨%d0, H0⟩, ⟨%d1, H1⟩, ⟨%d2, H2⟩⟩
  iapply ((kernelRun3 c (grid3.coords t) _ _ _ _ _ _ (iblk3 V c 0 t) (iblk3 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover3_2 c _ _ _ _ _ _ _ _ _)

theorem body_obligation3 (c : Dev nD) : BodyObligation (dat3 (F := F) V c) (defs₀ (F := F)) Variants.none () Set.univ := fun t => by
  rw [bigSep_W3, bigSep_W3]
  exact sound_body3 V c t

end

end Cert.KIFrame

end
-- ==== Proof.KIRun.lean ====
/-
  THE RUN of the kernel's program: four pallas_calls with three short host stretches between them (each adds the two
  half sums the call before left, scales by 32768 and inverts: the next column weights).

  The contents of every unscoped buffer are followed from the launch through the seven segments: a call changes its
  own arrays only (to what its write-backs leave), a host stretch the buffers its operations write. Each call is a
  region of the pipeline library entered from and left at these contents; the first three carry their accumulator's
  named contents from point to point inside their invariant. The run ends with every unscoped buffer at the last
  contents `W7`: in particular the logits as launched and the result array at what the final pass leaves.
-/
import proofs.«131687_j32452772888869_2_alg».proof.Proof.KIR0
import proofs.«131687_j32452772888869_2_alg».proof.Proof.KIR1
import proofs.«131687_j32452772888869_2_alg».proof.Proof.KIR2
import proofs.«131687_j32452772888869_2_alg».proof.Proof.KIR3
import proofs.«131687_j32452772888869_2_alg».proof.Proof.Gen.KernelIdeal.Regions

set_option maxRecDepth 16384

noncomputable section

namespace Cert.KIFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- After call 0: its arrays at what the call leaves (the inputs as entered, each output's write-backs folded), every
    other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the first host stretch (the two half sums added, scaled by 32768 and inverted: the next column weights). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- After call 1: its arrays at what the call leaves (the inputs as entered, each output's write-backs folded), every
    other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the second host stretch (the two half sums added, scaled by 32768 and inverted: the next column weights). -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b

/-- After call 2: its arrays at what the call leaves (the inputs as entered, each output's write-backs folded), every
    other buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)

/-- After the third host stretch (the two half sums added, scaled by 32768 and inverted: the next column weights). -/
abbrev W6 : Dev nD → Valuation τ sig (Elt F) := fun c => StableHlo.after hostOps3 (W5 m ρ c)
abbrev U6 : (c : Dev nD) → (b : Ref sig .tc) → Buf (Elt F) ((c : Thread nD τ).loc b) := fun c b => W6 m ρ c b

/-- After call 3: its arrays at what the call leaves (the inputs as entered, each output's write-backs folded), every
    other buffer as entered. -/
def W7 (c : Dev nD) : Valuation τ sig (Elt F) :=
  Pipeline.withArrays spec3 c (W6 m ρ c) fun w => (dat3 (U6 m ρ) c).arrAt w cfg3.N
theorem W7_arr (c : Dev nD) (w : Fin cfg3.W) :
    W7 m ρ c (Proc.devRef .tc (Pipeline.arrRef spec3 w)) = (dat3 (U6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev U7 : (c : Dev nD) → (b : Ref sig .tc) → Buf (Elt F) ((c : Thread nD τ).loc b) := fun c b => W7 m ρ c b
theorem hF3 (c : Dev nD) (w : Fin cfg3.W) : (dat3 (U6 m ρ) c).arrAt w cfg3.N = U7 m ρ c (Pipeline.arrRef spec3 w) :=
  (W7_arr m ρ c w).symm
theorem hrest3 (c : Dev nD) : ∀ b, b ∉ Finset.univ.image (Pipeline.arrRef spec3) → U7 m ρ c b = U6 m ρ c b :=
  fun b hb => W7_of_ne m ρ c b fun w e => hb (Finset.mem_image.mpr ⟨w, Finset.mem_univ _, e⟩)

/-! ### The logits end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := (W7_arr m ρ c 0).trans (((dat3 (U6 m ρ) c).arrAt_in 0 rfl _).trans (A_eq3 (U6 m ρ) c 0))
    _ = W5 m ρ c (Proc.devRef .tc main_arg0) := StableHlo.after_of_writes_sub hostOps3 _ hostOps3_writes (by decide : main_arg0 ∉ hostOps3_W)
    _ = W4 m ρ c (Proc.devRef .tc main_arg0) := W5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

/-- The result array ends at what the final pass's write-backs leave. -/
theorem W7_main_v24 (c : Dev nD) : W7 m ρ c (Proc.devRef .tc main_v24) = (dat3 (U6 m ρ) c).arrAt 2 cfg3.N :=
  W7_arr m ρ c 2

/-! ## The proof data family and the thread state -/

abbrev admK : (p : Fin 4) → (pcfgs (F := F) p).Adm := fun p => (cfgs p).toPCfg_adm
/-- Every call's proof data, each at its call's entry contents — a literal match on the call's number. -/
def pdats : (p : Fin 4) → (c : Dev nD) → Dat τ (Elt F) Unit ℕ (UR sig nD τ) ℕ (Pipeline.pin (pcfgs (F := F)) admK p) c
  | ⟨0, _⟩ => fun c => dat0 (U0 m ρ) c
  | ⟨1, _⟩ => fun c => dat1 (U2 m ρ) c
  | ⟨2, _⟩ => fun c => dat2 (U4 m ρ) c
  | ⟨3, _⟩ => fun c => dat3 (U6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- Call 0 over the thread state: entered from every unscoped buffer at `W0`, left at `W1`. Its arrays are split out
    of the unscoped buffers and put back at what the call leaves; the generator register and the scoped buffers go into
    the call's invariant and come back (the accumulator's named contents forgotten at the end); nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (U0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are split out
    of the unscoped buffers and put back at what the call leaves; the generator register and the scoped buffers go into
    the call's invariant and come back (the accumulator's named contents forgotten at the end); nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W4`, left at `W5`. Its arrays are split out
    of the unscoped buffers and put back at what the call leaves; the generator register and the scoped buffers go into
    the call's invariant and come back (the accumulator's named contents forgotten at the end); nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi_last2 (U4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W6`, left at `W7`. Its arrays are split out
    of the unscoped buffers and put back at what the call leaves; the generator register and the scoped buffers go into
    the call's invariant and come back; nothing is owed; the kernel has no semaphore of its own. -/
def reg3 : Pipeline.RegionSeg (pcfgs (F := F)) admK (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (U6 m ρ c) (U7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsK : List (Pipeline.Seg (pcfgs (F := F)) admK (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
theorem main_run (c : Dev nD) : main (F := F) c = Pipeline.Seg.run (segsK m ρ) := (main_chain c).trans (by chain_rfl)

set_option backward.isDefEq.respectTransparency.types false in
/-- THE RUN: from any memory with zero counters every weakly fair execution of @main on the TensorCores terminates,
    nothing faulting, and every final state has the logits as launched and the result array at the last contents. -/
theorem run_all : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)) :=
  Pipeline.θ_run_regions_kit (pcfgs (F := F)) admK (pdats m ρ) () cellOf_inj emb₁ defs₀ 𝒱₀ L lv m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)), (h c _ (mem_uc main_arg0 (by decide))).trans (W7_main_arg0 m ρ c)⟩)

end Cert.KIFrame

end
-- ==== Proof.Spec.lean ====
/-
  The Sinkhorn–Knopp normalisation (three row/column rounds) of E = exp(logits), an array of 32768 rows and 3000
  columns, written as ONE function of the logits, entry by entry, on the extended reals.

  With E[n,b] = exp(x[n,b]):
    r₁[b]   = 1 / (32768 · Σₙ E[n,b])                       (the column sums, taken as two half sums of 16384 rows)
    c_r[n]  = 1 / (3000 · Σ_b E[n,b] · r[b])                 (the row weights that a column weight vector r induces)
    r⁺[b]   = 1 / (32768 · Σₙ E[n,b] · c_r[n])               (the next column weights, again as two half sums)
    r₂ = r₁⁺, r₃ = r₂⁺
    out[n,b] = ((3000 · E[n,b]) · r₃[b]) · c_{r₃}[n].
  Both programs of the certificate are shown to compute `out`: the kernel literally (this is the order of its
  operations), the reference after cancelling its global rescale and the weights of the round before in every
  normalisation, which is legitimate because every quantity is a positive real when the logits are finite.
-/
import Idealize.ShloMosaic.PureOps.Ideal

noncomputable section

namespace Cert.Sinkhorn

open Idealize.ShloMosaic

/-- Row `n` of half `h` of the 32768 rows: the rows are summed as two halves of 16384. -/
def row (h : Fin 2) (n : Fin 16384) : Fin 32768 := ⟨h.val * 16384 + n.val, by omega⟩

/-- The three literals, as the extended reals their patterns denote (32768, 3000 and 1). -/
def c32768 : EReal := Ideal.ofBits .f32 0x47000000#32
def c3000 : EReal := Ideal.ofBits .f32 0x453B8000#32
def c1 : EReal := Ideal.ofBits .f32 0x3F800000#32

variable (x : Fin 32768 → Fin 3000 → EReal)

/-- E = exp(logits). -/
def E (n : Fin 32768) (b : Fin 3000) : EReal := Ideal.exp (x n b)

/-- Column `b`'s sum of E over half `h` of the rows. -/
def colHalf (h : Fin 2) (b : Fin 3000) : EReal := ∑ n : Fin 16384, E x (row h n) b

/-- The first column weights: the reciprocal of 32768 times the column sum. -/
def r1 (b : Fin 3000) : EReal := Ideal.div c1 (c32768 * (colHalf x 0 b + colHalf x 1 b))

/-- The row weights induced by column weights `r`: the reciprocal of 3000 times the `r`-weighted row sum. -/
def cOf (r : Fin 3000 → EReal) (n : Fin 32768) : EReal := Ideal.div c1 (c3000 * ∑ b : Fin 3000, E x n b * r b)

/-- Column `b`'s sum of E weighted by the row weights of `r`, over half `h` of the rows. -/
def wHalf (r : Fin 3000 → EReal) (h : Fin 2) (b : Fin 3000) : EReal := ∑ n : Fin 16384, E x (row h n) b * cOf x r (row h n)

/-- The next column weights from `r`. -/
def rNext (r : Fin 3000 → EReal) (b : Fin 3000) : EReal := Ideal.div c1 (c32768 * (wHalf x r 0 b + wHalf x r 1 b))

def r2 : Fin 3000 → EReal := rNext x (r1 x)
def r3 : Fin 3000 → EReal := rNext x (r2 x)

/-- The normalised array. -/
def out (n : Fin 32768) (b : Fin 3000) : EReal := ((c3000 * E x n b) * r3 x b) * cOf x (r3 x) n

end Cert.Sinkhorn

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.KValLib.lean ====
/-
  Rows and columns of a matrix read at an index: a sum down the columns and a sum along the rows of an
  `a × b` matrix, each as a sum over the literal range of the summed coordinate, and one row repeated
  over several rows.
-/
import Idealize.ShloMosaic.Lib.ValueLayout
import Idealize.ShloMosaic.Lib.ValueIdx
import Idealize.ShloMosaic.PureOps.Ideal.Laws
import proofs.«131687_j32452772888869_2_alg».proof.Proof.LibColumns

noncomputable section

namespace Cert.KVal

open Idealize.ShloMosaic Idealize.ShloMosaic.ValueIdx

/-- The index of an `[a, b]` matrix over column `q` at position `k` of the reduced (row) axis is `(k, q)`. -/
theorem lift_col {a b : ℕ} (h : Shape.Reduces ⟨2, ![a, b]⟩ [0] ⟨1, ![b]⟩) (q : Fin b) (k : Fin a) :
    h.lift (ix1 q) k = ix2 k q :=
  funext fun ax => Fin.ext (by match ax with | ⟨0, _⟩ => rfl | ⟨1, _⟩ => rfl)

/-- The sum down the columns of an `[a, b]` matrix, started from the zero word, is at column `q` the sum of that
    column's entries. -/
theorem sum_down {a b : ℕ} (src : FVec Ideal ⟨2, ![a, b]⟩ .f32) (h : Shape.Reduces ⟨2, ![a, b]⟩ [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_col h q k)

/-- The sum along the rows of an `[a, b]` matrix, started from the zero word, is at row `p` the sum of that row's
    entries. -/
theorem sum_along {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (Cert.Columns.lift_row h p k)

end Cert.KVal

end
-- ==== Proof.KValHost.lean ====
/-
  The three host stretches between the kernels, as one function of the sixteen-row array of partial sums the
  kernel before left: the new column weights are the reciprocal of 32768 times the sum of row 0 and row 8 (the
  two half sums). Read at a column, and identified with what each stretch leaves in its last buffer.
-/
import proofs.«131687_j32452772888869_2_alg».proof.Proof.Gen.KernelIdeal.Skeleton
import proofs.«131687_j32452772888869_2_alg».proof.Proof.Spec
import proofs.«131687_j32452772888869_2_alg».proof.Proof.KValLib
import proofs.«131687_j32452772888869_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KVal

open Idealize.ShloMosaic Idealize.ShloMosaic.ValueIdx
open Cert.KernelIdeal Cert.KernelIdeal.Gen
open Cert.Sinkhorn (c1 c3000 c32768)

/-- What a host stretch computes from the array of partial sums: row 0 plus row 8, times 32768, and the
    reciprocal of that. -/
def hostR (rp : FVec Ideal S16x3000 .f32) : FVec Ideal S1x3000 .f32 :=
  Host.divf (F := Ideal) (broadcastInDim S1x3000 ![] bcast_S_S1x3000 (constant (F := Ideal) S_ .f32 0x3F800000#32))
    (mulf (broadcastInDim S1x3000 ![] bcast_S_S1x3000 (constant (F := Ideal) S_ .f32 0x47000000#32))
      (addf (extractStridedSlice S1x3000 ![0, 0] rp slices_S16x3000_S1x3000_0_0)
        (extractStridedSlice S1x3000 ![8, 0] rp slices_S16x3000_S1x3000_8_0)))

/-- A scalar constant broadcast to a row reads the extended real its word encodes at every column. -/
theorem bcast_const_apply (w : BitVec 32) (b : Fin 3000) :
    broadcastInDim S1x3000 ![] bcast_S_S1x3000 (constant (F := Ideal) S_ .f32 w) (ix2 0 b) = Ideal.ofBits .f32 w :=
  broadcastInDim_apply _ bcast_S_S1x3000 _ (ix2 0 b) ix0 fun a => a.elim0

/-- At column `b`: the reciprocal of 32768 times the sum of the two half sums. -/
theorem hostR_apply (rp : FVec Ideal S16x3000 .f32) (b : Fin 3000) :
    hostR rp (ix2 0 b) = Ideal.div c1 (c32768 * (rp (ix2 0 b) + rp (ix2 8 b))) := by
  unfold hostR
  show Ideal.div _ _ = _
  rw [bcast_const_apply, mulf_apply, bcast_const_apply, addf_apply,
    slice2_axis0_apply 0 rp slices_S16x3000_S1x3000_0_0 (0 : Fin 1) b (0 : Fin 16) rfl,
    slice2_axis0_apply 8 rp slices_S16x3000_S1x3000_8_0 (0 : Fin 1) b (8 : Fin 16) rfl]
  rfl

/-- The first stretch leaves in its last buffer that function of the partial sums it found. -/
theorem after_hostOps1 (W : Valuation τ sig (Elt Ideal)) :
    StableHlo.after (hostOps1 (F := Ideal)) W (Proc.devRef .tc main_v7) = hostR (W (Proc.devRef .tc main_v0_1)) := by
  after_results
  rfl

/-- The second stretch likewise. -/
theorem after_hostOps2 (W : Valuation τ sig (Elt Ideal)) :
    StableHlo.after (hostOps2 (F := Ideal)) W (Proc.devRef .tc main_v15) = hostR (W (Proc.devRef .tc main_v8)) := by
  after_results
  rfl

/-- The third stretch likewise. -/
theorem after_hostOps3 (W : Valuation τ sig (Elt Ideal)) :
    StableHlo.after (hostOps3 (F := Ideal)) W (Proc.devRef .tc main_v23) = hostR (W (Proc.devRef .tc main_v16)) := by
  after_results
  rfl

end Cert.KVal

end
-- ==== Proof.KValRd.lean ====
/-
  The kernel program's intermediate arrays read as functions of row and column on the extended reals: the logits, the
  bf16 copy of E, and the three rows of column weights the host stretches produce. A buffer's element type is the
  extended reals only after unfolding the program's buffer table, so sums and products of buffer reads are stated
  through these typed readings.
-/
import proofs.«131687_j32452772888869_2_alg».proof.Proof.Gen.KernelIdeal
import Idealize.ShloMosaic.Lib.ValueIdx
import Idealize.ShloMosaic.PureOps.Ideal

noncomputable section

namespace Cert.KVal

open Idealize.ShloMosaic Idealize.ShloMosaic.TcCoe Idealize.SL.Sem Idealize.ShloMosaic.ValueIdx
open Cert.KernelIdeal

variable (V : (c : Dev nD) → (b : Ref sig .tc) → Buf (Elt Ideal) ((c : Thread nD τ).loc b)) (c : Dev nD)

/-- The logits as the valuation holds them. -/
def xIn : Fin 32768 → Fin 3000 → EReal := fun n b => V c main_arg0 (ix2 n b)
/-- The stored copy of E. -/
def eIn : Fin 32768 → Fin 3000 → EReal := fun n b => V c main_v0_0 (ix2 n b)
/-- The column weights after the first, second and third host stretch. -/
def rIn7 : Fin 3000 → EReal := fun b => V c main_v7 (ix2 0 b)
def rIn15 : Fin 3000 → EReal := fun b => V c main_v15 (ix2 0 b)
def rIn23 : Fin 3000 → EReal := fun b => V c main_v23 (ix2 0 b)

end Cert.KVal

end
-- ==== Proof.KValR0Pieces.lean ====
/-
  The first kernel's three kinds of grid step, read as values. What each kind of step leaves in the three buffers
  it writes is one of the kernel's pure functions of what it found: the stored tile is exp of the logits' tile in
  every case; the accumulator is the tile's column sums added to zero (first step of a half) or to what the step
  before left (later steps); and the last step of a half leaves, in the block of column sums, the new accumulator's
  row repeated eight times.
-/
import proofs.«131687_j32452772888869_2_alg».proof.Proof.KIR0
import Idealize.ShloMosaic.Lib.Pipeline.Value
import Idealize.ShloMosaic.Lib.Tactic

set_option maxRecDepth 16384

noncomputable section

namespace Cert.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame

variable {F : FTy → Type} [FloatOps F]

/-- The zero offsets of a rank-2 rectangle, as the constant function. -/
theorem hz2 : (![0, 0] : Fin 2 → Nat) = fun _ => 0 := funext fun a => by fin_cases a <;> rfl

/-- First step of a half: the accumulator ends at zero plus the tile's column sums. -/
theorem sout0_A_0_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) :
    sout0_A_0 c i arg2 harg2 arg3 harg3 arg4 harg4 arg5 harg5 hc0 hc1 x0 = k0_pay4 x0 k0_pay1 := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S1x3000) hz2, View.readCov_unit_zero (S := S1x3000) _ hz2]
  simp only [View.readAt_eq_ld, harg2.read_unread, View.ld_unit_zero (S := S512x3000) hz2]

/-- A middle step: the accumulator ends at what it held plus the tile's column sums. -/
theorem sout0_B_0_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) :
    sout0_B_0 c i arg2 harg2 arg3 harg3 arg4 harg4 arg5 harg5 hc0 hc1 x0 xs0 = k0_pay4 x0 xs0 := by
  unfold sout0_B_0
  rw [View.read_writes_eq_canon _ _ _ (scover0_B_0 c i arg2 harg2 arg3 harg3 arg4 harg4 arg5 harg5 hc0 hc1 x0 xs0)]
  unfold kernelRun0_B
  dsimp only
  sl_unfold_words
  rw [View.canon_unit_zero hz2]
  simp only [View.readAt_eq_ld, harg2.read_unread, harg5.read_unread, View.ld_unit_zero (S := S512x3000) hz2,
    View.ld_unit_zero (S := S1x3000) hz2]

/-- Last step of a half: the accumulator likewise. -/
theorem sout0_C_0_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) :
    sout0_C_0 c i arg2 harg2 arg3 harg3 arg4 harg4 arg5 harg5 hc0 hc1 x0 xs0 = k0_pay4 x0 xs0 := by
  unfold sout0_C_0
  rw [View.read_writes_eq_canon _ _ _ (scover0_C_0 c i arg2 harg2 arg3 harg3 arg4 harg4 arg5 harg5 hc0 hc1 x0 xs0)]
  unfold kernelRun0_C
  dsimp only
  sl_unfold_words
  rw [View.canon_unit_zero hz2]
  simp only [View.readAt_eq_ld, harg2.read_unread, harg5.read_unread, View.ld_unit_zero (S := S512x3000) hz2,
    View.ld_unit_zero (S := S1x3000) hz2]

/-- Last step of a half: the block of column sums ends at the new accumulator's row, repeated. -/
theorem out0_C_2_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) :
    out0_C_2 c i arg2 harg2 arg3 harg3 arg4 harg4 arg5 harg5 hc0 hc1 x0 xs0 = k0_pay5 (k0_pay4 x0 xs0) := by
  unfold out0_C_2
  rw [View.read_writes_eq_canon _ _ _ (cover0_C_2 c i arg2 harg2 arg3 harg3 arg4 harg4 arg5 harg5 hc0 hc1 x0 xs0)]
  unfold kernelRun0_C
  dsimp only
  sl_unfold_words
  rw [View.canon_unit_zero hz2, View.readCov_unit_zero (S := S1x3000) _ hz2]
  simp only [View.readAt_eq_ld, harg2.read_unread, harg5.read_unread, View.ld_unit_zero (S := S512x3000) hz2,
    View.ld_unit_zero (S := S1x3000) hz2]

/-- First step of a half: the stored tile is exp of the logits' tile. -/
theorem out0_A_1_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : cond0_0 i) (hc1 : ¬cond0_1 i) (x0 : Vec F S512x3000 .f32) :
    out0_A_1 c i arg2 harg2 arg3 harg3 arg4 harg4 arg5 harg5 hc0 hc1 x0 = k0_pay3 x0 := by
  unfold out0_A_1
  rw [View.read_writes_eq_canon _ _ _ (cover0_A_1 c i arg2 harg2 arg3 harg3 arg4 harg4 arg5 harg5 hc0 hc1 x0)]
  unfold kernelRun0_A
  dsimp only
  sl_unfold_words
  rw [View.canon_unit_zero hz2]
  simp only [View.readAt_eq_ld, harg2.read_unread, View.ld_unit_zero (S := S512x3000) hz2]

/-- A middle step: the stored tile likewise. -/
theorem out0_B_1_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : ¬cond0_1 i) (x0 : Vec F S512x3000 .f32) (xs0 : Vec F S1x3000 .f32) :
    out0_B_1 c i arg2 harg2 arg3 harg3 arg4 harg4 arg5 harg5 hc0 hc1 x0 xs0 = k0_pay3 x0 := by
  unfold out0_B_1
  rw [View.read_writes_eq_canon _ _ _ (cover0_B_1 c i arg2 harg2 arg3 harg3 arg4 harg4 arg5 harg5 hc0 hc1 x0 xs0)]
  unfold kernelRun0_B
  dsimp only
  sl_unfold_words
  rw [View.canon_unit_zero hz2]
  simp only [View.readAt_eq_ld, harg2.read_unread, View.ld_unit_zero (S := S512x3000) hz2]

/-- Last step of a half: the stored tile likewise. -/
theorem out0_C_1_eq (c : Dev nD) (i : grid0.Coords) (arg2 : Memref sig .tc .vmem S512x3000 .f32) (harg2 : arg2.IsWhole) (arg3 : Memref sig .tc .vmem S512x3000 .bf16) (harg3 : arg3.IsWhole) (arg4 : Memref sig .tc .vmem S8x3000 .f32) (harg4 : arg4.IsWhole) (arg5 : Memref sig .tc .vmem S1x3000 .f32) (harg5 : arg5.IsWhole) (hc0 : ¬cond0_0 i) (hc1 : cond0_1 i) (x0 : Vec F S512x3000 .f32) (xs0 : Vec F S1x3000 .f32) :
    out0_C_1 c i arg2 harg2 arg3 harg3 arg4 harg4 arg5 harg5 hc0 hc1 x0 xs0 = k0_pay3 x0 := by
  unfold out0_C_1
  rw [View.read_writes_eq_canon _ _ _ (cover0_C_1 c i arg2 harg2 arg3 harg3 arg4 harg4 arg5 harg5 hc0 hc1 x0 xs0)]
  unfold kernelRun0_C
  dsimp only
  sl_unfold_words
  rw [View.canon_unit_zero hz2]
  simp only [View.readAt_eq_ld, harg2.read_unread, View.ld_unit_zero (S := S512x3000) hz2]

end Cert.KVal

end
-- ==== Proof.KValPay0.lean ====
/-
  The first kernel's arithmetic read at an index, on the extended reals: the accumulator starts at zero, the
  stored array is exp of the logits, a grid step adds to the accumulator at column `b` the sum over the block's
  512 rows of exp of the logits, and the last step copies the accumulator's one row into each of eight rows.
-/
import proofs.«131687_j32452772888869_2_alg».proof.Proof.Gen.KernelIdeal.Skeleton
import proofs.«131687_j32452772888869_2_alg».proof.Proof.Spec
import proofs.«131687_j32452772888869_2_alg».proof.Proof.KValLib
import Idealize.ShloMosaic.Lib.ValueIdx
import Idealize.ShloMosaic.Lib.ValueLayout
import Idealize.ShloMosaic.Lib.Pipeline.Value
import Idealize.ShloMosaic.PureOps.Ideal.Laws

noncomputable section

namespace Cert.KVal

open Idealize.ShloMosaic Idealize.ShloMosaic.ValueIdx
open Cert.KernelIdeal Cert.KernelIdeal.Gen
open Cert.Sinkhorn (c1 c3000 c32768)

/-- The accumulator's first value is zero at every column. -/
theorem pay0_zero (b : Fin 3000) : (k0_pay1 (F := Ideal)) (ix2 0 b) = 0 := by
  unfold k0_pay1
  rw [shapeCast_self]
  exact Ideal.ofBits_zero_f32

/-- The stored block is exp of the logits, entry by entry (narrowing the format is the identity on extended reals). -/
theorem pay0_E (x : FVec Ideal S512x3000 .f32) (p : Fin 512) (b : Fin 3000) :
    k0_pay3 (F := Ideal) x (ix2 p b) = Ideal.exp (x (ix2 p b)) := rfl

/-- A grid step adds, at column `b`, the sum over the block's rows of exp of the logits. -/
theorem pay0_acc (x : FVec Ideal S512x3000 .f32) (acc : FVec Ideal S1x3000 .f32) (b : Fin 3000) :
    k0_pay4 (F := Ideal) x acc (ix2 0 b) = acc (ix2 0 b) + ∑ p : Fin 512, Ideal.exp (x (ix2 p b)) := by
  unfold k0_pay4
  rw [shapeCast_self, addf_apply, shapeCast_a_1a_apply]
  refine congrArg (acc (ix2 0 b) + ·) ?_
  refine (sum_down _ _ _ _ b).trans ?_
  rfl

/-- The last step copies the accumulator's row into each of the eight rows. -/
theorem pay0_out (acc : FVec Ideal S1x3000 .f32) (k : Fin 8) (b : Fin 3000) :
    k0_pay5 (F := Ideal) acc (ix2 k b) = acc (ix2 0 b) := by
  unfold k0_pay5
  rw [shapeCast_self]
  exact broadcastTo_1b_ab_apply acc _ k b

end Cert.KVal

end
-- ==== Proof.KValSums.lean ====
/-
  Two facts about finite sums on the extended reals. A sum over 16384 rows, taken as 32 consecutive tiles of 512
  rows, is the sum over the rows; and an accumulator that starts at zero plus the first term and then adds one
  term per step holds, after the 32nd step, the sum of the 32 terms. The extended reals are a commutative
  additive monoid, so neither fact needs the terms to be finite.
-/
import Mathlib.Data.EReal.Basic
import Mathlib.Algebra.BigOperators.Fin
import Mathlib.Logic.Equiv.Fin.Basic

namespace Cert.KVal

open scoped BigOperators

/-- A sum over `m * n` indices is the double sum over `m` tiles of `n` consecutive indices. -/
theorem sum_tiles_gen {M : Type*} [AddCommMonoid M] (m n : ℕ) (g : Fin (m * n) → M) :
    ∑ j : Fin m, ∑ p : Fin n, g (finProdFinEquiv (j, p)) = ∑ i : Fin (m * n), g i := by
  rw [← Fintype.sum_prod_type']
  exact Fintype.sum_equiv finProdFinEquiv _ _ fun _ => rfl

/-- The 16384 rows as 32 tiles of 512 rows: row `p` of tile `j` is row `j * 512 + p`. -/
theorem sum_tiles (g : Fin 16384 → EReal) :
    ∑ j : Fin 32, ∑ p : Fin 512, g ⟨j.val * 512 + p.val, by omega⟩ = ∑ n : Fin 16384, g n := by
  refine Eq.trans ?_ (sum_tiles_gen 32 512 g)
  refine Finset.sum_congr rfl fun j _ => Finset.sum_congr rfl fun p _ => congrArg g (Fin.ext ?_)
  show j.val * 512 + p.val = p.val + 512 * j.val
  omega

/-- An accumulator that starts at zero plus the first term and adds one term per step holds after step `k` the
    sum of the terms `0 … k`. -/
theorem acc_sum {M : Type*} [AddCommMonoid M] (s A : ℕ → M) (h0 : A 0 = 0 + s 0) (hs : ∀ j, A (j + 1) = A j + s (j + 1)) (k : ℕ) :
    A k = ∑ j : Fin (k + 1), s j.val := by
  induction k with
  | zero => rw [h0, zero_add, Fin.sum_univ_one]; rfl
  | succ k ih => rw [hs, ih, Fin.sum_univ_castSucc (n := k + 1)]; rfl

/-- After the 32nd step it holds the sum of the 32 terms. -/
theorem acc_sum_32 (s A : ℕ → EReal) (h0 : A 0 = 0 + s 0) (hs : ∀ j, A (j + 1) = A j + s (j + 1)) :
    A 31 = ∑ j : Fin 32, s j.val :=
  acc_sum s A h0 hs 31

end Cert.KVal
-- ==== Proof.KValFused.lean ====
/-
  The fused passes' accumulation, as sums. A row n of E contributes at column b its entry times the row's weight
  1/(3000·Σ_q E[n,q]·r[q]). Tile k (512 consecutive rows) contributes the sum of its rows' terms; an accumulator that is
  cleared at the first tile of each run of 32 tiles and adds one tile's contribution per step holds, after a step, the
  sum over the tiles of its run so far; and the 32 tiles of run h are the 16384 rows of half h.
-/
import proofs.«131687_j32452772888869_2_alg».proof.Proof.Spec
import proofs.«131687_j32452772888869_2_alg».proof.Proof.KValSums
import Idealize.ShloMosaic.Lib.ValueIdx
import Mathlib.Algebra.BigOperators.Intervals

noncomputable section

namespace Cert.KVal

open Idealize.ShloMosaic Idealize.ShloMosaic.ValueIdx
open Cert.Sinkhorn (c1 c3000)
open scoped BigOperators

/-- Row n's term at column b: the entry times the row's weight. -/
def wterm (e : (⟨2, ![32768, 3000]⟩ : Shape).Idx → EReal) (r : (⟨2, ![1, 3000]⟩ : Shape).Idx → EReal)
    (n : Fin 32768) (b : Fin 3000) : EReal :=
  e (ix2 n b) * Ideal.div c1 (c3000 * ∑ q : Fin 3000, e (ix2 n q) * r (ix2 0 q))

/-- Row p of tile k. -/
def tileRow (k : ℕ) (hk : k < 64) (p : Fin 512) : Fin 32768 := ⟨k * 512 + p.val, by omega⟩

/-- Tile k's contribution at column b (zero past the 64 tiles). -/
def tileTerm (e : (⟨2, ![32768, 3000]⟩ : Shape).Idx → EReal) (r : (⟨2, ![1, 3000]⟩ : Shape).Idx → EReal)
    (k : ℕ) (b : Fin 3000) : EReal :=
  if h : k < 64 then ∑ p : Fin 512, wterm e r (tileRow k h p) b else 0

/-- Half h's sum at column b. -/
def halfSum (e : (⟨2, ![32768, 3000]⟩ : Shape).Idx → EReal) (r : (⟨2, ![1, 3000]⟩ : Shape).Idx → EReal)
    (h : Fin 2) (b : Fin 3000) : EReal :=
  ∑ n : Fin 16384, wterm e r (Cert.Sinkhorn.row h n) b

/-- An accumulator cleared at every 32nd step holds the sum of its run's terms so far. -/
theorem acc_closed {N : ℕ} (A : (n : ℕ) → n < N → EReal) (s : ℕ → EReal)
    (hA : ∀ n (hn : n < N), n % 32 = 0 → A n hn = 0 + s n)
    (hBC : ∀ n (hn : n + 1 < N), ¬(n + 1) % 32 = 0 → A (n + 1) hn = A n (Nat.lt_of_succ_lt hn) + s (n + 1)) :
    ∀ n (hn : n < N), A n hn = ∑ k ∈ Finset.Ico (n - n % 32) (n + 1), s k
  | 0, hn => by
    rw [hA 0 hn (Nat.zero_mod _), show 0 - 0 % 32 = 0 from rfl, Finset.sum_Ico_succ_top (Nat.le_refl 0),
      Finset.Ico_self, Finset.sum_empty]
  | n + 1, hn => by
    by_cases h0 : (n + 1) % 32 = 0
    · rw [hA (n + 1) hn h0, h0, Nat.sub_zero, Finset.sum_Ico_succ_top (Nat.le_refl _), Finset.Ico_self,
        Finset.sum_empty]
    · have ha : n + 1 - (n + 1) % 32 = n - n % 32 := by omega
      rw [hBC n hn h0, ha, Finset.sum_Ico_succ_top (by omega), acc_closed A s hA hBC n (Nat.lt_of_succ_lt hn)]

/-- The 32 tiles of run h are the rows of half h. -/
theorem run_tiles (e : (⟨2, ![32768, 3000]⟩ : Shape).Idx → EReal) (r : (⟨2, ![1, 3000]⟩ : Shape).Idx → EReal)
    (n : ℕ) (hn : n < 64) (h31 : n % 32 = 31) (b : Fin 3000) :
    ∑ k ∈ Finset.Ico (n - n % 32) (n + 1), tileTerm e r k b = halfSum e r ⟨n / 32, by omega⟩ b := by
  have hlo : n - n % 32 = 32 * (n / 32) := by omega
  have hlen : n + 1 - 32 * (n / 32) = 32 := by omega
  rw [hlo, Finset.sum_Ico_eq_sum_range, hlen, Finset.sum_range]
  unfold halfSum
  refine Eq.trans ?_ (sum_tiles (fun m => wterm e r (Cert.Sinkhorn.row ⟨n / 32, by omega⟩ m) b))
  refine Finset.sum_congr rfl fun j _ => ?_
  have hj : j.val < 32 := j.isLt
  unfold tileTerm
  rw [dif_pos (by omega : 32 * (n / 32) + j.val < 64)]
  refine Finset.sum_congr rfl fun p _ => ?_
  refine congrArg (fun m => wterm e r m b) (Fin.ext ?_)
  show (32 * (n / 32) + j.val) * 512 + p.val = n / 32 * 16384 + (j.val * 512 + p.val)
  omega

end Cert.KVal

end
-- ==== Proof.KValR0E.lean ====
/-
  The first pass's stored copy of E, read as a value. Every point stores exp of its tile of logits (rows 512·t …
  512·t+511) and the stored tile is written back to the same rows at every point: the 64 tiles cover the array, which
  therefore ends holding exp of the logits at every entry.
-/
import proofs.«131687_j32452772888869_2_alg».proof.Proof.KIR0
import proofs.«131687_j32452772888869_2_alg».proof.Proof.KValR0Pieces
import proofs.«131687_j32452772888869_2_alg».proof.Proof.KValPay0
import proofs.«131687_j32452772888869_2_alg».proof.Proof.KValFused
import Idealize.ShloMosaic.Lib.Pipeline.Value
import Idealize.ShloMosaic.Lib.Tactic
import Idealize.ShloMosaic.Lib.ValueIdx

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame

/-- The index maps over the grid: the logits' tile and the stored tile at point t are tile t. -/
theorem idx_facts0E : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem t0E_lt (t : Fin cfg0.N) : t.val < 64 := lt_of_lt_of_eq t.isLt (show cfg0.N = 64 from N_0)

section
variable (V : (c : Dev nD) → (b : Ref sig .tc) → Buf (Elt Ideal) ((c : Thread nD τ).loc b))

/-- The logits' tile at point t is rows 512·t … of the logits. -/
theorem iblk0E_apply (c : Dev nD) (t : Fin cfg0.N) (p : Fin 512) (q : Fin 3000) :
    iblk0 V c 0 t (ix2 p q) = V c main_arg0 (ix2 (tileRow t.val (t0E_lt t) p) q) := by
  unfold iblk0
  rw [View.read_apply]
  show V c main_arg0 _ = V c main_arg0 _
  refine congrArg (V c main_arg0 : S32768x3000.Idx → EReal) ?_
  funext a
  apply Fin.ext
  obtain ⟨e0, e1, -⟩ := idx_facts0E t
  match a with
  | ⟨0, _⟩ => show win0_0.index t (0 : Fin 2) * 512 + 1 * p.val = t.val * 512 + p.val; rw [e0]; omega
  | ⟨1, _⟩ => show win0_0.index t (1 : Fin 2) * 3000 + 1 * q.val = q.val; rw [e1]; omega

/-- Whatever kind of point t is, it leaves exp of its tile of logits in the stored tile's buffer. -/
theorem out0E (c : Dev nD) (t : Fin cfg0.N) : (outsAt0 V c t.val t.isLt).1 = k0_pay3 (iblk0 V c 0 t) := by
  by_cases h0 : t.val % 32 = 0
  · have h1 : ¬t.val % 32 = 31 := by omega
    rw [outsAt0_A V c t h0 h1]
    dsimp only
    exact out0_A_1_eq c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)
  · by_cases h1 : t.val % 32 = 31
    · rw [outsAt0_C V c t h0 h1]
      dsimp only
      exact out0_C_1_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2
    · rw [outsAt0_B V c t h0 h1]
      dsimp only
      exact out0_B_1_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2

/-- The array of exp of the logits. -/
def G0E (a0 : S32768x3000.Idx → EReal) : S32768x3000.Idx → EReal := fun i => Ideal.exp (a0 i)

/-- The stored tile at point t, embedded in the array. -/
theorem emb0E (t : Fin cfg0.N) (p : Fin 512) (q : Fin 3000) :
    ((cfg0.win 1).blk t).view.emb (ix2 p q) = (ix2 (tileRow t.val (t0E_lt t) p) q : S32768x3000.Idx) := by
  funext a
  apply Fin.ext
  obtain ⟨-, -, e2, e3⟩ := idx_facts0E t
  match a with
  | ⟨0, _⟩ => show win0_1.index t (0 : Fin 2) * 512 + 1 * p.val = t.val * 512 + p.val; rw [e2]; omega
  | ⟨1, _⟩ => show win0_1.index t (1 : Fin 2) * 3000 + 1 * q.val = q.val; rw [e3]; omega

/-- What point t writes back is tile t of the array of exp of the logits. -/
theorem flushed0E_eq (c : Dev nD) (t : Fin cfg0.N) :
    (dat0 V c).flushed 1 t = ((cfg0.win 1).blk t).view.read (Elt Ideal) (G0E (V c main_arg0)) := by
  show (cfg0.win 1).cut (grid0.coords t) ((dat0 V c).after 1 t) = _
  rw [after0_1, out0E V c t]
  funext j
  obtain ⟨p, q, rfl⟩ : ∃ (p : Fin 512) (q : Fin 3000), j = ix2 p q := ⟨j 0, j 1, eq_ix2 j⟩
  rw [View.read_apply, emb0E t p q]
  show k0_pay3 (F := Ideal) (iblk0 V c 0 t) (ix2 p q) = Ideal.exp (V c main_arg0 (ix2 (tileRow t.val (t0E_lt t) p) q))
  exact (pay0_E (iblk0 V c 0 t) p q).trans (congrArg Ideal.exp (iblk0E_apply V c t p q))

/-- An index of the array is in point t's tile iff each coordinate is in the tile's range on its axis. -/
theorem mem_blk0E (t : Fin cfg0.N) (i : S32768x3000.Idx) :
    i ∈ ((cfg0.win 1).blk t).view.set ↔ ∀ a : Fin 2, win0_1.index t a * S512x3000.size a ≤ (i a).val ∧ (i a).val < win0_1.index t a * S512x3000.size a + S512x3000.size a := by
  show i ∈ ((View.whole main_v0_0).slice (win0_1.rect t)).set ↔ _
  rw [View.set_slice_whole, Rect.mem_set_unit]
  exact Iff.rfl

/-- Every entry of the array is in the tile of the point its row falls in. -/
theorem cover0E (i : S32768x3000.Idx) :
    ∃ t : Fin cfg0.N, (cfg0.win 1).flush t = true ∧ i ∈ ((cfg0.win 1).blk t).view.set := by
  have hi0 : (i 0).val < 32768 := idx2_lt0 i
  have hi1 : (i 1).val < 3000 := idx2_lt1 i
  have hN : cfg0.N = 64 := N_0
  let t : Fin cfg0.N := ⟨(i 0).val / 512, by rw [hN]; omega⟩
  have ht : t.val = (i 0).val / 512 := rfl
  refine ⟨t, flush0_1 t, ?_⟩
  rw [mem_blk0E]
  obtain ⟨-, -, e2, e3⟩ := idx_facts0E t
  intro a
  match a with
  | ⟨0, _⟩ => show win0_1.index t (0 : Fin 2) * 512 ≤ (i 0).val ∧ (i 0).val < win0_1.index t (0 : Fin 2) * 512 + 512; rw [e2, ht]; omega
  | ⟨1, _⟩ => show win0_1.index t (1 : Fin 2) * 3000 ≤ (i 1).val ∧ (i 1).val < win0_1.index t (1 : Fin 2) * 3000 + 3000; rw [e3]; omega

/-- The stored copy of E after the first pass. -/
theorem final0E (c : Dev nD) : (dat0 V c).arrAt 1 cfg0.N = G0E (V c main_arg0) :=
  (dat0 V c).arrAt_eq_of_cover 1 (G0E (V c main_arg0)) (fun t _ => flushed0E_eq V c t) cover0E

/-- The stored copy of E after the first pass, entry by entry. -/
theorem arr0_E (c : Dev nD) (n : Fin 32768) (b : Fin 3000) :
    (dat0 V c).arrAt 1 cfg0.N (ix2 n b) = Ideal.exp (V c main_arg0 (ix2 n b)) := by
  rw [final0E V c]
  rfl

end

end Cert.KVal

end
-- ==== Proof.KValR0S.lean ====
/-
  The first kernel's array of column sums. With x the logits as the call finds them (32768 rows, 3000 columns),
  grid step t = 32·h + j loads tile t of x (rows 512·t … 512·t + 511); the first step of a half leaves in the
  accumulator zero plus the tile's column sums of exp x, every later step what the accumulator held plus the tile's
  column sums. So after the last step of half h the accumulator holds, at column b, the sum of exp x over the
  half's 16384 rows; that step copies it into each of the eight rows of the half's output block, the only write-back
  of that block; the two blocks cover the sixteen rows, so the array ends holding, in row 8·h + k and column b, the
  column sum of exp x over half h.
-/
import proofs.«131687_j32452772888869_2_alg».proof.Proof.KValR0Pieces
import proofs.«131687_j32452772888869_2_alg».proof.Proof.KValPay0
import proofs.«131687_j32452772888869_2_alg».proof.Proof.KValFused
import proofs.«131687_j32452772888869_2_alg».proof.Proof.KValSums
import proofs.«131687_j32452772888869_2_alg».proof.Proof.Spec
import Idealize.ShloMosaic.Lib.Pipeline.Value
import Idealize.ShloMosaic.Lib.Tactic
import Idealize.ShloMosaic.Lib.ValueIdx

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame

/-- The index maps over the grid: the logits' tile at step t is tile t, the output block is the half's. -/
theorem idx_facts0S : ∀ t : Fin cfg0.N, win0_0.index t (0 : Fin 2) = t.val ∧ win0_0.index t (1 : Fin 2) = 0
    ∧ win0_2.index t (0 : Fin 2) = t.val / 32 ∧ win0_2.index t (1 : Fin 2) = 0 :=
  (by decide +kernel : ∀ t : Fin grid0.N, _)

theorem t0S_lt (t : Fin cfg0.N) : t.val < 64 := lt_of_lt_of_eq t.isLt (show cfg0.N = 64 from N_0)

/-- Tile k's column sum of exp x at column b (zero past the 64 tiles). -/
def expTile (x : (⟨2, ![32768, 3000]⟩ : Shape).Idx → EReal) (k : ℕ) (b : Fin 3000) : EReal :=
  if h : k < 64 then ∑ p : Fin 512, Ideal.exp (x (ix2 (tileRow k h p) b)) else 0

/-- Half h's column sum of exp x at column b. -/
def expHalf (x : (⟨2, ![32768, 3000]⟩ : Shape).Idx → EReal) (h : Fin 2) (b : Fin 3000) : EReal :=
  ∑ n : Fin 16384, Ideal.exp (x (ix2 (Cert.Sinkhorn.row h n) b))

/-- The 32 tiles of run h are the rows of half h. -/
theorem expTiles_run (x : (⟨2, ![32768, 3000]⟩ : Shape).Idx → EReal) (n : ℕ) (hn : n < 64) (h31 : n % 32 = 31)
    (b : Fin 3000) :
    ∑ k ∈ Finset.Ico (n - n % 32) (n + 1), expTile x k b = expHalf x ⟨n / 32, by omega⟩ b := by
  have hlo : n - n % 32 = 32 * (n / 32) := by omega
  have hlen : n + 1 - 32 * (n / 32) = 32 := by omega
  rw [hlo, Finset.sum_Ico_eq_sum_range, hlen, Finset.sum_range]
  unfold expHalf
  refine Eq.trans ?_ (sum_tiles (fun m => Ideal.exp (x (ix2 (Cert.Sinkhorn.row ⟨n / 32, by omega⟩ m) b))))
  refine Finset.sum_congr rfl fun j _ => ?_
  have hj : j.val < 32 := j.isLt
  unfold expTile
  rw [dif_pos (by omega : 32 * (n / 32) + j.val < 64)]
  refine Finset.sum_congr rfl fun p _ => ?_
  refine congrArg (fun m => Ideal.exp (x (ix2 m b))) (Fin.ext ?_)
  show (32 * (n / 32) + j.val) * 512 + p.val = n / 32 * 16384 + (j.val * 512 + p.val)
  omega

/-- The half's sum depends on the half through its number only. -/
theorem expHalf_congr (x : (⟨2, ![32768, 3000]⟩ : Shape).Idx → EReal) (h h' : Fin 2) (hv : h.val = h'.val)
    (b : Fin 3000) : expHalf x h b = expHalf x h' b := by
  rw [Fin.ext hv]

section
variable (V : (c : Dev nD) → (b : Ref sig .tc) → Buf (Elt Ideal) ((c : Thread nD τ).loc b))

/-- The logits' tile at step t is rows 512·t … of the logits. -/
theorem iblk0S_apply (c : Dev nD) (t : Fin cfg0.N) (p : Fin 512) (q : Fin 3000) :
    iblk0 V c 0 t (ix2 p q) = V c main_arg0 (ix2 (tileRow t.val (t0S_lt t) p) q) := by
  unfold iblk0
  rw [View.read_apply]
  show V c main_arg0 _ = V c main_arg0 _
  refine congrArg (V c main_arg0 : S32768x3000.Idx → EReal) ?_
  funext a
  apply Fin.ext
  obtain ⟨e0, e1, -⟩ := idx_facts0S t
  match a with
  | ⟨0, _⟩ => show win0_0.index t (0 : Fin 2) * 512 + 1 * p.val = t.val * 512 + p.val; rw [e0]; omega
  | ⟨1, _⟩ => show win0_0.index t (1 : Fin 2) * 3000 + 1 * q.val = q.val; rw [e1]; omega

/-- The accumulation step at step t on an accumulator acc: acc plus tile t's column sums. -/
theorem step0S (c : Dev nD) (t : Fin cfg0.N) (acc : FVec Ideal S1x3000 .f32) (b : Fin 3000) :
    k0_pay4 (F := Ideal) (iblk0 V c 0 t) acc (ix2 0 b) = acc (ix2 0 b) + expTile (V c main_arg0) t.val b := by
  refine (pay0_acc (iblk0 V c 0 t) acc b).trans ?_
  unfold expTile
  rw [dif_pos (t0S_lt t)]
  exact congrArg (acc (ix2 0 b) + ·)
    (Finset.sum_congr rfl fun p _ => congrArg Ideal.exp (iblk0S_apply V c t p b))

/-- After the first step of a half: zero plus the tile's column sums. -/
theorem acc0S_A (c : Dev nD) (t : Fin cfg0.N) (h0 : t.val % 32 = 0) (b : Fin 3000) :
    (outsAt0 V c t.val t.isLt).2.2 (ix2 0 b) = 0 + expTile (V c main_arg0) t.val b := by
  have h1 : ¬t.val % 32 = 31 := by omega
  rw [outsAt0_A V c t h0 h1]
  dsimp only
  rw [sout0_A_0_eq c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)]
  refine (step0S V c t k0_pay1 b).trans ?_
  rw [pay0_zero b]

/-- After any later step: what the step before left plus the tile's column sums. -/
theorem acc0S_BC (c : Dev nD) (t : Fin cfg0.N) (h0 : ¬t.val % 32 = 0) (b : Fin 3000) :
    (outsAt0 V c t.val t.isLt).2.2 (ix2 0 b)
      = (outsAt0 V c (t.val - 1) (Nat.lt_of_le_of_lt (Nat.sub_le _ _) t.isLt)).2.2 (ix2 0 b) + expTile (V c main_arg0) t.val b := by
  by_cases h1 : t.val % 32 = 31
  · rw [outsAt0_C V c t h0 h1]
    dsimp only
    rw [sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2]
    exact step0S V c t _ b
  · rw [outsAt0_B V c t h0 h1]
    dsimp only
    rw [sout0_B_0_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2]
    exact step0S V c t _ b

/-- After step n the accumulator holds the column sums of its half's tiles so far. -/
theorem acc0S_sum (c : Dev nD) (b : Fin 3000) (n : ℕ) (hn : n < cfg0.N) :
    (outsAt0 V c n hn).2.2 (ix2 0 b) = ∑ k ∈ Finset.Ico (n - n % 32) (n + 1), expTile (V c main_arg0) k b :=
  acc_closed (fun n hn => (outsAt0 V c n hn).2.2 (ix2 0 b)) (fun k => expTile (V c main_arg0) k b)
    (fun n hn h0 => acc0S_A V c ⟨n, hn⟩ h0 b)
    (fun n hn h0 => acc0S_BC V c ⟨n + 1, hn⟩ h0 b) n hn

/-- After the last step of half h the accumulator holds the half's column sums. -/
theorem acc0S_half (c : Dev nD) (t : Fin cfg0.N) (h1 : t.val % 32 = 31) (b : Fin 3000) :
    (outsAt0 V c t.val t.isLt).2.2 (ix2 0 b)
      = expHalf (V c main_arg0) ⟨t.val / 32, by have := t0S_lt t; omega⟩ b := by
  rw [acc0S_sum V c b t.val t.isLt]
  exact expTiles_run (V c main_arg0) t.val (t0S_lt t) h1 b

/-- What the last step of a half leaves in the output block: the half's column sums in each of the eight rows. -/
theorem out0S_half (c : Dev nD) (t : Fin cfg0.N) (h1 : t.val % 32 = 31) (k : Fin 8) (b : Fin 3000) :
    (outsAt0 V c t.val t.isLt).2.1 (ix2 k b)
      = expHalf (V c main_arg0) ⟨t.val / 32, by have := t0S_lt t; omega⟩ b := by
  have h0 : ¬t.val % 32 = 0 := by omega
  have hacc := acc0S_half V c t h1 b
  rw [outsAt0_C V c t h0 h1] at hacc ⊢
  dsimp only at hacc ⊢
  rw [sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2] at hacc
  rw [out0_C_2_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2]
  exact (pay0_out _ k b).trans hacc

/-- The array of half sums: row i₀ belongs to half i₀ / 8. -/
def G0S (x : S32768x3000.Idx → EReal) : S16x3000.Idx → EReal :=
  fun i => expHalf x ⟨(i 0).val / 8, by have := idx2_lt0 i; omega⟩ ⟨(i 1).val, idx2_lt1 i⟩

/-- The array of half sums at row m and column q. -/
theorem G0S_apply (x : S32768x3000.Idx → EReal) (m : Fin 16) (q : Fin 3000) :
    G0S x (ix2 m q) = expHalf x ⟨m.val / 8, by omega⟩ q := rfl

/-- The output block at step t, embedded in the array: rows 8·(t/32) …. -/
theorem emb0S_2 (t : Fin cfg0.N) (k : Fin 8) (q : Fin 3000) :
    ((cfg0.win 2).blk t).view.emb (ix2 k q)
      = (ix2 (⟨t.val / 32 * 8 + k.val, by have := t0S_lt t; omega⟩ : Fin 16) q : S16x3000.Idx) := by
  funext a
  apply Fin.ext
  obtain ⟨-, -, e4, e5⟩ := idx_facts0S t
  match a with
  | ⟨0, _⟩ => show win0_2.index t (0 : Fin 2) * 8 + 1 * k.val = t.val / 32 * 8 + k.val; rw [e4]; omega
  | ⟨1, _⟩ => show win0_2.index t (1 : Fin 2) * 3000 + 1 * q.val = q.val; rw [e5]; omega

/-- What a writing-back step writes back is its block of the array of half sums. -/
theorem flushed0S_eq (c : Dev nD) (t : Fin cfg0.N) (hf : (cfg0.win 2).flush t = true) :
    (dat0 V c).flushed 2 t = ((cfg0.win 2).blk t).view.read (Elt Ideal) (G0S (V c main_arg0)) := by
  have h1 : t.val % 32 = 31 := (flush0_2 t).mp hf
  show (cfg0.win 2).cut (grid0.coords t) ((dat0 V c).after 2 t) = _
  rw [after0_2]
  funext j
  obtain ⟨k, q, rfl⟩ : ∃ (k : Fin 8) (q : Fin 3000), j = ix2 k q := ⟨j 0, j 1, eq_ix2 j⟩
  rw [View.read_apply, emb0S_2 t k q]
  have hk : k.val < 8 := k.isLt
  have ht : t.val < 64 := t0S_lt t
  have hv : t.val / 32 = (t.val / 32 * 8 + k.val) / 8 := by omega
  exact ((out0S_half V c t h1 k q).trans
    (expHalf_congr (V c main_arg0) ⟨t.val / 32, by omega⟩ ⟨(t.val / 32 * 8 + k.val) / 8, by omega⟩ hv q)).trans
    (G0S_apply (V c main_arg0) ⟨t.val / 32 * 8 + k.val, by omega⟩ q).symm

/-- An index of the array is in step t's block iff each coordinate is in the block's range on its axis. -/
theorem mem_blk0S (t : Fin cfg0.N) (i : S16x3000.Idx) :
    i ∈ ((cfg0.win 2).blk t).view.set ↔ ∀ a : Fin 2, win0_2.index t a * S8x3000.size a ≤ (i a).val ∧ (i a).val < win0_2.index t a * S8x3000.size a + S8x3000.size a := by
  show i ∈ ((View.whole main_v0_1).slice (win0_2.rect t)).set ↔ _
  rw [View.set_slice_whole, Rect.mem_set_unit]
  exact Iff.rfl

/-- Every entry of the array is in the block of the last step of its half. -/
theorem cover0S (i : S16x3000.Idx) :
    ∃ t : Fin cfg0.N, (cfg0.win 2).flush t = true ∧ i ∈ ((cfg0.win 2).blk t).view.set := by
  have hi0 : (i 0).val < 16 := idx2_lt0 i
  have hi1 : (i 1).val < 3000 := idx2_lt1 i
  have hN : cfg0.N = 64 := N_0
  let t : Fin cfg0.N := ⟨32 * ((i 0).val / 8) + 31, by rw [hN]; omega⟩
  have ht : t.val = 32 * ((i 0).val / 8) + 31 := rfl
  refine ⟨t, (flush0_2 t).mpr (by rw [ht]; omega), ?_⟩
  rw [mem_blk0S]
  obtain ⟨-, -, e4, e5⟩ := idx_facts0S t
  intro a
  match a with
  | ⟨0, _⟩ => show win0_2.index t (0 : Fin 2) * 8 ≤ (i 0).val ∧ (i 0).val < win0_2.index t (0 : Fin 2) * 8 + 8; rw [e4, ht]; omega
  | ⟨1, _⟩ => show win0_2.index t (1 : Fin 2) * 3000 ≤ (i 1).val ∧ (i 1).val < win0_2.index t (1 : Fin 2) * 3000 + 3000; rw [e5]; omega

/-- The array after the call. -/
theorem final0S (c : Dev nD) : (dat0 V c).arrAt 2 cfg0.N = G0S (V c main_arg0) :=
  (dat0 V c).arrAt_eq_of_cover 2 (G0S (V c main_arg0)) (fun t hf => flushed0S_eq V c t hf) cover0S

/-- The array after the call, entry by entry: row 8·h + k, column b holds the column sum of exp of the logits over
    the rows of half h. -/
theorem arr0_S (c : Dev nD) (h : Fin 2) (k : Fin 8) (b : Fin 3000) :
    (dat0 V c).arrAt 2 cfg0.N (ix2 (⟨8 * h.val + k.val, by omega⟩ : Fin 16) b)
      = Cert.Sinkhorn.colHalf (fun n b => V c main_arg0 (ix2 n b)) h b := by
  have hk : k.val < 8 := k.isLt
  have hh : h.val < 2 := h.isLt
  have hv : (8 * h.val + k.val) / 8 = h.val := by omega
  rw [final0S V c]
  exact (G0S_apply (V c main_arg0) ⟨8 * h.val + k.val, by omega⟩ b).trans
    ((expHalf_congr (V c main_arg0) ⟨(8 * h.val + k.val) / 8, by omega⟩ h hv b).trans rfl)

end

end Cert.KVal

end
-- ==== Proof.KVal1Pieces.lean ====
/-
  The fused pass's three kinds of grid step, read as values. What each kind of step leaves in the accumulator is the
  kernel's accumulation step of the tile of E and the column weights it loaded, applied to zero (first step of a half)
  or to what the step before left (later steps); the last step of a half leaves, in the half's output block, the new
  accumulator's row repeated eight times.
-/
import proofs.«131687_j32452772888869_2_alg».proof.Proof.KIR1
import Idealize.ShloMosaic.Lib.Pipeline.Value
import Idealize.ShloMosaic.Lib.Tactic

set_option maxRecDepth 16384

noncomputable section

namespace Cert.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame

variable {F : FTy → Type} [FloatOps F]

/-- The zero offsets of a rank-2 rectangle, as the constant function. -/
private theorem hz : (![0, 0] : Fin 2 → Nat) = fun _ => 0 := funext fun a => by fin_cases a <;> rfl

/-- First step of a half: the accumulator ends at the accumulation step applied to zero. -/
theorem sout1_A_0_eq (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond1_0 i) (hc1 : ¬cond1_1 i) (x0 : Vec F S512x3000 .bf16) (x1 : Vec F S1x3000 .f32) :
    sout1_A_0 c i arg2 harg2 arg3 harg3 arg4 harg4 arg5 harg5 hc0 hc1 x0 x1 = k1_pay2 x0 x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  rw [View.canon_cons_unit_zero (S := S1x3000) hz, View.readCov_unit_zero (S := S1x3000) _ hz]
  simp only [View.readAt_eq_ld, harg2.read_unread, harg3.read_unread, View.ld_unit_zero (S := S512x3000) hz,
    View.ld_unit_zero (S := S1x3000) hz]

/-- A middle step: the accumulator ends at the accumulation step applied to what it held. -/
theorem sout1_B_0_eq (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : ¬cond1_1 i) (x0 : Vec F S512x3000 .bf16) (x1 : Vec F S1x3000 .f32) (xs0 : Vec F S1x3000 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero hz]
  simp only [View.readAt_eq_ld, harg2.read_unread, harg3.read_unread, harg5.read_unread, View.ld_unit_zero (S := S512x3000) hz,
    View.ld_unit_zero (S := S1x3000) hz]

/-- Last step of a half: the accumulator likewise. -/
theorem sout1_C_0_eq (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero hz]
  simp only [View.readAt_eq_ld, harg2.read_unread, harg3.read_unread, harg5.read_unread, View.ld_unit_zero (S := S512x3000) hz,
    View.ld_unit_zero (S := S1x3000) hz]

/-- Last step of a half: the output block ends at the new accumulator's row, repeated. -/
theorem out1_C_2_eq (c : Dev nD) (i : grid1.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond1_0 i) (hc1 : cond1_1 i) (x0 : Vec F S512x3000 .bf16) (x1 : Vec F S1x3000 .f32) (xs0 : Vec F S1x3000 .f32) :
    out1_C_2 c i arg2 harg2 arg3 harg3 arg4 harg4 arg5 harg5 hc0 hc1 x0 x1 xs0 = k1_pay3 (k1_pay2 x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero hz, View.readCov_unit_zero (S := S1x3000) _ hz]
  simp only [View.readAt_eq_ld, harg2.read_unread, harg3.read_unread, harg5.read_unread, View.ld_unit_zero (S := S512x3000) hz,
    View.ld_unit_zero (S := S1x3000) hz]

end Cert.KVal

end
-- ==== Proof.KValPay1.lean ====
/-
  The second kernel's arithmetic read at an index, on the extended reals: the accumulator starts at zero; a grid step
  computes for each of the block's 512 rows the row weight, the reciprocal of 3000 times the sum over the columns
  of the entry times the column weight, and adds to the accumulator at column `b` the sum over the rows of the
  entry times its row weight; the last step copies the accumulator's one row into each of eight rows.
-/
import proofs.«131687_j32452772888869_2_alg».proof.Proof.Gen.KernelIdeal.Skeleton
import proofs.«131687_j32452772888869_2_alg».proof.Proof.Spec
import proofs.«131687_j32452772888869_2_alg».proof.Proof.KValLib
import Idealize.ShloMosaic.Lib.ValueIdx
import Idealize.ShloMosaic.Lib.ValueLayout
import Idealize.ShloMosaic.Lib.Pipeline.Value
import Idealize.ShloMosaic.PureOps.Ideal.Laws

noncomputable section

namespace Cert.KVal

open Idealize.ShloMosaic Idealize.ShloMosaic.ValueIdx
open Cert.KernelIdeal Cert.KernelIdeal.Gen
open Cert.Sinkhorn (c1 c3000 c32768)

/-- The accumulator's first value is zero at every column. -/
theorem pay1_zero (b : Fin 3000) : (k1_pay1 (F := Ideal)) (ix2 0 b) = 0 := by
  unfold k1_pay1
  rw [shapeCast_self]
  exact Ideal.ofBits_zero_f32

/-- A grid step adds, at column `b`, the sum over the block's rows of the entry times the row's weight. -/
theorem pay1_acc (e : FVec Ideal S512x3000 .bf16) (r acc : FVec Ideal S1x3000 .f32) (b : Fin 3000) :
    k1_pay2 (F := Ideal) e r acc (ix2 0 b)
      = acc (ix2 0 b) + ∑ p : Fin 512, e (ix2 p b) * Ideal.div c1 (c3000 * ∑ q : Fin 3000, e (ix2 p q) * r (ix2 0 q)) := by
  unfold k1_pay2
  rw [shapeCast_self, addf_apply, shapeCast_a_1a_apply]
  refine congrArg (acc (ix2 0 b) + ·) ?_
  refine (sum_down _ _ _ _ b).trans ?_
  refine Finset.sum_congr rfl fun p _ => ?_
  rw [mulf_apply]
  refine congrArg₂ (· * ·) ?_ ?_
  · rw [extf_apply, shapeCast_self]
  · rw [Cert.Columns.broadcastTo_a1_ab_apply, divf_apply, broadcast_apply, mulf_apply, broadcast_apply,
      Cert.Columns.shapeCast_a_a1_apply]
    refine congrArg (fun z => Ideal.div c1 (c3000 * z)) ?_
    refine (sum_along _ _ _ _ p).trans ?_
    refine Finset.sum_congr rfl fun q _ => ?_
    rw [mulf_apply, extf_apply, shapeCast_self, broadcastTo_1b_ab_apply, shapeCast_self]

/-- The last step copies the accumulator's row into each of the eight rows. -/
theorem pay1_out (acc : FVec Ideal S1x3000 .f32) (k : Fin 8) (b : Fin 3000) :
    k1_pay3 (F := Ideal) acc (ix2 k b) = acc (ix2 0 b) := by
  unfold k1_pay3
  rw [shapeCast_self]
  exact broadcastTo_1b_ab_apply acc _ k b

end Cert.KVal

end
-- ==== Proof.KVal1Acc.lean ====
/-
  The fused pass's accumulator, point by point. Point t = 32·h + j loads tile t of E (rows 512·t … 512·t+511) and the
  column weights whole; the first point of a half leaves zero plus the tile's contribution in the accumulator, every
  later point what the accumulator held plus the tile's contribution. So after the last point of half h the
  accumulator holds the half's sum: at column b, the sum over the half's 16384 rows of the entry times the row's weight.
-/
import proofs.«131687_j32452772888869_2_alg».proof.Proof.KVal1Pieces
import proofs.«131687_j32452772888869_2_alg».proof.Proof.KValPay1
import proofs.«131687_j32452772888869_2_alg».proof.Proof.KValFused
import Idealize.ShloMosaic.Lib.Pipeline.Value
import Idealize.ShloMosaic.Lib.Tactic
import Idealize.ShloMosaic.Lib.ValueIdx

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame
open Cert.Sinkhorn (c1 c3000)

/-- The index maps over the grid: E's tile at point t is tile t, the column weights' block is the one block, the
    output block is the half's. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val / 32 ∧ win1_2.index t (1 : Fin 2) = 0 :=
  (by decide +kernel : ∀ t : Fin grid1.N, _)

theorem t1_lt (t : Fin cfg1.N) : t.val < 64 := lt_of_lt_of_eq t.isLt (show cfg1.N = 64 from N_1)

section
variable (V : (c : Dev nD) → (b : Ref sig .tc) → Buf (Elt Ideal) ((c : Thread nD τ).loc b))

/-- E's tile at point t is rows 512·t … of E. -/
theorem iblk1_0_apply (c : Dev nD) (t : Fin cfg1.N) (p : Fin 512) (q : Fin 3000) :
    iblk1 V c 0 t (ix2 p q) = V c main_v0_0 (ix2 (tileRow t.val (t1_lt t) p) q) := by
  unfold iblk1
  rw [View.read_apply]
  show V c main_v0_0 _ = V c main_v0_0 _
  refine congrArg (V c main_v0_0 : S32768x3000.Idx → EReal) ?_
  funext a
  apply Fin.ext
  obtain ⟨e0, e1, -⟩ := idx_facts1 t
  match a with
  | ⟨0, _⟩ => show win1_0.index t (0 : Fin 2) * 512 + 1 * p.val = t.val * 512 + p.val; rw [e0]; omega
  | ⟨1, _⟩ => show win1_0.index t (1 : Fin 2) * 3000 + 1 * q.val = q.val; rw [e1]; omega

/-- The column weights' block at every point is the whole array. -/
theorem iblk1_1_apply (c : Dev nD) (t : Fin cfg1.N) (q : Fin 3000) :
    iblk1 V c 1 t (ix2 0 q) = V c main_v7 (ix2 0 q) := by
  unfold iblk1
  rw [View.read_apply]
  show V c main_v7 _ = V c main_v7 _
  refine congrArg (V c main_v7 : S1x3000.Idx → EReal) ?_
  funext a
  apply Fin.ext
  obtain ⟨-, -, e2, e3, -⟩ := idx_facts1 t
  match a with
  | ⟨0, _⟩ => show win1_1.index t (0 : Fin 2) * 1 + 1 * 0 = 0; rw [e2]
  | ⟨1, _⟩ => show win1_1.index t (1 : Fin 2) * 3000 + 1 * q.val = q.val; rw [e3]; omega

/-- The accumulation step at point t on an accumulator acc: acc plus tile t's contribution. -/
theorem step1 (c : Dev nD) (t : Fin cfg1.N) (acc : FVec Ideal S1x3000 .f32) (b : Fin 3000) :
    k1_pay2 (F := Ideal) (iblk1 V c 0 t) (iblk1 V c 1 t) acc (ix2 0 b)
      = acc (ix2 0 b) + tileTerm (V c main_v0_0) (V c main_v7) t.val b := by
  refine (pay1_acc (iblk1 V c 0 t) (iblk1 V c 1 t) acc b).trans ?_
  unfold tileTerm
  rw [dif_pos (t1_lt t)]
  simp only [iblk1_0_apply V c t, iblk1_1_apply V c t]
  rfl

/-- After the first point of a half: zero plus the tile's contribution. -/
theorem acc1_A (c : Dev nD) (t : Fin cfg1.N) (h0 : t.val % 32 = 0) (b : Fin 3000) :
    (outsAt1 V c t.val t.isLt).2 (ix2 0 b) = 0 + tileTerm (V c main_v0_0) (V c main_v7) t.val b := by
  have h1 : ¬t.val % 32 = 31 := by omega
  rw [outsAt1_A V c t h0 h1]
  dsimp only
  rw [sout1_A_0_eq c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)]
  refine (step1 V c t k1_pay1 b).trans ?_
  rw [pay1_zero b]

/-- After any later point: what the point before left plus the tile's contribution. -/
theorem acc1_BC (c : Dev nD) (t : Fin cfg1.N) (h0 : ¬t.val % 32 = 0) (b : Fin 3000) :
    (outsAt1 V c t.val t.isLt).2 (ix2 0 b)
      = (outsAt1 V c (t.val - 1) (Nat.lt_of_le_of_lt (Nat.sub_le _ _) t.isLt)).2 (ix2 0 b) + tileTerm (V c main_v0_0) (V c main_v7) t.val b := by
  by_cases h1 : t.val % 32 = 31
  · rw [outsAt1_C V c t h0 h1]
    dsimp only
    rw [sout1_C_0_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2]
    exact step1 V c t _ b
  · rw [outsAt1_B V c t h0 h1]
    dsimp only
    rw [sout1_B_0_eq c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2]
    exact step1 V c t _ b

/-- After point n the accumulator holds the sum of the contributions of its half's tiles so far. -/
theorem acc1_sum (c : Dev nD) (b : Fin 3000) (n : ℕ) (hn : n < cfg1.N) :
    (outsAt1 V c n hn).2 (ix2 0 b)
      = ∑ k ∈ Finset.Ico (n - n % 32) (n + 1), tileTerm (V c main_v0_0) (V c main_v7) k b :=
  acc_closed (fun n hn => (outsAt1 V c n hn).2 (ix2 0 b)) (fun k => tileTerm (V c main_v0_0) (V c main_v7) k b)
    (fun n hn h0 => acc1_A V c ⟨n, hn⟩ h0 b)
    (fun n hn h0 => acc1_BC V c ⟨n + 1, hn⟩ h0 b) n hn

/-- After the last point of half h the accumulator holds the half's sum. -/
theorem acc1_half (c : Dev nD) (t : Fin cfg1.N) (h1 : t.val % 32 = 31) (b : Fin 3000) :
    (outsAt1 V c t.val t.isLt).2 (ix2 0 b)
      = halfSum (V c main_v0_0) (V c main_v7) ⟨t.val / 32, by have := t1_lt t; omega⟩ b := by
  rw [acc1_sum V c b t.val t.isLt]
  exact run_tiles (V c main_v0_0) (V c main_v7) t.val (t1_lt t) h1 b

/-- What the last point of a half leaves in the output block: the half's sum in each of the eight rows. -/
theorem out1_half (c : Dev nD) (t : Fin cfg1.N) (h1 : t.val % 32 = 31) (k : Fin 8) (b : Fin 3000) :
    (outsAt1 V c t.val t.isLt).1 (ix2 k b)
      = halfSum (V c main_v0_0) (V c main_v7) ⟨t.val / 32, by have := t1_lt t; omega⟩ b := by
  have h0 : ¬t.val % 32 = 0 := by omega
  have hacc := acc1_half V c t h1 b
  rw [outsAt1_C V c t h0 h1] at hacc ⊢
  dsimp only at hacc ⊢
  rw [sout1_C_0_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2] at hacc
  rw [out1_C_2_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2]
  exact (pay1_out _ k b).trans hacc

end

end Cert.KVal

end
-- ==== Proof.KValHalf.lean ====
/-
  A half's sum, once the entries are known to be E = exp(logits) and the column weights a given vector, is the
  specification's weighted half sum.
-/
import proofs.«131687_j32452772888869_2_alg».proof.Proof.KValFused

noncomputable section

namespace Cert.KVal

open Idealize.ShloMosaic Idealize.ShloMosaic.ValueIdx
open Cert.Sinkhorn (c1 c3000)
open scoped BigOperators

/-- The half's sum with the entries and the column weights renamed. -/
theorem halfSum_eq (e : (⟨2, ![32768, 3000]⟩ : Shape).Idx → EReal) (r : (⟨2, ![1, 3000]⟩ : Shape).Idx → EReal)
    (E' : Fin 32768 → Fin 3000 → EReal) (r' : Fin 3000 → EReal)
    (he : ∀ n b, e (ix2 n b) = E' n b) (hr : ∀ q, r (ix2 0 q) = r' q) (h : Fin 2) (b : Fin 3000) :
    halfSum e r h b
      = ∑ n : Fin 16384, E' (Cert.Sinkhorn.row h n) b
          * Ideal.div c1 (c3000 * ∑ q : Fin 3000, E' (Cert.Sinkhorn.row h n) q * r' q) := by
  unfold halfSum wterm
  simp only [he, hr]

/-- The half's sum depends on the half through its number only. -/
theorem halfSum_congr (e : (⟨2, ![32768, 3000]⟩ : Shape).Idx → EReal) (r : (⟨2, ![1, 3000]⟩ : Shape).Idx → EReal)
    (h h' : Fin 2) (hv : h.val = h'.val) (b : Fin 3000) : halfSum e r h b = halfSum e r h' b := by
  rw [Fin.ext hv]

/-- With E = exp(logits) and column weights rr it is the specification's weighted half sum. -/
theorem halfSum_wHalf (x : Fin 32768 → Fin 3000 → EReal) (rr : Fin 3000 → EReal)
    (e : (⟨2, ![32768, 3000]⟩ : Shape).Idx → EReal) (r : (⟨2, ![1, 3000]⟩ : Shape).Idx → EReal)
    (he : ∀ n b, e (ix2 n b) = Cert.Sinkhorn.E x n b) (hr : ∀ q, r (ix2 0 q) = rr q) (h : Fin 2) (b : Fin 3000) :
    halfSum e r h b = Cert.Sinkhorn.wHalf x rr h b :=
  halfSum_eq e r (Cert.Sinkhorn.E x) rr he hr h b

end Cert.KVal

end
-- ==== Proof.KVal1Arr.lean ====
/-
  The fused pass's output array. The half's output block (eight rows) is written back at the last point of the half
  only, holding the half's sum in each row; the two blocks cover the 16 rows, so the array ends holding, in row 8·h+k
  and column b, half h's sum at column b.
-/
import proofs.«131687_j32452772888869_2_alg».proof.Proof.KVal1Acc
import proofs.«131687_j32452772888869_2_alg».proof.Proof.KValHalf
import proofs.«131687_j32452772888869_2_alg».proof.Proof.KValRd

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame
open Cert.Sinkhorn (c1 c3000)

section
variable (V : (c : Dev nD) → (b : Ref sig .tc) → Buf (Elt Ideal) ((c : Thread nD τ).loc b))

/-- The array of half sums: row i₀ belongs to half i₀ / 8. -/
def G1 (e : S32768x3000.Idx → EReal) (r : S1x3000.Idx → EReal) : S16x3000.Idx → EReal :=
  fun i => halfSum e r ⟨(i 0).val / 8, by have := idx2_lt0 i; omega⟩ ⟨(i 1).val, idx2_lt1 i⟩

/-- The array of half sums at row m and column q. -/
theorem G1_apply (e : S32768x3000.Idx → EReal) (r : S1x3000.Idx → EReal) (m : Fin 16) (q : Fin 3000) :
    G1 e r (ix2 m q) = halfSum e r ⟨m.val / 8, by omega⟩ q := rfl

/-- The output block at point t, embedded in the array: rows 8·(t/32) …. -/
theorem emb1_2 (t : Fin cfg1.N) (k : Fin 8) (q : Fin 3000) :
    ((cfg1.win 2).blk t).view.emb (ix2 k q)
      = (ix2 (⟨t.val / 32 * 8 + k.val, by have := t1_lt t; omega⟩ : Fin 16) q : S16x3000.Idx) := by
  funext a
  apply Fin.ext
  obtain ⟨-, -, -, -, e4, e5⟩ := idx_facts1 t
  match a with
  | ⟨0, _⟩ => show win1_2.index t (0 : Fin 2) * 8 + 1 * k.val = t.val / 32 * 8 + k.val; rw [e4]; omega
  | ⟨1, _⟩ => show win1_2.index t (1 : Fin 2) * 3000 + 1 * q.val = q.val; rw [e5]; omega

/-- What a writing-back point writes back is its block of the array of half sums. -/
theorem flushed1_eq (c : Dev nD) (t : Fin cfg1.N) (hf : (cfg1.win 2).flush t = true) :
    (dat1 V c).flushed 2 t
      = ((cfg1.win 2).blk t).view.read (Elt Ideal) (G1 (V c main_v0_0) (V c main_v7)) := by
  have h1 : t.val % 32 = 31 := (flush1_2 t).mp hf
  show (cfg1.win 2).cut (grid1.coords t) ((dat1 V c).after 2 t) = _
  rw [after1_2]
  funext j
  obtain ⟨k, q, rfl⟩ : ∃ (k : Fin 8) (q : Fin 3000), j = ix2 k q := ⟨j 0, j 1, eq_ix2 j⟩
  rw [View.read_apply, emb1_2 t k q]
  have hk : k.val < 8 := k.isLt
  have ht : t.val < 64 := t1_lt t
  have hv : t.val / 32 = (t.val / 32 * 8 + k.val) / 8 := by omega
  exact ((out1_half V c t h1 k q).trans
    (halfSum_congr (V c main_v0_0) (V c main_v7) ⟨t.val / 32, by omega⟩ ⟨(t.val / 32 * 8 + k.val) / 8, by omega⟩ hv q)).trans
    (G1_apply (V c main_v0_0) (V c main_v7) ⟨t.val / 32 * 8 + k.val, by omega⟩ q).symm

/-- An index of the array is in point t's block iff each coordinate is in the block's range on its axis. -/
theorem mem_blk1 (t : Fin cfg1.N) (i : S16x3000.Idx) :
    i ∈ ((cfg1.win 2).blk t).view.set ↔ ∀ a : Fin 2, win1_2.index t a * S8x3000.size a ≤ (i a).val ∧ (i a).val < win1_2.index t a * S8x3000.size a + S8x3000.size a := by
  show i ∈ ((View.whole main_v8).slice (win1_2.rect t)).set ↔ _
  rw [View.set_slice_whole, Rect.mem_set_unit]
  exact Iff.rfl

/-- Every entry of the array is in the block of the last point of its half. -/
theorem cover1 (i : S16x3000.Idx) :
    ∃ t : Fin cfg1.N, (cfg1.win 2).flush t = true ∧ i ∈ ((cfg1.win 2).blk t).view.set := by
  have hi0 : (i 0).val < 16 := idx2_lt0 i
  have hi1 : (i 1).val < 3000 := idx2_lt1 i
  have hN : cfg1.N = 64 := N_1
  let t : Fin cfg1.N := ⟨32 * ((i 0).val / 8) + 31, by rw [hN]; omega⟩
  have ht : t.val = 32 * ((i 0).val / 8) + 31 := rfl
  refine ⟨t, (flush1_2 t).mpr (by rw [ht]; omega), ?_⟩
  rw [mem_blk1]
  obtain ⟨-, -, -, -, e4, e5⟩ := idx_facts1 t
  intro a
  match a with
  | ⟨0, _⟩ => show win1_2.index t (0 : Fin 2) * 8 ≤ (i 0).val ∧ (i 0).val < win1_2.index t (0 : Fin 2) * 8 + 8; rw [e4, ht]; omega
  | ⟨1, _⟩ => show win1_2.index t (1 : Fin 2) * 3000 ≤ (i 1).val ∧ (i 1).val < win1_2.index t (1 : Fin 2) * 3000 + 3000; rw [e5]; omega

/-- The array after the pass. -/
theorem final1 (c : Dev nD) : (dat1 V c).arrAt 2 cfg1.N = G1 (V c main_v0_0) (V c main_v7) :=
  (dat1 V c).arrAt_eq_of_cover 2 (G1 (V c main_v0_0) (V c main_v7)) (fun t hf => flushed1_eq V c t hf) cover1

/-- The array after the pass, entry by entry: row 8·h+k, column b holds half h's sum at column b, the sum over the
    half's rows of the entry of E times the row's weight. -/
theorem arr1_S (c : Dev nD) (h : Fin 2) (k : Fin 8) (b : Fin 3000) :
    (dat1 V c).arrAt 2 cfg1.N (ix2 (⟨8 * h.val + k.val, by omega⟩ : Fin 16) b)
      = ∑ n : Fin 16384, eIn V c (Cert.Sinkhorn.row h n) b
          * Ideal.div c1 (c3000 * ∑ q : Fin 3000, eIn V c (Cert.Sinkhorn.row h n) q * rIn7 V c q) := by
  have hk : k.val < 8 := k.isLt
  have hh : h.val < 2 := h.isLt
  have hv : (8 * h.val + k.val) / 8 = h.val := by omega
  rw [final1 V c]
  exact (G1_apply (V c main_v0_0) (V c main_v7) ⟨8 * h.val + k.val, by omega⟩ b).trans
    ((halfSum_congr (V c main_v0_0) (V c main_v7) ⟨(8 * h.val + k.val) / 8, by omega⟩ h hv b).trans
      (halfSum_eq (V c main_v0_0) (V c main_v7) (eIn V c) (rIn7 V c) (fun _ _ => rfl) (fun _ => rfl) h b))

end

end Cert.KVal

end
-- ==== Proof.KVal2Pieces.lean ====
/-
  The fused pass's three kinds of grid step, read as values. What each kind of step leaves in the accumulator is the
  kernel's accumulation step of the tile of E and the column weights it loaded, applied to zero (first step of a half)
  or to what the step before left (later steps); the last step of a half leaves, in the half's output block, the new
  accumulator's row repeated eight times.
-/
import proofs.«131687_j32452772888869_2_alg».proof.Proof.KIR2
import Idealize.ShloMosaic.Lib.Pipeline.Value
import Idealize.ShloMosaic.Lib.Tactic

set_option maxRecDepth 16384

noncomputable section

namespace Cert.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame

variable {F : FTy → Type} [FloatOps F]

/-- The zero offsets of a rank-2 rectangle, as the constant function. -/
private theorem hz : (![0, 0] : Fin 2 → Nat) = fun _ => 0 := funext fun a => by fin_cases a <;> rfl

/-- First step of a half: the accumulator ends at the accumulation step applied to zero. -/
theorem sout2_A_0_eq (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : cond2_0 i) (hc1 : ¬cond2_1 i) (x0 : Vec F S512x3000 .bf16) (x1 : Vec F S1x3000 .f32) :
    sout2_A_0 c i arg2 harg2 arg3 harg3 arg4 harg4 arg5 harg5 hc0 hc1 x0 x1 = k2_pay2 x0 x1 k2_pay1 := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_words
  rw [View.canon_cons_unit_zero (S := S1x3000) hz, View.readCov_unit_zero (S := S1x3000) _ hz]
  simp only [View.readAt_eq_ld, harg2.read_unread, harg3.read_unread, View.ld_unit_zero (S := S512x3000) hz,
    View.ld_unit_zero (S := S1x3000) hz]

/-- A middle step: the accumulator ends at the accumulation step applied to what it held. -/
theorem sout2_B_0_eq (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : ¬cond2_1 i) (x0 : Vec F S512x3000 .bf16) (x1 : Vec F S1x3000 .f32) (xs0 : Vec F S1x3000 .f32) :
    sout2_B_0 c i arg2 harg2 arg3 harg3 arg4 harg4 arg5 harg5 hc0 hc1 x0 x1 xs0 = k2_pay2 x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_words
  rw [View.canon_unit_zero hz]
  simp only [View.readAt_eq_ld, harg2.read_unread, harg3.read_unread, harg5.read_unread, View.ld_unit_zero (S := S512x3000) hz,
    View.ld_unit_zero (S := S1x3000) hz]

/-- Last step of a half: the accumulator likewise. -/
theorem sout2_C_0_eq (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) :
    sout2_C_0 c i arg2 harg2 arg3 harg3 arg4 harg4 arg5 harg5 hc0 hc1 x0 x1 xs0 = k2_pay2 x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  try sl_unfold_words
  rw [View.canon_unit_zero hz]
  simp only [View.readAt_eq_ld, harg2.read_unread, harg3.read_unread, harg5.read_unread, View.ld_unit_zero (S := S512x3000) hz,
    View.ld_unit_zero (S := S1x3000) hz]

/-- Last step of a half: the output block ends at the new accumulator's row, repeated. -/
theorem out2_C_2_eq (c : Dev nD) (i : grid2.Coords) (arg2 : Memref sig .tc .vmem S512x3000 .bf16) (harg2 : arg2.IsWhole) (arg3 : Memref sig .tc .vmem S1x3000 .f32) (harg3 : arg3.IsWhole) (arg4 : Memref sig .tc .vmem S8x3000 .f32) (harg4 : arg4.IsWhole) (arg5 : Memref sig .tc .vmem S1x3000 .f32) (harg5 : arg5.IsWhole) (hc0 : ¬cond2_0 i) (hc1 : cond2_1 i) (x0 : Vec F S512x3000 .bf16) (x1 : Vec F S1x3000 .f32) (xs0 : Vec F S1x3000 .f32) :
    out2_C_2 c i arg2 harg2 arg3 harg3 arg4 harg4 arg5 harg5 hc0 hc1 x0 x1 xs0 = k2_pay3 (k2_pay2 x0 x1 xs0) := by
  unfold out2_C_2
  rw [View.read_writes_eq_canon _ _ _ (cover2_C_2 c i arg2 harg2 arg3 harg3 arg4 harg4 arg5 harg5 hc0 hc1 x0 x1 xs0)]
  unfold kernelRun2_C
  dsimp only
  try sl_unfold_words
  rw [View.canon_unit_zero hz, View.readCov_unit_zero (S := S1x3000) _ hz]
  simp only [View.readAt_eq_ld, harg2.read_unread, harg3.read_unread, harg5.read_unread, View.ld_unit_zero (S := S512x3000) hz,
    View.ld_unit_zero (S := S1x3000) hz]

end Cert.KVal

end
-- ==== Proof.KValPay2.lean ====
/-
  The third kernel's arithmetic read at an index, on the extended reals: the accumulator starts at zero; a grid step
  computes for each of the block's 512 rows the row weight, the reciprocal of 3000 times the sum over the columns
  of the entry times the column weight, and adds to the accumulator at column `b` the sum over the rows of the
  entry times its row weight; the last step copies the accumulator's one row into each of eight rows.
-/
import proofs.«131687_j32452772888869_2_alg».proof.Proof.Gen.KernelIdeal.Skeleton
import proofs.«131687_j32452772888869_2_alg».proof.Proof.Spec
import proofs.«131687_j32452772888869_2_alg».proof.Proof.KValLib
import Idealize.ShloMosaic.Lib.ValueIdx
import Idealize.ShloMosaic.Lib.ValueLayout
import Idealize.ShloMosaic.Lib.Pipeline.Value
import Idealize.ShloMosaic.PureOps.Ideal.Laws

noncomputable section

namespace Cert.KVal

open Idealize.ShloMosaic Idealize.ShloMosaic.ValueIdx
open Cert.KernelIdeal Cert.KernelIdeal.Gen
open Cert.Sinkhorn (c1 c3000 c32768)

/-- The accumulator's first value is zero at every column. -/
theorem pay2_zero (b : Fin 3000) : (k2_pay1 (F := Ideal)) (ix2 0 b) = 0 := by
  unfold k2_pay1
  rw [shapeCast_self]
  exact Ideal.ofBits_zero_f32

/-- A grid step adds, at column `b`, the sum over the block's rows of the entry times the row's weight. -/
theorem pay2_acc (e : FVec Ideal S512x3000 .bf16) (r acc : FVec Ideal S1x3000 .f32) (b : Fin 3000) :
    k2_pay2 (F := Ideal) e r acc (ix2 0 b)
      = acc (ix2 0 b) + ∑ p : Fin 512, e (ix2 p b) * Ideal.div c1 (c3000 * ∑ q : Fin 3000, e (ix2 p q) * r (ix2 0 q)) := by
  unfold k2_pay2
  rw [shapeCast_self, addf_apply, shapeCast_a_1a_apply]
  refine congrArg (acc (ix2 0 b) + ·) ?_
  refine (sum_down _ _ _ _ b).trans ?_
  refine Finset.sum_congr rfl fun p _ => ?_
  rw [mulf_apply]
  refine congrArg₂ (· * ·) ?_ ?_
  · rw [extf_apply, shapeCast_self]
  · rw [Cert.Columns.broadcastTo_a1_ab_apply, divf_apply, broadcast_apply, mulf_apply, broadcast_apply,
      Cert.Columns.shapeCast_a_a1_apply]
    refine congrArg (fun z => Ideal.div c1 (c3000 * z)) ?_
    refine (sum_along _ _ _ _ p).trans ?_
    refine Finset.sum_congr rfl fun q _ => ?_
    rw [mulf_apply, extf_apply, shapeCast_self, broadcastTo_1b_ab_apply, shapeCast_self]

/-- The last step copies the accumulator's row into each of the eight rows. -/
theorem pay2_out (acc : FVec Ideal S1x3000 .f32) (k : Fin 8) (b : Fin 3000) :
    k2_pay3 (F := Ideal) acc (ix2 k b) = acc (ix2 0 b) := by
  unfold k2_pay3
  rw [shapeCast_self]
  exact broadcastTo_1b_ab_apply acc _ k b

end Cert.KVal

end
-- ==== Proof.KVal2Acc.lean ====
/-
  The fused pass's accumulator, point by point. Point t = 32·h + j loads tile t of E (rows 512·t … 512·t+511) and the
  column weights whole; the first point of a half leaves zero plus the tile's contribution in the accumulator, every
  later point what the accumulator held plus the tile's contribution. So after the last point of half h the
  accumulator holds the half's sum: at column b, the sum over the half's 16384 rows of the entry times the row's weight.
-/
import proofs.«131687_j32452772888869_2_alg».proof.Proof.KVal2Pieces
import proofs.«131687_j32452772888869_2_alg».proof.Proof.KValPay2
import proofs.«131687_j32452772888869_2_alg».proof.Proof.KValFused
import Idealize.ShloMosaic.Lib.Pipeline.Value
import Idealize.ShloMosaic.Lib.Tactic
import Idealize.ShloMosaic.Lib.ValueIdx

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame
open Cert.Sinkhorn (c1 c3000)

/-- The index maps over the grid: E's tile at point t is tile t, the column weights' block is the one block, the
    output block is the half's. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val / 32 ∧ win2_2.index t (1 : Fin 2) = 0 :=
  (by decide +kernel : ∀ t : Fin grid2.N, _)

theorem t2_lt (t : Fin cfg2.N) : t.val < 64 := lt_of_lt_of_eq t.isLt (show cfg2.N = 64 from N_2)

section
variable (V : (c : Dev nD) → (b : Ref sig .tc) → Buf (Elt Ideal) ((c : Thread nD τ).loc b))

/-- E's tile at point t is rows 512·t … of E. -/
theorem iblk2_0_apply (c : Dev nD) (t : Fin cfg2.N) (p : Fin 512) (q : Fin 3000) :
    iblk2 V c 0 t (ix2 p q) = V c main_v0_0 (ix2 (tileRow t.val (t2_lt t) p) q) := by
  unfold iblk2
  rw [View.read_apply]
  show V c main_v0_0 _ = V c main_v0_0 _
  refine congrArg (V c main_v0_0 : S32768x3000.Idx → EReal) ?_
  funext a
  apply Fin.ext
  obtain ⟨e0, e1, -⟩ := idx_facts2 t
  match a with
  | ⟨0, _⟩ => show win2_0.index t (0 : Fin 2) * 512 + 1 * p.val = t.val * 512 + p.val; rw [e0]; omega
  | ⟨1, _⟩ => show win2_0.index t (1 : Fin 2) * 3000 + 1 * q.val = q.val; rw [e1]; omega

/-- The column weights' block at every point is the whole array. -/
theorem iblk2_1_apply (c : Dev nD) (t : Fin cfg2.N) (q : Fin 3000) :
    iblk2 V c 1 t (ix2 0 q) = V c main_v15 (ix2 0 q) := by
  unfold iblk2
  rw [View.read_apply]
  show V c main_v15 _ = V c main_v15 _
  refine congrArg (V c main_v15 : S1x3000.Idx → EReal) ?_
  funext a
  apply Fin.ext
  obtain ⟨-, -, e2, e3, -⟩ := idx_facts2 t
  match a with
  | ⟨0, _⟩ => show win2_1.index t (0 : Fin 2) * 1 + 1 * 0 = 0; rw [e2]
  | ⟨1, _⟩ => show win2_1.index t (1 : Fin 2) * 3000 + 1 * q.val = q.val; rw [e3]; omega

/-- The accumulation step at point t on an accumulator acc: acc plus tile t's contribution. -/
theorem step2 (c : Dev nD) (t : Fin cfg2.N) (acc : FVec Ideal S1x3000 .f32) (b : Fin 3000) :
    k2_pay2 (F := Ideal) (iblk2 V c 0 t) (iblk2 V c 1 t) acc (ix2 0 b)
      = acc (ix2 0 b) + tileTerm (V c main_v0_0) (V c main_v15) t.val b := by
  refine (pay2_acc (iblk2 V c 0 t) (iblk2 V c 1 t) acc b).trans ?_
  unfold tileTerm
  rw [dif_pos (t2_lt t)]
  simp only [iblk2_0_apply V c t, iblk2_1_apply V c t]
  rfl

/-- After the first point of a half: zero plus the tile's contribution. -/
theorem acc2_A (c : Dev nD) (t : Fin cfg2.N) (h0 : t.val % 32 = 0) (b : Fin 3000) :
    (outsAt2 V c t.val t.isLt).2 (ix2 0 b) = 0 + tileTerm (V c main_v0_0) (V c main_v15) t.val b := by
  have h1 : ¬t.val % 32 = 31 := by omega
  rw [outsAt2_A V c t h0 h1]
  dsimp only
  rw [sout2_A_0_eq c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)]
  refine (step2 V c t k2_pay1 b).trans ?_
  rw [pay2_zero b]

/-- After any later point: what the point before left plus the tile's contribution. -/
theorem acc2_BC (c : Dev nD) (t : Fin cfg2.N) (h0 : ¬t.val % 32 = 0) (b : Fin 3000) :
    (outsAt2 V c t.val t.isLt).2 (ix2 0 b)
      = (outsAt2 V c (t.val - 1) (Nat.lt_of_le_of_lt (Nat.sub_le _ _) t.isLt)).2 (ix2 0 b) + tileTerm (V c main_v0_0) (V c main_v15) t.val b := by
  by_cases h1 : t.val % 32 = 31
  · rw [outsAt2_C V c t h0 h1]
    dsimp only
    rw [sout2_C_0_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2]
    exact step2 V c t _ b
  · rw [outsAt2_B V c t h0 h1]
    dsimp only
    rw [sout2_B_0_eq c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2]
    exact step2 V c t _ b

/-- After point n the accumulator holds the sum of the contributions of its half's tiles so far. -/
theorem acc2_sum (c : Dev nD) (b : Fin 3000) (n : ℕ) (hn : n < cfg2.N) :
    (outsAt2 V c n hn).2 (ix2 0 b)
      = ∑ k ∈ Finset.Ico (n - n % 32) (n + 1), tileTerm (V c main_v0_0) (V c main_v15) k b :=
  acc_closed (fun n hn => (outsAt2 V c n hn).2 (ix2 0 b)) (fun k => tileTerm (V c main_v0_0) (V c main_v15) k b)
    (fun n hn h0 => acc2_A V c ⟨n, hn⟩ h0 b)
    (fun n hn h0 => acc2_BC V c ⟨n + 1, hn⟩ h0 b) n hn

/-- After the last point of half h the accumulator holds the half's sum. -/
theorem acc2_half (c : Dev nD) (t : Fin cfg2.N) (h1 : t.val % 32 = 31) (b : Fin 3000) :
    (outsAt2 V c t.val t.isLt).2 (ix2 0 b)
      = halfSum (V c main_v0_0) (V c main_v15) ⟨t.val / 32, by have := t2_lt t; omega⟩ b := by
  rw [acc2_sum V c b t.val t.isLt]
  exact run_tiles (V c main_v0_0) (V c main_v15) t.val (t2_lt t) h1 b

/-- What the last point of a half leaves in the output block: the half's sum in each of the eight rows. -/
theorem out2_half (c : Dev nD) (t : Fin cfg2.N) (h1 : t.val % 32 = 31) (k : Fin 8) (b : Fin 3000) :
    (outsAt2 V c t.val t.isLt).1 (ix2 k b)
      = halfSum (V c main_v0_0) (V c main_v15) ⟨t.val / 32, by have := t2_lt t; omega⟩ b := by
  have h0 : ¬t.val % 32 = 0 := by omega
  have hacc := acc2_half V c t h1 b
  rw [outsAt2_C V c t h0 h1] at hacc ⊢
  dsimp only at hacc ⊢
  rw [sout2_C_0_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2] at hacc
  rw [out2_C_2_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2]
  exact (pay2_out _ k b).trans hacc

end

end Cert.KVal

end
-- ==== Proof.KVal2Arr.lean ====
/-
  The fused pass's output array. The half's output block (eight rows) is written back at the last point of the half
  only, holding the half's sum in each row; the two blocks cover the 16 rows, so the array ends holding, in row 8·h+k
  and column b, half h's sum at column b.
-/
import proofs.«131687_j32452772888869_2_alg».proof.Proof.KVal2Acc
import proofs.«131687_j32452772888869_2_alg».proof.Proof.KValHalf
import proofs.«131687_j32452772888869_2_alg».proof.Proof.KValRd

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame
open Cert.Sinkhorn (c1 c3000)

section
variable (V : (c : Dev nD) → (b : Ref sig .tc) → Buf (Elt Ideal) ((c : Thread nD τ).loc b))

/-- The array of half sums: row i₀ belongs to half i₀ / 8. -/
def G2 (e : S32768x3000.Idx → EReal) (r : S1x3000.Idx → EReal) : S16x3000.Idx → EReal :=
  fun i => halfSum e r ⟨(i 0).val / 8, by have := idx2_lt0 i; omega⟩ ⟨(i 1).val, idx2_lt1 i⟩

/-- The array of half sums at row m and column q. -/
theorem G2_apply (e : S32768x3000.Idx → EReal) (r : S1x3000.Idx → EReal) (m : Fin 16) (q : Fin 3000) :
    G2 e r (ix2 m q) = halfSum e r ⟨m.val / 8, by omega⟩ q := rfl

/-- The output block at point t, embedded in the array: rows 8·(t/32) …. -/
theorem emb2_2 (t : Fin cfg2.N) (k : Fin 8) (q : Fin 3000) :
    ((cfg2.win 2).blk t).view.emb (ix2 k q)
      = (ix2 (⟨t.val / 32 * 8 + k.val, by have := t2_lt t; omega⟩ : Fin 16) q : S16x3000.Idx) := by
  funext a
  apply Fin.ext
  obtain ⟨-, -, -, -, e4, e5⟩ := idx_facts2 t
  match a with
  | ⟨0, _⟩ => show win2_2.index t (0 : Fin 2) * 8 + 1 * k.val = t.val / 32 * 8 + k.val; rw [e4]; omega
  | ⟨1, _⟩ => show win2_2.index t (1 : Fin 2) * 3000 + 1 * q.val = q.val; rw [e5]; omega

/-- What a writing-back point writes back is its block of the array of half sums. -/
theorem flushed2_eq (c : Dev nD) (t : Fin cfg2.N) (hf : (cfg2.win 2).flush t = true) :
    (dat2 V c).flushed 2 t
      = ((cfg2.win 2).blk t).view.read (Elt Ideal) (G2 (V c main_v0_0) (V c main_v15)) := by
  have h1 : t.val % 32 = 31 := (flush2_2 t).mp hf
  show (cfg2.win 2).cut (grid2.coords t) ((dat2 V c).after 2 t) = _
  rw [after2_2]
  funext j
  obtain ⟨k, q, rfl⟩ : ∃ (k : Fin 8) (q : Fin 3000), j = ix2 k q := ⟨j 0, j 1, eq_ix2 j⟩
  rw [View.read_apply, emb2_2 t k q]
  have hk : k.val < 8 := k.isLt
  have ht : t.val < 64 := t2_lt t
  have hv : t.val / 32 = (t.val / 32 * 8 + k.val) / 8 := by omega
  exact ((out2_half V c t h1 k q).trans
    (halfSum_congr (V c main_v0_0) (V c main_v15) ⟨t.val / 32, by omega⟩ ⟨(t.val / 32 * 8 + k.val) / 8, by omega⟩ hv q)).trans
    (G2_apply (V c main_v0_0) (V c main_v15) ⟨t.val / 32 * 8 + k.val, by omega⟩ q).symm

/-- An index of the array is in point t's block iff each coordinate is in the block's range on its axis. -/
theorem mem_blk2 (t : Fin cfg2.N) (i : S16x3000.Idx) :
    i ∈ ((cfg2.win 2).blk t).view.set ↔ ∀ a : Fin 2, win2_2.index t a * S8x3000.size a ≤ (i a).val ∧ (i a).val < win2_2.index t a * S8x3000.size a + S8x3000.size a := by
  show i ∈ ((View.whole main_v16).slice (win2_2.rect t)).set ↔ _
  rw [View.set_slice_whole, Rect.mem_set_unit]
  exact Iff.rfl

/-- Every entry of the array is in the block of the last point of its half. -/
theorem cover2 (i : S16x3000.Idx) :
    ∃ t : Fin cfg2.N, (cfg2.win 2).flush t = true ∧ i ∈ ((cfg2.win 2).blk t).view.set := by
  have hi0 : (i 0).val < 16 := idx2_lt0 i
  have hi1 : (i 1).val < 3000 := idx2_lt1 i
  have hN : cfg2.N = 64 := N_2
  let t : Fin cfg2.N := ⟨32 * ((i 0).val / 8) + 31, by rw [hN]; omega⟩
  have ht : t.val = 32 * ((i 0).val / 8) + 31 := rfl
  refine ⟨t, (flush2_2 t).mpr (by rw [ht]; omega), ?_⟩
  rw [mem_blk2]
  obtain ⟨-, -, -, -, e4, e5⟩ := idx_facts2 t
  intro a
  match a with
  | ⟨0, _⟩ => show win2_2.index t (0 : Fin 2) * 8 ≤ (i 0).val ∧ (i 0).val < win2_2.index t (0 : Fin 2) * 8 + 8; rw [e4, ht]; omega
  | ⟨1, _⟩ => show win2_2.index t (1 : Fin 2) * 3000 ≤ (i 1).val ∧ (i 1).val < win2_2.index t (1 : Fin 2) * 3000 + 3000; rw [e5]; omega

/-- The array after the pass. -/
theorem final2 (c : Dev nD) : (dat2 V c).arrAt 2 cfg2.N = G2 (V c main_v0_0) (V c main_v15) :=
  (dat2 V c).arrAt_eq_of_cover 2 (G2 (V c main_v0_0) (V c main_v15)) (fun t hf => flushed2_eq V c t hf) cover2

/-- The array after the pass, entry by entry: row 8·h+k, column b holds half h's sum at column b, the sum over the
    half's rows of the entry of E times the row's weight. -/
theorem arr2_S (c : Dev nD) (h : Fin 2) (k : Fin 8) (b : Fin 3000) :
    (dat2 V c).arrAt 2 cfg2.N (ix2 (⟨8 * h.val + k.val, by omega⟩ : Fin 16) b)
      = ∑ n : Fin 16384, eIn V c (Cert.Sinkhorn.row h n) b
          * Ideal.div c1 (c3000 * ∑ q : Fin 3000, eIn V c (Cert.Sinkhorn.row h n) q * rIn15 V c q) := by
  have hk : k.val < 8 := k.isLt
  have hh : h.val < 2 := h.isLt
  have hv : (8 * h.val + k.val) / 8 = h.val := by omega
  rw [final2 V c]
  exact (G2_apply (V c main_v0_0) (V c main_v15) ⟨8 * h.val + k.val, by omega⟩ b).trans
    ((halfSum_congr (V c main_v0_0) (V c main_v15) ⟨(8 * h.val + k.val) / 8, by omega⟩ h hv b).trans
      (halfSum_eq (V c main_v0_0) (V c main_v15) (eIn V c) (rIn15 V c) (fun _ _ => rfl) (fun _ => rfl) h b))

end

end Cert.KVal

end
-- ==== Proof.KValPay3.lean ====
/-
  The last kernel's arithmetic read at an index, on the extended reals: for each of the block's 256 rows the row
  weight is the reciprocal of 3000 times the sum over the columns of exp of the logit times the column weight, and
  the stored entry is 3000 times exp of the logit, times the column weight, times the row weight.
-/
import proofs.«131687_j32452772888869_2_alg».proof.Proof.Gen.KernelIdeal.Skeleton
import proofs.«131687_j32452772888869_2_alg».proof.Proof.Spec
import proofs.«131687_j32452772888869_2_alg».proof.Proof.KValLib
import Idealize.ShloMosaic.Lib.ValueIdx
import Idealize.ShloMosaic.Lib.ValueLayout
import Idealize.ShloMosaic.Lib.Pipeline.Value
import Idealize.ShloMosaic.PureOps.Ideal.Laws

noncomputable section

namespace Cert.KVal

open Idealize.ShloMosaic Idealize.ShloMosaic.ValueIdx
open Cert.KernelIdeal Cert.KernelIdeal.Gen
open Cert.Sinkhorn (c1 c3000 c32768)

/-- The stored block at row `p` and column `b`. -/
theorem pay3 (x : FVec Ideal S256x3000 .f32) (r : FVec Ideal S1x3000 .f32) (p : Fin 256) (b : Fin 3000) :
    k3_pay1 (F := Ideal) x r (ix2 p b)
      = ((c3000 * Ideal.exp (x (ix2 p b))) * r (ix2 0 b))
          * Ideal.div c1 (c3000 * ∑ q : Fin 3000, Ideal.exp (x (ix2 p q)) * r (ix2 0 q)) := by
  unfold k3_pay1
  rw [mulf_apply]
  refine congrArg₂ (· * ·) ?_ ?_
  · rw [mulf_apply, mulf_apply, broadcast_apply, broadcastTo_1b_ab_apply, shapeCast_self]
    rfl
  · rw [Cert.Columns.broadcastTo_a1_ab_apply, divf_apply, broadcast_apply, mulf_apply, broadcast_apply,
      Cert.Columns.shapeCast_a_a1_apply]
    refine congrArg (fun z => Ideal.div c1 (c3000 * z)) ?_
    refine (sum_along _ _ _ _ p).trans ?_
    refine Finset.sum_congr rfl fun q _ => ?_
    rw [mulf_apply, broadcastTo_1b_ab_apply, shapeCast_self]
    rfl

end Cert.KVal

end
-- ==== Proof.KVal3.lean ====
/-
  The final pass, read as a value. Every point stores one tile of 256 rows: at row p and column b of the tile,
  3000·exp(logit), times the column weight r[b], times the row's weight 1/(3000·Σ_q exp(logit[p,q])·r[q]). The logits'
  tile at point t is rows 256·t … 256·t+255 of the logits, the column weights are fetched whole, and the output tile
  is written back to the same rows at every point: the 128 tiles cover the array, which therefore ends holding that
  formula at every entry.
-/
import proofs.«131687_j32452772888869_2_alg».proof.Proof.KIR3
import proofs.«131687_j32452772888869_2_alg».proof.Proof.KValPay3
import Idealize.ShloMosaic.Lib.Pipeline.Value
import Idealize.ShloMosaic.Lib.Tactic
import Idealize.ShloMosaic.Lib.ValueIdx

set_option maxRecDepth 16384

noncomputable section

namespace Cert.KVal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KIFrame
open Cert.Sinkhorn (c1 c3000)

/-- The zero offsets of a rank-2 rectangle, as the constant function. -/
private theorem hz : (![0, 0] : Fin 2 → Nat) = fun _ => 0 := funext fun a => by fin_cases a <;> rfl

/-- What a point leaves in the output tile's buffer is the kernel's stored value of the two tiles it loaded. -/
theorem out3_2_eq {F : FTy → Type} [FloatOps F] (c : Dev nD) (i : grid3.Coords) (arg1 : Memref sig .tc .vmem S256x3000 .f32) (harg1 : arg1.IsWhole) (arg2 : Memref sig .tc .vmem S1x3000 .f32) (harg2 : arg2.IsWhole) (arg3 : Memref sig .tc .vmem S256x3000 .f32) (harg3 : arg3.IsWhole) (x0 : Vec F S256x3000 .f32) (x1 : Vec F S1x3000 .f32) :
    out3_2 c i arg1 harg1 arg2 harg2 arg3 harg3 x0 x1 = k3_pay1 x0 x1 := by
  unfold out3_2
  rw [View.read_writes_eq_canon _ _ _ (cover3_2 c i arg1 harg1 arg2 harg2 arg3 harg3 x0 x1)]
  unfold kernelRun3
  dsimp only
  try sl_unfold_words
  rw [View.canon_unit_zero hz]
  simp only [View.readAt_eq_ld, harg1.read_unread, harg2.read_unread, View.ld_unit_zero (S := S256x3000) hz,
    View.ld_unit_zero (S := S1x3000) hz]

/-- The index maps over the grid: the logits' and the output's tile at point t is tile t; the weights' block is
    the one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem t3_lt (t : Fin cfg3.N) : t.val < 128 := lt_of_lt_of_eq t.isLt (show cfg3.N = 128 from N_3)

/-- Row p of tile t. -/
def row3 (t : Fin cfg3.N) (p : Fin 256) : Fin 32768 := ⟨t.val * 256 + p.val, by have := t3_lt t; omega⟩

section
variable (V : (c : Dev nD) → (b : Ref sig .tc) → Buf (Elt Ideal) ((c : Thread nD τ).loc b))

/-- The logits' tile at point t is rows 256·t … of the logits. -/
theorem iblk3_0_apply (c : Dev nD) (t : Fin cfg3.N) (p : Fin 256) (q : Fin 3000) :
    iblk3 V c 0 t (ix2 p q) = V c main_arg0 (ix2 (row3 t p) q) := by
  unfold iblk3
  rw [View.read_apply]
  show V c main_arg0 _ = V c main_arg0 _
  refine congrArg (V c main_arg0 : S32768x3000.Idx → EReal) ?_
  funext a
  apply Fin.ext
  obtain ⟨e0, e1, -⟩ := idx_facts3 t
  match a with
  | ⟨0, _⟩ => show win3_0.index t (0 : Fin 2) * 256 + 1 * p.val = t.val * 256 + p.val; rw [e0]; omega
  | ⟨1, _⟩ => show win3_0.index t (1 : Fin 2) * 3000 + 1 * q.val = q.val; rw [e1]; omega

/-- The column weights' block at every point is the whole array. -/
theorem iblk3_1_apply (c : Dev nD) (t : Fin cfg3.N) (q : Fin 3000) :
    iblk3 V c 1 t (ix2 0 q) = V c main_v23 (ix2 0 q) := by
  unfold iblk3
  rw [View.read_apply]
  show V c main_v23 _ = V c main_v23 _
  refine congrArg (V c main_v23 : S1x3000.Idx → EReal) ?_
  funext a
  apply Fin.ext
  obtain ⟨-, -, e2, e3, -⟩ := idx_facts3 t
  match a with
  | ⟨0, _⟩ => show win3_1.index t (0 : Fin 2) * 1 + 1 * 0 = 0; rw [e2]
  | ⟨1, _⟩ => show win3_1.index t (1 : Fin 2) * 3000 + 1 * q.val = q.val; rw [e3]; omega

/-- The entry the final pass leaves at row n and column b, from the logits a0 and the column weights a1. -/
def g3 (a0 : S32768x3000.Idx → EReal) (a1 : S1x3000.Idx → EReal) (n : Fin 32768) (b : Fin 3000) : EReal :=
  ((c3000 * Ideal.exp (a0 (ix2 n b))) * a1 (ix2 0 b))
    * Ideal.div c1 (c3000 * ∑ q : Fin 3000, Ideal.exp (a0 (ix2 n q)) * a1 (ix2 0 q))

/-- The array of those entries. -/
def G3 (a0 : S32768x3000.Idx → EReal) (a1 : S1x3000.Idx → EReal) : S32768x3000.Idx → EReal :=
  fun i => g3 a0 a1 ⟨(i 0).val, idx2_lt0 i⟩ ⟨(i 1).val, idx2_lt1 i⟩

/-- The output's tile at point t, embedded in the array. -/
theorem emb3_2 (t : Fin cfg3.N) (p : Fin 256) (q : Fin 3000) :
    ((cfg3.win 2).blk t).view.emb (ix2 p q) = (ix2 (row3 t p) q : S32768x3000.Idx) := by
  funext a
  apply Fin.ext
  obtain ⟨-, -, -, -, e4, e5⟩ := idx_facts3 t
  match a with
  | ⟨0, _⟩ => show win3_2.index t (0 : Fin 2) * 256 + 1 * p.val = t.val * 256 + p.val; rw [e4]; omega
  | ⟨1, _⟩ => show win3_2.index t (1 : Fin 2) * 3000 + 1 * q.val = q.val; rw [e5]; omega

/-- What point t writes back is tile t of the array G3 of the logits and the column weights. -/
theorem flushed3_eq (c : Dev nD) (t : Fin cfg3.N) :
    (dat3 V c).flushed 2 t
      = ((cfg3.win 2).blk t).view.read (Elt Ideal) (G3 (V c main_arg0) (V c main_v23)) := by
  show (cfg3.win 2).cut (grid3.coords t) ((dat3 V c).after 2 t) = _
  rw [after3_2, out3_2_eq]
  funext j
  obtain ⟨p, q, rfl⟩ : ∃ (p : Fin 256) (q : Fin 3000), j = ix2 p q := ⟨j 0, j 1, eq_ix2 j⟩
  rw [View.read_apply, emb3_2 t p q]
  show k3_pay1 (F := Ideal) (iblk3 V c 0 t) (iblk3 V c 1 t) (ix2 p q) = g3 (V c main_arg0) (V c main_v23) (row3 t p) q
  refine (pay3 (iblk3 V c 0 t) (iblk3 V c 1 t) p q).trans ?_
  simp only [iblk3_0_apply V c t, iblk3_1_apply V c t]
  rfl

/-- An index of the array is in point t's tile iff each coordinate is in the tile's range on its axis. -/
theorem mem_blk3 (t : Fin cfg3.N) (i : S32768x3000.Idx) :
    i ∈ ((cfg3.win 2).blk t).view.set ↔ ∀ a : Fin 2, win3_2.index t a * S256x3000.size a ≤ (i a).val ∧ (i a).val < win3_2.index t a * S256x3000.size a + S256x3000.size a := by
  show i ∈ ((View.whole main_v24).slice (win3_2.rect t)).set ↔ _
  rw [View.set_slice_whole, Rect.mem_set_unit]
  exact Iff.rfl

/-- Every entry of the array is in the tile of the point its row falls in. -/
theorem cover3 (i : S32768x3000.Idx) :
    ∃ t : Fin cfg3.N, (cfg3.win 2).flush t = true ∧ i ∈ ((cfg3.win 2).blk t).view.set := by
  have hi0 : (i 0).val < 32768 := idx2_lt0 i
  have hi1 : (i 1).val < 3000 := idx2_lt1 i
  have hN : cfg3.N = 128 := N_3
  let t : Fin cfg3.N := ⟨(i 0).val / 256, by rw [hN]; omega⟩
  refine ⟨t, flush3_2 t, ?_⟩
  rw [mem_blk3]
  obtain ⟨-, -, -, -, e4, e5⟩ := idx_facts3 t
  have ht : t.val = (i 0).val / 256 := rfl
  intro a
  match a with
  | ⟨0, _⟩ => show win3_2.index t (0 : Fin 2) * 256 ≤ (i 0).val ∧ (i 0).val < win3_2.index t (0 : Fin 2) * 256 + 256; rw [e4, ht]; omega
  | ⟨1, _⟩ => show win3_2.index t (1 : Fin 2) * 3000 ≤ (i 1).val ∧ (i 1).val < win3_2.index t (1 : Fin 2) * 3000 + 3000; rw [e5]; omega

/-- The array after the final pass. -/
theorem final3 (c : Dev nD) : (dat3 V c).arrAt 2 cfg3.N = G3 (V c main_arg0) (V c main_v23) :=
  (dat3 V c).arrAt_eq_of_cover 2 (G3 (V c main_arg0) (V c main_v23)) (fun t _ => flushed3_eq V c t) cover3

/-- The array after the final pass, entry by entry. -/
theorem arr3 (c : Dev nD) (n : Fin 32768) (b : Fin 3000) :
    (dat3 V c).arrAt 2 cfg3.N (ix2 n b)
      = ((c3000 * Ideal.exp (V c main_arg0 (ix2 n b))) * V c main_v23 (ix2 0 b))
          * Ideal.div c1 (c3000 * ∑ q : Fin 3000, Ideal.exp (V c main_arg0 (ix2 n q)) * V c main_v23 (ix2 0 q)) := by
  rw [final3 V c]
  rfl

end

end Cert.KVal

end
-- ==== Proof.KIValue.lean ====
/-
  THE KERNEL'S RESULT is the specification's normalised array of the launched logits.

  The contents of the unscoped buffers at the seven boundaries of @main (Proof/KIRun.lean) are identified one after the
  other with the specification's quantities: after the first call the bf16 array is E and rows 0 and 8 of the 16-row
  array are the two halves' column sums; the first host stretch makes r₁ of them; the second call leaves the halves'
  sums of E·c_{r₁}, the second stretch r₂; the third call and stretch r₃; the last call the output. Between its
  writers every array stays what it was: a host stretch writes only its own results, a call only its own outputs.
-/
import proofs.«131687_j32452772888869_2_alg».proof.Proof.KIRun
import proofs.«131687_j32452772888869_2_alg».proof.Proof.KValHost
import proofs.«131687_j32452772888869_2_alg».proof.Proof.KValRd
import proofs.«131687_j32452772888869_2_alg».proof.Proof.KValR0E
import proofs.«131687_j32452772888869_2_alg».proof.Proof.KValR0S
import proofs.«131687_j32452772888869_2_alg».proof.Proof.KVal1Arr
import proofs.«131687_j32452772888869_2_alg».proof.Proof.KVal2Arr
import proofs.«131687_j32452772888869_2_alg».proof.Proof.KVal3
import proofs.«131687_j32452772888869_2_alg».proof.Proof.Spec

noncomputable section

namespace Cert.KIValue

open Idealize.ShloMosaic Idealize.ShloMosaic.TcCoe Idealize.SL.Sem
open Cert.KernelIdeal Cert.KernelIdeal.Gen Cert.KIFrame Cert.KVal Cert.Sinkhorn
open Idealize.ShloMosaic.ValueIdx

variable (m : (ℓ : Loc nD τ sig) → Buf (Elt Ideal) ℓ) (ρ : Dev nD → PrngReg) (c : Dev nD)

/-- The logits on core `c`, by row and column. -/
def xOf : Fin 32768 → Fin 3000 → EReal := fun n b => m ((c : Thread nD τ).loc main_arg0) (ix2 n b)

/-! ## The contents at each boundary, in the specification's terms -/

/-- After the first call the bf16 array holds E = exp(logits). -/
theorem E1 (n : Fin 32768) (b : Fin 3000) : W1 m ρ c (Proc.devRef .tc main_v0_0) (ix2 n b) = E (xOf m c) n b :=
  (congrFun (W1_arr m ρ c 1) (ix2 n b)).trans (arr0_E (U0 m ρ) c n b)

/-- After the first call rows 0 and 8 of the 16-row array hold the two halves' column sums of E. -/
theorem S1 (h : Fin 2) (b : Fin 3000) : W1 m ρ c (Proc.devRef .tc main_v0_1) (ix2 ⟨8 * h.val + 0, by omega⟩ b) = colHalf (xOf m c) h b :=
  (congrFun (W1_arr m ρ c 2) _).trans (arr0_S (U0 m ρ) c h 0 b)

/-- The first host stretch makes the first column weights. -/
theorem R1 (b : Fin 3000) : W2 m ρ c (Proc.devRef .tc main_v7) (ix2 0 b) = r1 (xOf m c) b := by
  rw [show W2 m ρ c (Proc.devRef .tc main_v7) = hostR (W1 m ρ c (Proc.devRef .tc main_v0_1)) from after_hostOps1 _, hostR_apply]
  have h0 := S1 m ρ c 0 b
  have h1 := S1 m ρ c 1 b
  unfold r1
  rw [← h0, ← h1]; rfl

/-- The host stretches and the later calls leave E where the first call put it. -/
theorem E2 : W2 m ρ c (Proc.devRef .tc main_v0_0) = W1 m ρ c (Proc.devRef .tc main_v0_0) :=
  StableHlo.after_of_writes_sub hostOps1 _ hostOps1_writes (by decide : main_v0_0 ∉ hostOps1_W)
theorem E3 : W3 m ρ c (Proc.devRef .tc main_v0_0) = W2 m ρ c (Proc.devRef .tc main_v0_0) :=
  (W3_arr m ρ c 0).trans (((dat1 (U2 m ρ) c).arrAt_in 0 rfl _).trans (A_eq1 (U2 m ρ) c 0))
theorem E4 : W4 m ρ c (Proc.devRef .tc main_v0_0) = W3 m ρ c (Proc.devRef .tc main_v0_0) :=
  StableHlo.after_of_writes_sub hostOps2 _ hostOps2_writes (by decide : main_v0_0 ∉ hostOps2_W)
theorem EU2 (n : Fin 32768) (b : Fin 3000) : eIn (U2 m ρ) c n b = E (xOf m c) n b := by
  unfold eIn; rw [show U2 m ρ c main_v0_0 = W1 m ρ c (Proc.devRef .tc main_v0_0) from E2 m ρ c]; exact E1 m ρ c n b
theorem RU2 (b : Fin 3000) : rIn7 (U2 m ρ) c b = r1 (xOf m c) b := R1 m ρ c b
theorem EU4 (n : Fin 32768) (b : Fin 3000) : eIn (U4 m ρ) c n b = E (xOf m c) n b := by
  unfold eIn; rw [show U4 m ρ c main_v0_0 = W1 m ρ c (Proc.devRef .tc main_v0_0) from (E4 m ρ c).trans ((E3 m ρ c).trans (E2 m ρ c))]; exact E1 m ρ c n b

/-- After the second call rows 0 and 8 of its 16-row array hold the two halves' column sums of E weighted by the row
    weights that the first column weights induce. -/
theorem S3 (h : Fin 2) (b : Fin 3000) : W3 m ρ c (Proc.devRef .tc main_v8) (ix2 ⟨8 * h.val + 0, by omega⟩ b) = wHalf (xOf m c) (r1 (xOf m c)) h b := by
  refine (congrFun (W3_arr m ρ c 2) _).trans ((arr1_S (U2 m ρ) c h 0 b).trans ?_)
  unfold wHalf cOf
  simp only [EU2 m ρ c, RU2 m ρ c]
theorem R2 (b : Fin 3000) : W4 m ρ c (Proc.devRef .tc main_v15) (ix2 0 b) = r2 (xOf m c) b := by
  rw [show W4 m ρ c (Proc.devRef .tc main_v15) = hostR (W3 m ρ c (Proc.devRef .tc main_v8)) from after_hostOps2 _, hostR_apply]
  have h0 := S3 m ρ c 0 b
  have h1 := S3 m ρ c 1 b
  unfold r2 rNext
  rw [← h0, ← h1]; rfl
theorem RU4 (b : Fin 3000) : rIn15 (U4 m ρ) c b = r2 (xOf m c) b := R2 m ρ c b
theorem S5 (h : Fin 2) (b : Fin 3000) : W5 m ρ c (Proc.devRef .tc main_v16) (ix2 ⟨8 * h.val + 0, by omega⟩ b) = wHalf (xOf m c) (r2 (xOf m c)) h b := by
  refine (congrFun (W5_arr m ρ c 2) _).trans ((arr2_S (U4 m ρ) c h 0 b).trans ?_)
  unfold wHalf cOf
  simp only [EU4 m ρ c, RU4 m ρ c]
theorem R3 (b : Fin 3000) : W6 m ρ c (Proc.devRef .tc main_v23) (ix2 0 b) = r3 (xOf m c) b := by
  rw [show W6 m ρ c (Proc.devRef .tc main_v23) = hostR (W5 m ρ c (Proc.devRef .tc main_v16)) from after_hostOps3 _, hostR_apply]
  have h0 := S5 m ρ c 0 b
  have h1 := S5 m ρ c 1 b
  unfold r3 rNext
  rw [← h0, ← h1]; rfl

/-- The final pass finds the logits as launched. -/
theorem X6 : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide : main_arg0 ∉ hostOps3_W)
    _ = W4 m ρ c (Proc.devRef .tc main_arg0) := W5_of_ne m ρ c main_arg0 (by decide)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

/-- THE KERNEL'S RESULT: the result array ends at the specification's normalised array of the launched logits. -/
theorem result : W7 m ρ c (Proc.devRef .tc main_v24) = fun i => out (xOf m c) (i 0) (i 1) := by
  funext i
  obtain ⟨n, b, rfl⟩ : ∃ (n : Fin 32768) (b : Fin 3000), i = ix2 n b := ⟨i 0, i 1, eq_ix2 i⟩
  refine (congrFun (W7_main_v24 m ρ c) _).trans ((arr3 (U6 m ρ) c n b).trans ?_)
  have hx : ∀ n' b', U6 m ρ c main_arg0 (ix2 n' b') = xOf m c n' b' := fun n' b' => by
    rw [show U6 m ρ c main_arg0 = m ((c : Thread nD τ).loc main_arg0) from X6 m ρ c]; rfl
  have hr : ∀ b', U6 m ρ c main_v23 (ix2 0 b') = r3 (xOf m c) b' := fun b' => R3 m ρ c b'
  simp only [hx, hr]
  rfl

end Cert.KIValue

end
-- ==== Proof.RefFormula.lean ====
/-
  The reference's formula, entry by entry, on the extended reals.

  refOut mirrors the reference program step by step on Q[b,n] = E[n,b] = exp(x[n,b]): the global rescale by the total,
  three rounds (normalise over n: Q / ((Σₙ Q) · 32768); normalise over b: Q / ((Σ_b Q) · 3000)), the product with 3000,
  read at [b,n]. Every product and quotient is written in the order the program has it.
-/
import proofs.«131687_j32452772888869_2_alg».proof.Proof.Spec

noncomputable section

namespace Cert.RefSide

open Idealize.ShloMosaic Cert.Sinkhorn
open scoped BigOperators

/-! ### The reference's formula -/

section Formula
variable (x : Fin 32768 → Fin 3000 → EReal)

/-- The global rescale: Q[b,n] = E[n,b] / ΣΣ E. -/
def q0 (b : Fin 3000) (n : Fin 32768) : EReal :=
  Ideal.div (E x n b) (∑ b' : Fin 3000, ∑ n' : Fin 32768, E x n' b')

/-- Normalise over n: Q[b,n] / ((Σₙ Q[b,n]) · 32768). -/
def rowN (q : Fin 3000 → Fin 32768 → EReal) (b : Fin 3000) (n : Fin 32768) : EReal :=
  Ideal.div (q b n) ((∑ n' : Fin 32768, q b n') * c32768)

/-- Normalise over b: Q[b,n] / ((Σ_b Q[b,n]) · 3000). -/
def colN (q : Fin 3000 → Fin 32768 → EReal) (b : Fin 3000) (n : Fin 32768) : EReal :=
  Ideal.div (q b n) ((∑ b' : Fin 3000, q b' n) * c3000)

/-- The reference's result at [n,b]: three rounds after the global rescale, times 3000, transposed back. -/
def refOut (n : Fin 32768) (b : Fin 3000) : EReal :=
  colN (rowN (colN (rowN (colN (rowN (q0 x)))))) b n * c3000

end Formula

end Cert.RefSide

end
-- ==== Proof.RefRead.lean ====
/-
  The reference program, stage by stage, is the formula refOut.

  Each stage of the printed reference is read at an index [b,n] of the transposed array: the global rescale is q0; a
  row normalisation is the quotient by the broadcast of (the sum over n, times 32768); a column normalisation the
  quotient by the broadcast of (the sum over b, times 3000); the last stages multiply by 3000 and transpose back. A
  float sum reads as its initial value, zero, plus the sum of the operand along the reduced axis.
-/
import proofs.«131687_j32452772888869_2_alg».proof.Proof.Gen.ReferenceIdeal.Read
import proofs.«131687_j32452772888869_2_alg».proof.Proof.RefFormula
import Idealize.ShloMosaic.Lib.ValueIdx

noncomputable section

namespace Cert.RefSide

open Idealize.ShloMosaic Idealize.ShloMosaic.ValueIdx Cert.ReferenceIdeal Cert.ReferenceIdeal.Gen Cert.ReferenceIdeal.Read
open scoped BigOperators

theorem hidx_v1 (b : Fin 3000) (n : Fin 32768) : idx_main_v1 (ix2 b n) = ix2 n b := by
  funext d
  match d with
  | ⟨0, _⟩ => rfl
  | ⟨1, _⟩ => rfl

/-- The global rescale, read at [b,n]: exp of the logit at [n,b] over the total of all exponentials. -/
theorem stage_v4 (a : FVec Ideal S32768x3000 .f32) (b : Fin 3000) (n : Fin 32768) :
    val_main_v4 (F := Ideal) a (ix2 b n) = q0 (fun n b => a (ix2 n b)) b n := by
  rw [val_main_v4_apply, val_main_v3_apply, val_main_v2_apply, val_main_cst_apply, sum_idx2]
  simp only [val_main_v1_apply, val_main_v0_apply, hidx_v1, Ideal.hostDivf_def, Ideal.hostUnary_exp_def, Ideal.ofBits_def,
    Ideal.ofBits_zero_f32, zero_add]
  rfl

theorem hidx_v5 : ∀ (b : Fin 3000) (n k : Fin 32768), idx_main_v5 (idx_main_v6 (idx_main_v9 (ix2 b n))) k = ix2 b k := by
  intro b n k
  funext d
  match d with
  | ⟨0, _⟩ => rfl
  | ⟨1, _⟩ => rfl

/-- The normalisation over n (times 32768) of the stage before, read at [b,n]. -/
theorem stage_v10 (a : FVec Ideal S32768x3000 .f32) (q : Fin 3000 → Fin 32768 → EReal)
    (hprev : ∀ (b : Fin 3000) (n : Fin 32768), val_main_v4 (F := Ideal) a (ix2 b n) = q b n) (b : Fin 3000) (n : Fin 32768) :
    val_main_v10 (F := Ideal) a (ix2 b n) = rowN q b n := by
  rw [val_main_v10_apply, val_main_v9_apply, val_main_v8_apply, val_main_v6_apply, val_main_v5_apply, val_main_v7_apply, val_main_cst_1_apply,
    val_main_cst_0_apply]
  simp only [hidx_v5, hprev, Ideal.hostDivf_def, Ideal.mulf_def, Ideal.ofBits_def, Ideal.ofBits_zero_f32, zero_add]
  rfl

theorem hidx_v11 : ∀ (b : Fin 3000) (n : Fin 32768) (k : Fin 3000), idx_main_v11 (idx_main_v12 (idx_main_v15 (ix2 b n))) k = ix2 k n := by
  intro b n k
  funext d
  match d with
  | ⟨0, _⟩ => rfl
  | ⟨1, _⟩ => rfl

/-- The normalisation over b (times 3000) of the stage before, read at [b,n]. -/
theorem stage_v16 (a : FVec Ideal S32768x3000 .f32) (q : Fin 3000 → Fin 32768 → EReal)
    (hprev : ∀ (b : Fin 3000) (n : Fin 32768), val_main_v10 (F := Ideal) a (ix2 b n) = q b n) (b : Fin 3000) (n : Fin 32768) :
    val_main_v16 (F := Ideal) a (ix2 b n) = colN q b n := by
  rw [val_main_v16_apply, val_main_v15_apply, val_main_v14_apply, val_main_v12_apply, val_main_v11_apply, val_main_v13_apply, val_main_cst_3_apply,
    val_main_cst_2_apply]
  simp only [hidx_v11, hprev, Ideal.hostDivf_def, Ideal.mulf_def, Ideal.ofBits_def, Ideal.ofBits_zero_f32, zero_add]
  rfl

theorem hidx_v17 : ∀ (b : Fin 3000) (n k : Fin 32768), idx_main_v17 (idx_main_v18 (idx_main_v21 (ix2 b n))) k = ix2 b k := by
  intro b n k
  funext d
  match d with
  | ⟨0, _⟩ => rfl
  | ⟨1, _⟩ => rfl

/-- The normalisation over n (times 32768) of the stage before, read at [b,n]. -/
theorem stage_v22 (a : FVec Ideal S32768x3000 .f32) (q : Fin 3000 → Fin 32768 → EReal)
    (hprev : ∀ (b : Fin 3000) (n : Fin 32768), val_main_v16 (F := Ideal) a (ix2 b n) = q b n) (b : Fin 3000) (n : Fin 32768) :
    val_main_v22 (F := Ideal) a (ix2 b n) = rowN q b n := by
  rw [val_main_v22_apply, val_main_v21_apply, val_main_v20_apply, val_main_v18_apply, val_main_v17_apply, val_main_v19_apply, val_main_cst_5_apply,
    val_main_cst_4_apply]
  simp only [hidx_v17, hprev, Ideal.hostDivf_def, Ideal.mulf_def, Ideal.ofBits_def, Ideal.ofBits_zero_f32, zero_add]
  rfl

theorem hidx_v23 : ∀ (b : Fin 3000) (n : Fin 32768) (k : Fin 3000), idx_main_v23 (idx_main_v24 (idx_main_v27 (ix2 b n))) k = ix2 k n := by
  intro b n k
  funext d
  match d with
  | ⟨0, _⟩ => rfl
  | ⟨1, _⟩ => rfl

/-- The normalisation over b (times 3000) of the stage before, read at [b,n]. -/
theorem stage_v28 (a : FVec Ideal S32768x3000 .f32) (q : Fin 3000 → Fin 32768 → EReal)
    (hprev : ∀ (b : Fin 3000) (n : Fin 32768), val_main_v22 (F := Ideal) a (ix2 b n) = q b n) (b : Fin 3000) (n : Fin 32768) :
    val_main_v28 (F := Ideal) a (ix2 b n) = colN q b n := by
  rw [val_main_v28_apply, val_main_v27_apply, val_main_v26_apply, val_main_v24_apply, val_main_v23_apply, val_main_v25_apply, val_main_cst_7_apply,
    val_main_cst_6_apply]
  simp only [hidx_v23, hprev, Ideal.hostDivf_def, Ideal.mulf_def, Ideal.ofBits_def, Ideal.ofBits_zero_f32, zero_add]
  rfl

theorem hidx_v29 : ∀ (b : Fin 3000) (n k : Fin 32768), idx_main_v29 (idx_main_v30 (idx_main_v33 (ix2 b n))) k = ix2 b k := by
  intro b n k
  funext d
  match d with
  | ⟨0, _⟩ => rfl
  | ⟨1, _⟩ => rfl

/-- The normalisation over n (times 32768) of the stage before, read at [b,n]. -/
theorem stage_v34 (a : FVec Ideal S32768x3000 .f32) (q : Fin 3000 → Fin 32768 → EReal)
    (hprev : ∀ (b : Fin 3000) (n : Fin 32768), val_main_v28 (F := Ideal) a (ix2 b n) = q b n) (b : Fin 3000) (n : Fin 32768) :
    val_main_v34 (F := Ideal) a (ix2 b n) = rowN q b n := by
  rw [val_main_v34_apply, val_main_v33_apply, val_main_v32_apply, val_main_v30_apply, val_main_v29_apply, val_main_v31_apply, val_main_cst_9_apply,
    val_main_cst_8_apply]
  simp only [hidx_v29, hprev, Ideal.hostDivf_def, Ideal.mulf_def, Ideal.ofBits_def, Ideal.ofBits_zero_f32, zero_add]
  rfl

theorem hidx_v35 : ∀ (b : Fin 3000) (n : Fin 32768) (k : Fin 3000), idx_main_v35 (idx_main_v36 (idx_main_v39 (ix2 b n))) k = ix2 k n := by
  intro b n k
  funext d
  match d with
  | ⟨0, _⟩ => rfl
  | ⟨1, _⟩ => rfl

/-- The normalisation over b (times 3000) of the stage before, read at [b,n]. -/
theorem stage_v40 (a : FVec Ideal S32768x3000 .f32) (q : Fin 3000 → Fin 32768 → EReal)
    (hprev : ∀ (b : Fin 3000) (n : Fin 32768), val_main_v34 (F := Ideal) a (ix2 b n) = q b n) (b : Fin 3000) (n : Fin 32768) :
    val_main_v40 (F := Ideal) a (ix2 b n) = colN q b n := by
  rw [val_main_v40_apply, val_main_v39_apply, val_main_v38_apply, val_main_v36_apply, val_main_v35_apply, val_main_v37_apply, val_main_cst_11_apply,
    val_main_cst_10_apply]
  simp only [hidx_v35, hprev, Ideal.hostDivf_def, Ideal.mulf_def, Ideal.ofBits_def, Ideal.ofBits_zero_f32, zero_add]
  rfl

theorem hidx_v43 (n : Fin 32768) (b : Fin 3000) : idx_main_v43 (ix2 n b) = ix2 b n := by
  funext d
  match d with
  | ⟨0, _⟩ => rfl
  | ⟨1, _⟩ => rfl

/-- The reference's result at [n,b] is refOut of the logits. -/
theorem val_main_v43_ix2 (a : FVec Ideal S32768x3000 .f32) (n : Fin 32768) (b : Fin 3000) :
    val_main_v43 (F := Ideal) a (ix2 n b) = refOut (fun n b => a (ix2 n b)) n b := by
  have h40 := stage_v40 a _ (stage_v34 a _ (stage_v28 a _ (stage_v22 a _ (stage_v16 a _ (stage_v10 a _ (stage_v4 a))))))
  rw [val_main_v43_apply, hidx_v43, val_main_v42_apply, h40, val_main_v41_apply, val_main_cst_12_apply]
  simp only [Ideal.mulf_def, Ideal.ofBits_def]
  rfl

end Cert.RefSide

end
-- ==== Proof.RefReal.lean ====
/-
  The Sinkhorn–Knopp rounds over the reals, on abstract finite index sets.

  An array of the form  q[b,n] = e[n,b] · u[b] · v[n]  (positive entries e, positive weights u on the first index of q
  and v on the second) is carried by a normalisation of its first index's lines — divide q[b,n] by (Σₙ q[b,n]) · cN —
  to the same form with u replaced by 1 / (cN · Σₙ e[n,b] · v[n]): the old weight u[b] cancels. A normalisation along
  the other index does the same to v. The global rescale by the total is itself a weight u (constant in b), so it
  cancels in the first normalisation. Three rounds therefore leave  e · r₃ · c(r₃)  with the weights of the
  specification.
-/
import Idealize.ShloMosaic.PureOps.Ideal

noncomputable section

namespace Cert.RefSide

open scoped BigOperators

variable {ι κ : Type} [Fintype ι] [Fintype κ] [Nonempty ι] [Nonempty κ]
variable (cN cB : ℝ) (e : ι → κ → ℝ)

/-- The array e[n,b] · u[b] · v[n], indexed [b,n]. -/
def form (u : κ → ℝ) (v : ι → ℝ) (b : κ) (n : ι) : ℝ := e n b * u b * v n

/-- The weight a normalisation over n induces from weights v: 1 / (cN · Σₙ e[n,b] · v[n]). -/
def rowW (v : ι → ℝ) (b : κ) : ℝ := 1 / (cN * ∑ n, e n b * v n)

/-- The weight a normalisation over b induces from weights u: 1 / (cB · Σ_b e[n,b] · u[b]). -/
def colW (u : κ → ℝ) (n : ι) : ℝ := 1 / (cB * ∑ b, e n b * u b)

/-- Normalise over n: q[b,n] / ((Σₙ q[b,n]) · cN). -/
def rowR (q : κ → ι → ℝ) (b : κ) (n : ι) : ℝ := q b n / ((∑ n', q b n') * cN)

/-- Normalise over b: q[b,n] / ((Σ_b q[b,n]) · cB). -/
def colR (q : κ → ι → ℝ) (b : κ) (n : ι) : ℝ := q b n / ((∑ b', q b' n) * cB)

/-- The global rescale: e[n,b] divided by the total. -/
def q0R (b : κ) (n : ι) : ℝ := e n b / ∑ b', ∑ n', e n' b'

theorem rowW_pos (hN : 0 < cN) (he : ∀ n b, 0 < e n b) (v : ι → ℝ) (hv : ∀ n, 0 < v n) (b : κ) :
    0 < rowW cN e v b :=
  one_div_pos.mpr (mul_pos hN (Finset.sum_pos (fun n _ => mul_pos (he n b) (hv n)) Finset.univ_nonempty))

theorem colW_pos (hB : 0 < cB) (he : ∀ n b, 0 < e n b) (u : κ → ℝ) (hu : ∀ b, 0 < u b) (n : ι) :
    0 < colW cB e u n :=
  one_div_pos.mpr (mul_pos hB (Finset.sum_pos (fun b _ => mul_pos (he n b) (hu b)) Finset.univ_nonempty))

theorem form_pos (he : ∀ n b, 0 < e n b) (u : κ → ℝ) (v : ι → ℝ) (hu : ∀ b, 0 < u b) (hv : ∀ n, 0 < v n)
    (b : κ) (n : ι) : 0 < form e u v b n := mul_pos (mul_pos (he n b) (hu b)) (hv n)

/-- Normalising over n cancels the weight u and installs rowW v. -/
theorem rowR_form (hN : 0 < cN) (he : ∀ n b, 0 < e n b) (u : κ → ℝ) (v : ι → ℝ)
    (hu : ∀ b, 0 < u b) (hv : ∀ n, 0 < v n) :
    rowR cN (form e u v) = form e (rowW cN e v) v := by
  funext b n
  have hs : 0 < ∑ n', e n' b * v n' :=
    Finset.sum_pos (fun i _ => mul_pos (he i b) (hv i)) Finset.univ_nonempty
  have hsum : (∑ n', form e u v b n') = u b * ∑ n', e n' b * v n' := by
    rw [Finset.mul_sum]; exact Finset.sum_congr rfl fun _ _ => by unfold form; ring
  unfold rowR; rw [hsum]; unfold form rowW
  have h1 := (hu b).ne'; have h2 := hs.ne'; have h3 := hN.ne'
  field_simp

/-- Normalising over b cancels the weight v and installs colW u. -/
theorem colR_form (hB : 0 < cB) (he : ∀ n b, 0 < e n b) (u : κ → ℝ) (v : ι → ℝ)
    (hu : ∀ b, 0 < u b) (hv : ∀ n, 0 < v n) :
    colR cB (form e u v) = form e u (colW cB e u) := by
  funext b n
  have hs : 0 < ∑ b', e n b' * u b' :=
    Finset.sum_pos (fun i _ => mul_pos (he n i) (hu i)) Finset.univ_nonempty
  have hsum : (∑ b', form e u v b' n) = v n * ∑ b', e n b' * u b' := by
    rw [Finset.mul_sum]; exact Finset.sum_congr rfl fun _ _ => by unfold form; ring
  unfold colR; rw [hsum]; unfold form colW
  have h1 := (hv n).ne'; have h2 := hs.ne'; have h3 := hB.ne'
  field_simp

/-- The first weights of the specification: 1 / (cN · Σₙ e[n,b]). -/
def r1R (b : κ) : ℝ := 1 / (cN * ∑ n, e n b)
/-- The next weights: rowW of the colW of the weights before. -/
def rNextR (r : κ → ℝ) : κ → ℝ := rowW cN e (colW cB e r)
def r2R : κ → ℝ := rNextR cN cB e (r1R cN e)
def r3R : κ → ℝ := rNextR cN cB e (r2R cN cB e)
/-- The specification's array over the reals. -/
def outR (n : ι) (b : κ) : ℝ := ((cB * e n b) * r3R cN cB e b) * colW cB e (r3R cN cB e) n

/-- The reference's array over the reals: the global rescale, three rounds, times cB, read transposed. -/
def refR (n : ι) (b : κ) : ℝ :=
  colR cB (rowR cN (colR cB (rowR cN (colR cB (rowR cN (q0R e)))))) b n * cB

theorem r1R_pos (hN : 0 < cN) (he : ∀ n b, 0 < e n b) (b : κ) : 0 < r1R cN e b :=
  one_div_pos.mpr (mul_pos hN (Finset.sum_pos (fun n _ => he n b) Finset.univ_nonempty))

theorem rNextR_pos (hN : 0 < cN) (hB : 0 < cB) (he : ∀ n b, 0 < e n b) (r : κ → ℝ) (hr : ∀ b, 0 < r b) (b : κ) :
    0 < rNextR cN cB e r b := rowW_pos cN e hN he _ (colW_pos cB e hB he r hr) b

/-- Every stage of the reference over the reals, as a form. -/
theorem stages (hN : 0 < cN) (hB : 0 < cB) (he : ∀ n b, 0 < e n b) :
    q0R e = form e (fun _ => 1 / ∑ b', ∑ n', e n' b') (fun _ => 1)
    ∧ rowR cN (q0R e) = form e (r1R cN e) (fun _ => 1)
    ∧ colR cB (rowR cN (q0R e)) = form e (r1R cN e) (colW cB e (r1R cN e))
    ∧ rowR cN (colR cB (rowR cN (q0R e))) = form e (r2R cN cB e) (colW cB e (r1R cN e))
    ∧ colR cB (rowR cN (colR cB (rowR cN (q0R e)))) = form e (r2R cN cB e) (colW cB e (r2R cN cB e))
    ∧ rowR cN (colR cB (rowR cN (colR cB (rowR cN (q0R e))))) = form e (r3R cN cB e) (colW cB e (r2R cN cB e))
    ∧ colR cB (rowR cN (colR cB (rowR cN (colR cB (rowR cN (q0R e))))))
        = form e (r3R cN cB e) (colW cB e (r3R cN cB e)) := by
  have hT : 0 < ∑ b', ∑ n', e n' b' :=
    Finset.sum_pos (fun b _ => Finset.sum_pos (fun n _ => he n b) Finset.univ_nonempty) Finset.univ_nonempty
  have h0 : q0R e = form e (fun _ => 1 / ∑ b', ∑ n', e n' b') (fun _ => 1) := by
    funext b n; unfold q0R form; rw [mul_one, mul_one_div]
  have hw : rowW cN e (fun _ => 1) = r1R cN e := by
    funext b; unfold rowW r1R; simp only [mul_one]
  have p1 := r1R_pos cN e hN he
  have p2 : ∀ b, 0 < r2R cN cB e b := rNextR_pos cN cB e hN hB he _ p1
  have p3 : ∀ b, 0 < r3R cN cB e b := rNextR_pos cN cB e hN hB he _ p2
  have c1 := colW_pos cB e hB he _ p1
  have c2 := colW_pos cB e hB he _ p2
  have s1 : rowR cN (q0R e) = form e (r1R cN e) (fun _ => 1) := by
    rw [h0, rowR_form cN e hN he _ _ (fun _ => one_div_pos.mpr hT) (fun _ => one_pos), hw]
  have s2 : colR cB (rowR cN (q0R e)) = form e (r1R cN e) (colW cB e (r1R cN e)) := by
    rw [s1, colR_form cB e hB he _ _ p1 (fun _ => one_pos)]
  have s3 : rowR cN (colR cB (rowR cN (q0R e))) = form e (r2R cN cB e) (colW cB e (r1R cN e)) := by
    rw [s2, rowR_form cN e hN he _ _ p1 c1]; rfl
  have s4 : colR cB (rowR cN (colR cB (rowR cN (q0R e)))) = form e (r2R cN cB e) (colW cB e (r2R cN cB e)) := by
    rw [s3, colR_form cB e hB he _ _ p2 c1]
  have s5 : rowR cN (colR cB (rowR cN (colR cB (rowR cN (q0R e)))))
      = form e (r3R cN cB e) (colW cB e (r2R cN cB e)) := by
    rw [s4, rowR_form cN e hN he _ _ p2 c2]; rfl
  have s6 : colR cB (rowR cN (colR cB (rowR cN (colR cB (rowR cN (q0R e))))))
      = form e (r3R cN cB e) (colW cB e (r3R cN cB e)) := by
    rw [s5, colR_form cB e hB he _ _ p3 c2]
  exact ⟨h0, s1, s2, s3, s4, s5, s6⟩

/-- Over the reals the reference's array is the specification's. -/
theorem refR_eq_outR (hN : 0 < cN) (hB : 0 < cB) (he : ∀ n b, 0 < e n b) (n : ι) (b : κ) :
    refR cN cB e n b = outR cN cB e n b := by
  unfold refR outR
  rw [(stages cN cB e hN hB he).2.2.2.2.2.2]
  unfold form; ring

end Cert.RefSide

end
-- ==== Proof.RefAlgebra.lean ====
/-
  The reference's formula, on finite logits, is the specification's.

  refOut is the reference's formula on Q[b,n] = E[n,b] = exp(x[n,b]). When every logit is a real, E is a positive real,
  every sum of positive reals is a positive real, every division is by a positive real: each quantity of refOut and of the specification is the coercion of its counterpart
  over the reals, where the two arrays are equal (the weights of the round before cancel in every normalisation). The sum
  over the 32768 rows is the sum of the specification's two half sums.
-/
import proofs.«131687_j32452772888869_2_alg».proof.Proof.RefFormula
import proofs.«131687_j32452772888869_2_alg».proof.Proof.RefReal

noncomputable section

namespace Cert.RefSide

open Idealize.ShloMosaic Cert.Sinkhorn
open scoped BigOperators

/-! ### Coercions -/

/-- A finite sum of coerced reals is the coerced sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_coe_coe (a b : ℝ) (hb : b ≠ 0) : Ideal.div (a : EReal) (b : EReal) = ((a / b : ℝ) : EReal) := by
  rw [Ideal.div_coe hb, ← EReal.coe_mul, mul_one_div]

theorem c1_eq : c1 = ((1 : ℝ) : EReal) := by
  unfold c1; simp [Ideal.ofBits, Ideal.ieee, -EReal.coe_mul]; norm_num

theorem c32768_eq : c32768 = ((32768 : ℝ) : EReal) := by
  unfold c32768; simp [Ideal.ofBits, Ideal.ieee, -EReal.coe_mul]; norm_num

theorem c3000_eq : c3000 = ((3000 : ℝ) : EReal) := by
  unfold c3000; simp [Ideal.ofBits, Ideal.ieee, -EReal.coe_mul]; norm_num

/-- The 32768 rows are the two halves of 16384. -/
theorem sum_halves {M : Type} [AddCommMonoid M] (f : Fin 32768 → M) :
    ∑ n, f n = ∑ n : Fin 16384, f (row 0 n) + ∑ n : Fin 16384, f (row 1 n) := by
  have h := Fin.sum_univ_add (M := M) (a := 16384) (b := 16384) f
  refine h.trans (congrArg₂ (· + ·) ?_ ?_)
  · exact Finset.sum_congr rfl fun i _ => congrArg f (Fin.ext (by simp [row]))
  · exact Finset.sum_congr rfl fun i _ => congrArg f (Fin.ext (by simp [row]; omega))

instance : Nonempty (Fin 32768) := ⟨⟨0, by decide⟩⟩
instance : Nonempty (Fin 3000) := ⟨⟨0, by decide⟩⟩

theorem rowR_pos {ι κ : Type} [Fintype ι] [Fintype κ] [Nonempty ι] (cN : ℝ) (hN : 0 < cN) (q : κ → ι → ℝ)
    (hq : ∀ b n, 0 < q b n) (b : κ) (n : ι) : 0 < rowR cN q b n :=
  div_pos (hq b n) (mul_pos (Finset.sum_pos (fun i _ => hq b i) Finset.univ_nonempty) hN)

theorem colR_pos {ι κ : Type} [Fintype ι] [Fintype κ] [Nonempty κ] (cB : ℝ) (hB : 0 < cB) (q : κ → ι → ℝ)
    (hq : ∀ b n, 0 < q b n) (b : κ) (n : ι) : 0 < colR cB q b n :=
  div_pos (hq b n) (mul_pos (Finset.sum_pos (fun i _ => hq i n) Finset.univ_nonempty) hB)

/-! ### Every quantity is the coercion of its counterpart over the reals -/

section Transfer
variable (x : Fin 32768 → Fin 3000 → EReal) (x' : Fin 32768 → Fin 3000 → ℝ) (hx' : ∀ n b, x n b = ((x' n b : ℝ) : EReal))

/-- e = exp of the real logits. -/
def eR (n : Fin 32768) (b : Fin 3000) : ℝ := Real.exp (x' n b)

theorem eR_pos (n : Fin 32768) (b : Fin 3000) : 0 < eR x' n b := Real.exp_pos _

include hx' in
theorem E_coe (n : Fin 32768) (b : Fin 3000) : E x n b = ((eR x' n b : ℝ) : EReal) := by
  unfold E; rw [hx']; rfl

include hx' in
theorem r1_coe (b : Fin 3000) : r1 x b = ((r1R 32768 (eR x') b : ℝ) : EReal) := by
  have hpos : 0 < ∑ n, eR x' n b := Finset.sum_pos (fun n _ => eR_pos x' n b) Finset.univ_nonempty
  unfold r1 colHalf
  simp only [E_coe x x' hx']
  rw [coe_sum, coe_sum, ← EReal.coe_add, ← sum_halves (fun n => eR x' n b), c32768_eq, ← EReal.coe_mul, c1_eq,
    div_coe_coe _ _ (mul_pos (by norm_num) hpos).ne']
  rfl

include hx' in
theorem cOf_coe (r : Fin 3000 → EReal) (r' : Fin 3000 → ℝ) (hr : ∀ b, r b = ((r' b : ℝ) : EReal))
    (hpos : ∀ b, 0 < r' b) (n : Fin 32768) : cOf x r n = ((colW 3000 (eR x') r' n : ℝ) : EReal) := by
  have hs : 0 < ∑ b, eR x' n b * r' b :=
    Finset.sum_pos (fun b _ => mul_pos (eR_pos x' n b) (hpos b)) Finset.univ_nonempty
  unfold cOf
  simp only [E_coe x x' hx', hr, ← EReal.coe_mul]
  rw [coe_sum, c3000_eq, ← EReal.coe_mul, c1_eq, div_coe_coe _ _ (mul_pos (by norm_num) hs).ne']
  rfl

include hx' in
theorem rNext_coe (r : Fin 3000 → EReal) (r' : Fin 3000 → ℝ) (hr : ∀ b, r b = ((r' b : ℝ) : EReal))
    (hpos : ∀ b, 0 < r' b) (b : Fin 3000) :
    rNext x r b = ((rNextR 32768 3000 (eR x') r' b : ℝ) : EReal) := by
  have hc := colW_pos 3000 (eR x') (by norm_num) (eR_pos x') r' hpos
  have hs : 0 < ∑ n, eR x' n b * colW 3000 (eR x') r' n :=
    Finset.sum_pos (fun n _ => mul_pos (eR_pos x' n b) (hc n)) Finset.univ_nonempty
  unfold rNext wHalf
  simp only [E_coe x x' hx', cOf_coe x x' hx' r r' hr hpos, ← EReal.coe_mul]
  rw [coe_sum, coe_sum, ← EReal.coe_add, ← sum_halves (fun n => eR x' n b * colW 3000 (eR x') r' n), c32768_eq,
    ← EReal.coe_mul, c1_eq, div_coe_coe _ _ (mul_pos (by norm_num) hs).ne']
  rfl

include hx' in
theorem r2_coe (b : Fin 3000) : r2 x b = ((r2R 32768 3000 (eR x') b : ℝ) : EReal) :=
  rNext_coe x x' hx' _ _ (r1_coe x x' hx') (r1R_pos 32768 (eR x') (by norm_num) (eR_pos x')) b

theorem r2R_pos' (b : Fin 3000) : 0 < r2R 32768 3000 (eR x') b :=
  rNextR_pos 32768 3000 (eR x') (by norm_num) (by norm_num) (eR_pos x') _
    (r1R_pos 32768 (eR x') (by norm_num) (eR_pos x')) b

theorem r3R_pos' (b : Fin 3000) : 0 < r3R 32768 3000 (eR x') b :=
  rNextR_pos 32768 3000 (eR x') (by norm_num) (by norm_num) (eR_pos x') _ (r2R_pos' x') b

include hx' in
theorem r3_coe (b : Fin 3000) : r3 x b = ((r3R 32768 3000 (eR x') b : ℝ) : EReal) :=
  rNext_coe x x' hx' _ _ (r2_coe x x' hx') (r2R_pos' x') b

include hx' in
/-- The specification's array is the coercion of its counterpart over the reals. -/
theorem out_coe (n : Fin 32768) (b : Fin 3000) :
    out x n b = ((outR 32768 3000 (eR x') n b : ℝ) : EReal) := by
  unfold out
  rw [E_coe x x' hx', r3_coe x x' hx', cOf_coe x x' hx' (r3 x) _ (r3_coe x x' hx') (r3R_pos' x'), c3000_eq,
    ← EReal.coe_mul, ← EReal.coe_mul, ← EReal.coe_mul]
  rfl

include hx' in
theorem q0_coe (b : Fin 3000) (n : Fin 32768) : q0 x b n = ((q0R (eR x') b n : ℝ) : EReal) := by
  have hT : 0 < ∑ b', ∑ n', eR x' n' b' :=
    Finset.sum_pos (fun b _ => Finset.sum_pos (fun n _ => eR_pos x' n b) Finset.univ_nonempty) Finset.univ_nonempty
  unfold q0
  simp only [E_coe x x' hx', coe_sum]
  rw [div_coe_coe _ _ hT.ne']
  rfl

theorem q0R_pos' (b : Fin 3000) (n : Fin 32768) : 0 < q0R (eR x') b n :=
  div_pos (eR_pos x' n b)
    (Finset.sum_pos (fun b _ => Finset.sum_pos (fun n _ => eR_pos x' n b) Finset.univ_nonempty) Finset.univ_nonempty)

theorem rowN_coe (q : Fin 3000 → Fin 32768 → EReal) (q' : Fin 3000 → Fin 32768 → ℝ)
    (hq : ∀ b n, q b n = ((q' b n : ℝ) : EReal)) (hpos : ∀ b n, 0 < q' b n) (b : Fin 3000) (n : Fin 32768) :
    rowN q b n = ((rowR 32768 q' b n : ℝ) : EReal) := by
  have hs : 0 < ∑ n', q' b n' := Finset.sum_pos (fun i _ => hpos b i) Finset.univ_nonempty
  unfold rowN
  simp only [hq]
  rw [coe_sum, c32768_eq, ← EReal.coe_mul, div_coe_coe _ _ (mul_pos hs (by norm_num)).ne']
  rfl

theorem colN_coe (q : Fin 3000 → Fin 32768 → EReal) (q' : Fin 3000 → Fin 32768 → ℝ)
    (hq : ∀ b n, q b n = ((q' b n : ℝ) : EReal)) (hpos : ∀ b n, 0 < q' b n) (b : Fin 3000) (n : Fin 32768) :
    colN q b n = ((colR 3000 q' b n : ℝ) : EReal) := by
  have hs : 0 < ∑ b', q' b' n := Finset.sum_pos (fun i _ => hpos i n) Finset.univ_nonempty
  unfold colN
  simp only [hq]
  rw [coe_sum, c3000_eq, ← EReal.coe_mul, div_coe_coe _ _ (mul_pos hs (by norm_num)).ne']
  rfl

include hx' in
/-- The reference's array is the coercion of its counterpart over the reals. -/
theorem refOut_coe (n : Fin 32768) (b : Fin 3000) :
    refOut x n b = ((refR 32768 3000 (eR x') n b : ℝ) : EReal) := by
  have hN : (0 : ℝ) < 32768 := by norm_num
  have hB : (0 : ℝ) < 3000 := by norm_num
  have h0 := q0_coe x x' hx'
  have p0 := q0R_pos' x'
  have h1 := rowN_coe _ _ h0 p0
  have p1 := rowR_pos 32768 hN _ p0
  have h2 := colN_coe _ _ h1 p1
  have p2 := colR_pos 3000 hB _ p1
  have h3 := rowN_coe _ _ h2 p2
  have p3 := rowR_pos 32768 hN _ p2
  have h4 := colN_coe _ _ h3 p3
  have p4 := colR_pos 3000 hB _ p3
  have h5 := rowN_coe _ _ h4 p4
  have p5 := rowR_pos 32768 hN _ p4
  have h6 := colN_coe _ _ h5 p5
  unfold refOut
  rw [h6 b n, c3000_eq, ← EReal.coe_mul]
  rfl

end Transfer

/-- On finite logits the reference's formula is the specification's. -/
theorem refOut_eq_out (x : Fin 32768 → Fin 3000 → EReal) (hx : ∀ n b, ∃ r : ℝ, x n b = (r : EReal)) :
    ∀ n b, refOut x n b = Cert.Sinkhorn.out x n b := by
  intro n b
  choose x' hx' using hx
  rw [refOut_coe x x' hx', out_coe x x' hx',
    refR_eq_outR 32768 3000 (eR x') (by norm_num) (by norm_num) (eR_pos x') n b]

end Cert.RefSide

end
-- ==== Proof.RefResult.lean ====
/-
  The reference's result, on finite logits, is the specification's array.

  The reference program's last stage, read at [n,b], is the formula refOut of the logits; on finite logits refOut is
  the specification's out.
-/
import proofs.«131687_j32452772888869_2_alg».proof.Proof.RefRead
import proofs.«131687_j32452772888869_2_alg».proof.Proof.RefAlgebra

noncomputable section

namespace Cert.RefSide

open Idealize.ShloMosaic Idealize.ShloMosaic.ValueIdx Cert.ReferenceIdeal Cert.ReferenceIdeal.Gen

/-- At every entry [n,b] the reference's result is the specification's array of the logits. -/
theorem ref_result_ix2 (a : FVec Ideal S32768x3000 .f32) (ha : ∀ i, ∃ r : ℝ, a i = (r : EReal))
    (n : Fin 32768) (b : Fin 3000) :
    Cert.ReferenceIdeal.Read.val_main_v43 (F := Ideal) a (ix2 n b)
      = Cert.Sinkhorn.out (fun n b => a (ix2 n b)) n b := by
  rw [val_main_v43_ix2, refOut_eq_out _ (fun n b => ha (ix2 n b))]

/-- The reference's result as one function of the index. -/
theorem ref_result (a : FVec Ideal S32768x3000 .f32) (ha : ∀ i, ∃ r : ℝ, a i = (r : EReal)) :
    Cert.ReferenceIdeal.Read.val_main_v43 (F := Ideal) a
      = fun i => Cert.Sinkhorn.out (fun n b => a (ix2 n b)) (i 0) (i 1) := by
  funext i
  obtain ⟨n, b, rfl⟩ : ∃ (n : Fin 32768) (b : Fin 3000), i = ix2 n b := ⟨i 0, i 1, eq_ix2 i⟩
  exact ref_result_ix2 a ha n b

end Cert.RefSide

end
-- ==== Proof.RefFinite.lean ====
/-
  Finite logits: the precondition says |x| < +∞ at every entry, so every entry is a real.

  The precondition is the conjunction, over all entries, of the comparison |a[i]| < +∞ (the pattern 0x7F800000 is +∞).
  On the extended reals |x| = max x (-x); |⊥| = |⊤| = ⊤ is not below ⊤, so an entry that passes is a real.
-/
import proofs.«131687_j32452772888869_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal

namespace Cert.RefSide

open Idealize.ShloMosaic

/-- The scalar shape has one index. -/
instance subsingleton_scalar_idx : Subsingleton Cert.Pre_finite_inputs.S_.Idx :=
  ⟨fun _ _ => funext fun d => d.elim0⟩

/-- The pattern 0x7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition every logit is a real. -/
theorem finite_of_pre (a : FVec Ideal Cert.Pre_finite_inputs.S32768x3000 .f32)
    (h : Cert.Pre_finite_inputs.fn (F := Ideal) a = fun _ => 1#1) : ∀ i, ∃ r : ℝ, a i = (r : EReal) := by
  intro i
  have h0 := congrFun h ValueIdx.ix0
  dsimp only [Cert.Pre_finite_inputs.fn] at h0
  have hi := Host.reduce_andi_all _ _ _ _ _ h0 i
  have hb : broadcastInDim Cert.Pre_finite_inputs.S32768x3000 ![] Cert.Pre_finite_inputs.Facts.bcast_S_S32768x3000
      (constant (F := Ideal) Cert.Pre_finite_inputs.S_ .f32 0x7F800000#32) i = (⊤ : EReal) :=
    (broadcastInDim_apply _ _ _ i ValueIdx.ix0 (fun d => d.elim0)).trans ofBits_inf_f32
  have hc : Ideal.cmp .olt (max (a i) (-(a i))) (broadcastInDim Cert.Pre_finite_inputs.S32768x3000 ![]
      Cert.Pre_finite_inputs.Facts.bcast_S_S32768x3000
      (constant (F := Ideal) Cert.Pre_finite_inputs.S_ .f32 0x7F800000#32) i) = 1#1 := hi
  rw [hb] at hc
  exact real_of_abs_lt_top _ hc

end Cert.RefSide
-- ==== Proof.lean ====
/-
  Sinkhorn–Knopp normalisation (three rounds) of E = exp(logits), logits an f32 array of 32768 rows and 3000 columns:
  the kernel program (four pallas_calls and three short host stretches) against the textbook jnp reference.

  THE MATHEMATICS. The reference transposes E, rescales it by the reciprocal of its total, and three times divides every
  row by 32768 times its sum and then every column by 3000 times its sum; finally it multiplies by 3000 and transposes
  back. Since every entry of E is a positive real when the logits are finite, each normalisation cancels the weights of
  the one before it (and the first cancels the global rescale), so the result is E[n,b]·r₃[b]·c₃[n]·3000 with
    r₁[b] = 1/(32768·Σₙ E[n,b]),  c_r[n] = 1/(3000·Σ_b E[n,b]·r[b]),  r⁺[b] = 1/(32768·Σₙ E[n,b]·c_r[n]),
  r₂ = r₁⁺, r₃ = r₂⁺, c₃ = c_{r₃}: the function `Cert.Sinkhorn.out` of Proof/Spec.lean. The kernel computes exactly this,
  in this order: its first call writes E and the column sums of E (as two half sums, each accumulated over 32 row tiles
  in a scratch accumulator), a host stretch adds the halves, scales and inverts (r₁); two fused calls form c_r tile by
  tile and accumulate the column sums of E·c_r the same way (r₂, r₃); the last call writes the output tile by tile. On
  the extended reals a change of float format is the identity, so the bf16 copy of E is E, and regrouping a sum needs
  no finiteness; only the reference's cancellations use that the logits are finite.

  THE PROOF. The three frames: the kernel program's run (Proof/KIRun.lean at the ideal instance; Proof/KBRun.lean, the same
  text for the word-level program) follows the contents of every unscoped buffer through the seven segments of @main,
  each call a region of the pipeline library whose invariant names the accumulator's contents from point to point; the
  reference's frame is its generated run. `preserves` is trivial: the idealisation rewrote nothing. `algebraic`: the
  kernel's result array is `out` of the launched logits (Proof/KIValue.lean, from the calls' arrays read index by index
  in Proof/KVal*.lean), and so is the reference's result on finite logits (Proof/Ref*.lean).
-/
import proofs.«131687_j32452772888869_2_alg».proof.Defs
import proofs.«131687_j32452772888869_2_alg».proof.Proof.Gen.Kernel
import proofs.«131687_j32452772888869_2_alg».proof.Proof.Gen.KernelIdeal
import proofs.«131687_j32452772888869_2_alg».proof.Proof.Gen.ReferenceIdeal
import proofs.«131687_j32452772888869_2_alg».proof.Proof.Gen.Pre_finite_inputs
import proofs.«131687_j32452772888869_2_alg».proof.Proof.Gen.ReferenceIdeal.Read
import proofs.«131687_j32452772888869_2_alg».proof.Proof.KBRun
import proofs.«131687_j32452772888869_2_alg».proof.Proof.KIValue
import proofs.«131687_j32452772888869_2_alg».proof.Proof.RefResult
import proofs.«131687_j32452772888869_2_alg».proof.Proof.RefFinite

noncomputable section

namespace Cert.Proof

open Idealize.ShloMosaic Idealize.ShloMosaic.TcCoe Idealize.SL.Sem

/-- The word-level program runs to the end, faults nowhere and leaves the logits as launched. -/
theorem frame_kernel : Cert.frame_Kernel := fun m ρ _ =>
  (θ_run Cert.Kernel.defs _ _).mono (fun _ h c => (h c).2) (Cert.KBFrame.run_all (F := Bits) m ρ)

/-- So does the idealised program. -/
theorem frame_kernelIdeal : Cert.frame_KernelIdeal := fun m ρ _ =>
  (θ_run Cert.KernelIdeal.defs _ _).mono (fun _ h c => (h c).2) (Cert.KIFrame.run_all (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On finite logits the two idealised programs end with the same array: both results are the specification's
    normalised array of the launched logits. -/
theorem algebraic :
    Cert.algebraic_KernelIdeal_ReferenceIdeal := by
  intro m ρ m' ρ' hpre hagree
  refine ⟨fun c => Cert.KIFrame.W7 (F := Ideal) m ρ c (Proc.devRef .tc Cert.KernelIdeal.main_v24), Cert.KIFrame.run_all (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v43_eq, hagree c,
    Cert.RefSide.ref_result _ (Cert.RefSide.finite_of_pre _ (hpre c))]
  exact (Cert.KIValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
